-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S3072x1024 .f32) (main_arg2 : FVec F S3072 .f32) (main_arg3 : FVec F S3072 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩
abbrev S1x512x64 : Shape := ⟨3, ![1, 512, 64]⟩
abbrev S64x1024 : Shape := ⟨2, ![64, 1024]⟩
abbrev S512x64 : Shape := ⟨2, ![512, 64]⟩

abbrev nBuf : Space → Nat
  | .hbm => 30
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S8192x3072, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S4x2048x16x64, .bf16⟩
  | .hbm, ⟨16, _⟩ => ⟨S4x16x2048x64, .bf16⟩
  | .hbm, ⟨17, _⟩ => ⟨S64x2048x64, .bf16⟩
  | .hbm, ⟨18, _⟩ => ⟨S4x2048x16x64, .bf16⟩
  | .hbm, ⟨19, _⟩ => ⟨S4x16x2048x64, .bf16⟩
  | .hbm, ⟨20, _⟩ => ⟨S64x2048x64, .bf16⟩
  | .hbm, ⟨21, _⟩ => ⟨S4x2048x16x64, .bf16⟩
  | .hbm, ⟨22, _⟩ => ⟨S4x16x2048x64, .bf16⟩
  | .hbm, ⟨23, _⟩ => ⟨S64x2048x64, .bf16⟩
  | .hbm, ⟨24, _⟩ => ⟨S64x2048x64, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S8192x1024, .f32⟩
  | .hbm, ⟨29, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x512x64, .bf16⟩
  | .local _ .vmem, ⟨15, _⟩ => ⟨S1x512x64, .bf16⟩
  | .local _ .vmem, ⟨16, _⟩ => ⟨S64x1024, .bf16⟩
  | .local _ .vmem, ⟨17, _⟩ => ⟨S64x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_9 : BitVec 32 := 0#32
  let v15 : BitVec 1 := Scalar.cmpi .ne v14 c0_i32_9
  v15

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v16 c16_i32
  let v28 : BitVec 32 := Scalar.addi v27 arg1
  let c0_i32_10 : BitVec 32 := 0#32
  let c0_i32_11 : BitVec 32 := 0#32
  ![v28.toNat, v26.toNat, c0_i32_10.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S4x2048x1024_S8192x1024 : S4x2048x1024.ShapeCasts S8192x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  transposes_S1024x1024_S1024x1024_1_0 : S1024x1024.Transposes [1, 0] S1024x1024
  shapeCasts_S1024_S1x1024 : S1024.ShapeCasts S1x1024
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S64x2048x64.size a
  hwx2_0 : ∀ i : grid2.Coords, EltTy.bits .bf16 = 32 ∨ (Rect.block (s := S64x2048x64) S1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S1024x1024.size a
  hwx2_1 : ∀ i : grid2.Coords, EltTy.bits .bf16 = 32 ∨ (Rect.block (s := S1024x1024) S64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072, .f32⟩
  | .hbm, ⟨7, _⟩ => ⟨S4x2048x3072, .f32⟩
  | .hbm, ⟨8, _⟩ => ⟨S1x1x3072, .f32⟩
  | .hbm, ⟨9, _⟩ => ⟨S4x2048x3072, .f32⟩
  | .hbm, ⟨10, _⟩ => ⟨S4x2048x3072, .f32⟩
  | .hbm, ⟨11, _⟩ => ⟨S4x2048x3x16x64, .f32⟩
  | .hbm, ⟨12, _⟩ => ⟨S3x4x16x2048x64, .f32⟩
  | .hbm, ⟨13, _⟩ => ⟨S1x4x16x2048x64, .f32⟩
  | .hbm, ⟨14, _⟩ => ⟨S4x16x2048x64, .f32⟩
  | .hbm, ⟨15, _⟩ => ⟨S1x4x16x2048x64, .f32⟩
  | .hbm, ⟨16, _⟩ => ⟨S4x16x2048x64, .f32⟩
  | .hbm, ⟨17, _⟩ => ⟨S1x4x16x2048x64, .f32⟩
  | .hbm, ⟨18, _⟩ => ⟨S4x16x2048x64, .f32⟩
  | .hbm, ⟨19, _⟩ => ⟨S4x16x2048x2048, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.I.Region0.lean ====
/-
  Stage 1 of the program, the dense layer, as the pipeline runs it: sixteen grid points, point t handling rows
  512·t … 512·t + 511 of the 8192-row input x. At every point the body reads three staging buffers whole — the
  512 × 1024 block of x, the whole 1024 × 3072 weight w, the whole 1 × 3072 bias row b — and overwrites the fourth
  whole with the block's product with w plus the bias row broadcast down the 512 rows, rounded to the narrow format.

  This module states that half of the frame for this stage, at any float instance and at any contents V of the
  core's buffers when the stage is entered: what each window's block is at a point (its rectangle of the window's
  array read off V), what the body leaves in the output buffer as a function of the three input blocks (the one
  store's payload laid over the whole buffer), the pipeline's proof data built from these, and the body obligation:
  called at point t with each input buffer holding its block — whether the pipeline fetched it there or not: the
  weight and the bias are fetched once, at the first point, and their block index never moves afterwards —, the
  body returns with the inputs as found and the output buffer at that function of the blocks.
-/
import proofs.«116995_j6871947673702_2_alg».proof.Proof.Gen.KernelIdeal.Launch
import proofs.«116995_j6871947673702_2_alg».proof.Proof.Gen.KernelIdeal.Skeleton
import proofs.«116995_j6871947673702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the stage is entered: the parameter everything below is stated at
variable (V : (c : Dev nD) → (b : Ref sig .tc) → Buf (Elt F) ((c : Thread nD τ).loc b))

/-! ## The windows' blocks -/

/-- Window w's block at point t: the window's rectangle there, read off its array as the stage finds it. For the
    input x and the output that is rows 512·t … 512·t + 511; for the weight and the bias row it is the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each of the four staging buffers, whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output buffer after the body, from the three input blocks: its one store, of the body's arithmetic on the
    three loads, laid over the whole buffer. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-! ## The pipeline's proof data -/

/-- The proof data of this stage's pipeline on core c: the arrays as the stage finds them; after the body at point t
    each input's buffer still at its block and the output's at out0_3 of the three input blocks; the invariant that
    of a body that touches nothing but its windows' buffers (the other scoped buffers and the generator register
    pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents the stage is entered with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer: its block, fetched there or not -/

/-- The input x's current staging buffer holds its block at every point, for ANY proof data whose array is the
    entry contents and whose body leaves the block in place: where the pipeline did not fetch, the block index has
    not moved since the previous point, whose block is then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of the weight, fetched at the first point only: its block is the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of the bias row, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- The body's one store is of the whole output buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging buffers, the three inputs' at read contents x0, x1, x2 and the output's at anything,
    runs to a state with the inputs' buffers as they were and the output's at out0_3 of the three: three whole loads,
    one (unused) load of the output buffer, one whole store of the arithmetic on the three loads. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.I.Region1.lean ====
/-
  The attention stage as a pipeline body, at any float instance.

  The stage's grid has 64 x 2 points: point (g, half) works on head g and on the 1024 query rows
  1024 * half, ..., 1024 * half + 1023 of that head.  At a point the body reads three blocks whole: the query
  block [1, 1024, 64], the head's keys [1, 2048, 64] and the head's values [1, 2048, 64]; it then overwrites the whole
  output block [1, 1024, 64] with one value computed from the three.  Nothing else is touched.

  This module says what each staging buffer holds after the body at a point, as a function of the arrays as the
  stage finds them (the parameter V), and proves that the body, run on buffers holding the three input blocks,
  leaves exactly that: the three input blocks unchanged and the output block at the single stored value.  The keys
  and the values change only with the head, so they are fetched at every second point; between two fetches the
  block index has not moved, and the buffer still holds the block of the point: the statement about the inputs
  does not depend on the fetch schedule.
-/
import proofs.«116995_j6871947673702_2_alg».proof.Proof.Gen.KernelIdeal.Launch
import proofs.«116995_j6871947673702_2_alg».proof.Proof.Gen.KernelIdeal.Skeleton
import proofs.«116995_j6871947673702_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the attention stage is entered
variable (V : (c : Dev nD) → (b : Ref sig .tc) → Buf (Elt F) ((c : Thread nD τ).loc b))

/-! ## The windows' blocks -/

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, for any proof data over the arrays V
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the head's keys at every point, fetched there or not: where it is not
    fetched the head has not changed. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the head's values at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query (and output) block, and the whole key (and value) block, as rectangles. -/
abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0

/-! ## What the body leaves in the output window's buffer -/

/-- The output block after the body, from the three input blocks: the one store of the attention value of the
    three whole loads. -/
def out1_3 (x0 : Vec F S1x1024x64 .bf16) (x1 : Vec F S1x2048x64 .bf16) (x2 : Vec F S1x2048x64 .bf16) : Vec F S1x1024x64 .bf16 :=
  View.canon [⟨r1_0, k1_pay1 (View.ld x0 r1_0) (View.ld x1 r1_1) (View.ld x2 r1_1)⟩]

/-- The one store is of the whole block, so it covers it. -/
theorem cover1_3 (p0 : Vec F S1x1024x64 .bf16) (y : S1x1024x64.Idx) :
    ∃ pc ∈ ([⟨r1_0, p0⟩] : List (View.Piece (Elt F) S1x1024x64 .bf16)), y ∈ pc.1.set :=
  View.cover_of_tiled [⟨r1_0, p0⟩] S1x1024x64.size (by rfl) y

/-! ## The body's triple -/

set_option maxHeartbeats 1000000 in
/-- The body on whole staging buffers, the three inputs' holding x0, x1, x2 and the output's holding anything,
    runs to the continuation with the inputs' as they were and the output's at out1_3 of the three. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The stage's proof data -/

/-- The proof data of the attention stage on core c: the arrays as the stage finds them; after the body at point t
    each input's buffer at its block and the output's at out1_3 of the three input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents the stage is entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention stage, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.I.Region2Runs.lean ====
/-
  The third call: sixteen row blocks of 512 output rows, and inside a row block one step per head h = 0 .. 15.
  A 512 x 1024 accumulator lives in a buffer of the call's own and is carried from one step to the next:
  at h = 0 it is first set to zero; at every h the product of the head's 512 x 64 block with rows 64·h .. 64·h + 63
  of the weight is added to it; at h = 15 the accumulator plus the bias row is written to the output block.
  Point number t = 16·i + h, so h = t mod 16.

  This module holds what the three control cases share: the two branch conditions in closed form over the grid,
  where the output window is idle and where it is written back, the buffers the body is called with, each
  window's block read off the array as the call finds it, and the call's invariant opened so that the
  accumulator's buffer stands apart from the other calls' staging buffers.
-/
import proofs.«116995_j6871947673702_2_alg».proof.Proof.Gen.KernelIdeal.Launch
import proofs.«116995_j6871947673702_2_alg».proof.Proof.Gen.KernelIdeal.Skeleton
import proofs.«116995_j6871947673702_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The first branch of the body: the head index is 0 (the accumulator is zeroed). -/
abbrev cond2_0 (i : grid2.Coords) : Prop := (Scalar.cmpi .ne (Scalar.extui (Scalar.cmpi .eq (BitVec.ofNat 32 (i 1).val) 0#32)) 0#32) = 1#1
/-- It holds exactly at the first step of each row block. -/
theorem hcond2_0 : ∀ t : Fin cfg2.N, cond2_0 (grid2.coords t) ↔ t.val % 16 = 0 :=
  (by decide +kernel : ∀ t : Fin grid2.N, cond2_0 (grid2.coords t) ↔ t.val % 16 = 0)

/-- The second branch of the body: the head index is 15 (the output block is written). -/
abbrev cond2_1 (i : grid2.Coords) : Prop := k2_cond2 i = 1#1
/-- It holds exactly at the last step of each row block. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last step of a row block the output window is idle, -/
theorem idleAt2_3 : ∀ t : Fin cfg2.N, ¬cond2_1 (grid2.coords t) → cfg2.idle 3 (grid2.coords t) = true := by decide +kernel
/-- and its block is not written back there. -/
theorem noFlush2_3 : ∀ t : Fin cfg2.N, ¬cond2_1 (grid2.coords t) → (cfg2.win 3).flush t = false := by decide +kernel
/-- At the last step of a row block the output window is live. -/
theorem liveAt2_3 : ∀ t : Fin cfg2.N, cond2_1 (grid2.coords t) → cfg2.idle 3 (grid2.coords t) = false := by decide +kernel

/-! ## The buffers the body is called with -/

abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator's buffer, whole. -/
abbrev scM2 : Memref sig .tc .vmem S512x1024 .f32 := Memref.whole cc2_scratch0
/-- The accumulator's buffer as a view: what it holds is stated through it. -/
abbrev VS2 : View sig .tc .vmem S512x1024 .f32 := (scM2).view
/-- One staging buffer of the output window, through which its contents are stated (the choice does not matter). -/
abbrev VO2_3 : View sig .tc .vmem S512x1024 .f32 := (Memref.whole cc2_stg3_0 : Memref sig .tc .vmem S512x1024 .f32).view

/-! ## The call's invariant, with the accumulator's buffer apart -/

/-- The other calls' staging buffers, each at some contents, a statement S about the accumulator's buffer, and the
    generator register at some state. -/
def held2 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S) ∗ (∃ r, prngReg c r))

/-- The same without the accumulator's buffer. -/
def rest2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r))

/-- What the launch hands the call is held2 with the accumulator's buffer at some contents. -/
theorem PhiA2_eq (c : Dev nD) :
    (Pipeline.ΦA spec2 c : sProp 𝕄) = held2 c iprop(∃ d, owns (c : Thread nD τ) scM2 fullShare d) := by
  unfold Pipeline.ΦA held2; rw [scopedRest2_eq]; simp only [scM2, owns_whole]; try rfl

/-- The accumulator's part taken out of the invariant, -/
theorem held2_split (c : Dev nD) (S : sProp 𝕄) : held2 c S ⊢ iprop(S ∗ rest2 c) := by
  unfold held2 rest2
  iintro ⟨⟨H1, H2, H3, H4, H5, H6, H7, H8, H9, H10, H11, H12, H13, H14, HS⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- and put back. -/
theorem held2_join (c : Dev nD) (S : sProp 𝕄) : iprop(S ∗ rest2 c) ⊢ held2 c S := by
  unfold held2 rest2
  iintro ⟨HS, ⟨H1, H2, H3, H4, H5, H6, H7, H8, H9, H10, H11, H12, H13, H14⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HS

/-- The statement about the accumulator's buffer may be weakened inside the invariant. -/
theorem held2_mono (c : Dev nD) {S S' : sProp 𝕄} (h : S ⊢ S') : held2 c S ⊢ held2 c S' := by
  iintro H
  ihave H' := (held2_split c S) $$ H
  icases H' with ⟨HS, HR⟩
  iapply (held2_join c S')
  isplitl [HS]
  · iapply h; iexact HS
  iexact HR

section Blocks
variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Hand

end
-- ==== Proof.I.Region2RunA.lean ====
/-
  The third call's body at the first step of a row block (h = 0): the accumulator is set to zero and the first head's product added; the output block is not touched.
  The body is run once on arbitrary whole buffers: the inputs at named contents come back unchanged, and what the
  body's stores leave in the accumulator's buffer is recorded as the list of stored pieces, last first.
-/
import proofs.«116995_j6871947673702_2_alg».proof.Proof.I.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at xi3 (handed back untouched),
    the accumulator's buffer at anything (it is overwritten before it is read); it runs to the continuation holding the inputs as they were and
    each written buffer with its pieces written. -/
noncomputable def kernelRun2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨[], ?_, fun xi3 E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.I.Region2RunB.lean ====
/-
  The third call's body at a middle step of a row block (0 < h < 15): the head's product is added to the accumulator; the output block is not touched.
  The body is run once on arbitrary whole buffers: the inputs at named contents come back unchanged, and what the
  body's stores leave in the accumulator's buffer is recorded as the list of stored pieces, last first.
-/
import proofs.«116995_j6871947673702_2_alg».proof.Proof.I.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at xi3 (handed back untouched),
    the accumulator's buffer at xs0, what the step before left; it runs to the continuation holding the inputs as they were and
    each written buffer with its pieces written. -/
noncomputable def kernelRun2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨[], ?_, fun xi3 E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.I.Region2RunC.lean ====
/-
  The third call's body at the last step of a row block (h = 15): the last head's product is added to the accumulator, and the accumulator plus the bias row is stored as the output block.
  The body is run once on arbitrary whole buffers: the inputs at named contents come back unchanged, and what the
  body's stores leave in the accumulator's buffer and in the output block's buffer is recorded as the list of stored pieces, last first.
-/
import proofs.«116995_j6871947673702_2_alg».proof.Proof.I.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at anything,
    the accumulator's buffer at xs0, what the step before left; it runs to the continuation holding the inputs as they were and
    each written buffer with its pieces written. -/
noncomputable def kernelRun2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨?_, ?_, fun E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.I.Region2.lean ====
/-
  The third call, as one region entered at buffer contents V: the proof data of its pipeline and the body's
  obligation at every grid point.

  The accumulator after point n (accAt2) is defined by recursion on n along the grid order t = 16·i + h:
  at h = 0 it is what the first-step case leaves from the three input blocks at n (the zeroing, then the first
  head's product); at 0 < h it is what the middle-step (or, at h = 15, last-step) case leaves from the blocks at n
  and the accumulator after point n - 1. The output window's buffer after a point with h = 15 (out2_3) is what the
  last-step case stores there: the accumulator plus the bias row. Elsewhere the output window is idle: the body
  hands its buffer back as it found it, and the pipeline does not write it back.

  The invariant between points is the launch's before the first point and, after point n, the same with the
  accumulator's buffer held at accAt2 n; at the end the named contents are forgotten again.
-/
import proofs.«116995_j6871947673702_2_alg».proof.Proof.I.Region2RunA
import proofs.«116995_j6871947673702_2_alg».proof.Proof.I.Region2RunB
import proofs.«116995_j6871947673702_2_alg».proof.Proof.I.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The pieces this case stores into the accumulator's buffer cover it (one whole-buffer store is the last of them). -/
theorem scover2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What this case leaves in the accumulator's buffer: its pieces read back. -/
def sout2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) : Vec F S512x1024 .f32 :=
  VS2.read (Elt F) (VS2.writes (Elt F) VS2.junk (kernelRun2_A c i arg2 harg2 arg3 harg3 arg4 harg4 arg5 harg5 arg6 harg6 hc0 hc1 x0 x1 x2).2.1)

/-- The pieces this case stores into the accumulator's buffer cover it (one whole-buffer store is the last of them). -/
theorem scover2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What this case leaves in the accumulator's buffer: its pieces read back. -/
def sout2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) : Vec F S512x1024 .f32 :=
  VS2.read (Elt F) (VS2.writes (Elt F) VS2.junk (kernelRun2_B c i arg2 harg2 arg3 harg3 arg4 harg4 arg5 harg5 arg6 harg6 hc0 hc1 x0 x1 x2 xs0).2.1)

/-- The pieces this case stores into the accumulator's buffer cover it (one whole-buffer store is the last of them). -/
theorem scover2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What this case leaves in the accumulator's buffer: its pieces read back. -/
def sout2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) : Vec F S512x1024 .f32 :=
  VS2.read (Elt F) (VS2.writes (Elt F) VS2.junk (kernelRun2_C c i arg2 harg2 arg3 harg3 arg4 harg4 arg5 harg5 arg6 harg6 hc0 hc1 x0 x1 x2 xs0).2.1)

/-- The last-step case's one store into the output block's buffer covers it. -/
theorem cover2_C_3 (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the last-step case leaves in the output block's buffer: its pieces read back. -/
def out2_C_3 (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

section Region
variable (V : (c : Dev nD) → (b : Ref sig .tc) → Buf (Elt F) ((c : Thread nD τ).loc b))

/-! ## The accumulator after each point -/

/-- The accumulator's contents after the body at point n, by recursion along the grid order. -/
def accAt2 (c : Dev nD) : (n : ℕ) → n < cfg2.N → Vec F S512x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 16 = 0 then
      if h1 : (n + 1) % 16 = 15 then
        False.elim (by omega)
      else
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 16 = 15 then
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
      else
        sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

/-- At the first step of a row block: the first-step case's contents, from the blocks alone. -/
theorem accAt2_A (c : Dev nD) (t : Fin cfg2.N) (h0 : t.val % 16 = 0) (h1 : ¬t.val % 16 = 15) :
    accAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

/-- At a middle step: the middle-step case's contents, over what the point before left. -/
theorem accAt2_B (c : Dev nD) (t : Fin cfg2.N) (h0 : ¬t.val % 16 = 0) (h1 : ¬t.val % 16 = 15) :
    accAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last step: the last-step case's contents, over what the point before left. -/
theorem accAt2_C (c : Dev nD) (t : Fin cfg2.N) (h0 : ¬t.val % 16 = 0) (h1 : t.val % 16 = 15) :
    accAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the body leaves in the output window's buffer at a point: at the last step of a row block the last-step
    case's store (the accumulator plus the bias row); elsewhere the window is idle and this value is not consulted. -/
def out2_3 (c : Dev nD) (t : Fin cfg2.N) : Vec F S512x1024 .f32 :=
  if h1 : t.val % 16 = 15 then
    out2_C_3 c (grid2.coords t) (ms2_0 t) (hs2_0 t) (ms2_1 t) (hs2_1 t) (ms2_2 t) (hs2_2 t) (ms2_3 t) (hs2_3 t) scM2 (Memref.isWhole_whole _) (fun h => (fun h0 : t.val % 16 = 0 => by omega) ((hcond2_0 t).mp h)) ((hcond2_1 t).mpr h1) (iblk2 V c 0 t) (iblk2 V c 1 t) (iblk2 V c 2 t) (accAt2 V c (t.val - 1) (Nat.lt_of_le_of_lt (Nat.sub_le _ _) t.isLt))
  else
    VO2_3.read (Elt F) (VO2_3.writes (Elt F) VO2_3.junk [])

theorem out2_3_C (c : Dev nD) (t : Fin cfg2.N) (h0 : ¬t.val % 16 = 0) (h1 : t.val % 16 = 15) :
    out2_3 V c t = out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) :=
  (dif_pos h1).trans rfl

/-! ## The invariant between points -/

/-- Before point n: the launch's invariant at n = 0; afterwards the same with the accumulator's buffer at what the
    point before left. -/
def PhiS2 (c : Dev nD) : (n : ℕ) → n ≤ cfg2.N → sProp 𝕄
  | 0, _ => Pipeline.ΦA spec2 c
  | n + 1, hn => held2 c (owns (c : Thread nD τ) scM2 fullShare (accAt2 V c n hn))

theorem PhiS2_succ (c : Dev nD) (n : ℕ) (hn : n < cfg2.N) :
    PhiS2 V c (n + 1) hn = held2 c (owns (c : Thread nD τ) scM2 fullShare (accAt2 V c n hn)) := rfl

theorem PhiS2_pos (c : Dev nD) (n : ℕ) (h : n ≤ cfg2.N) (hz : n ≠ 0) :
    PhiS2 V c n h = held2 c (owns (c : Thread nD τ) scM2 fullShare (accAt2 V c (n - 1) (by omega))) := by
  cases n with
  | zero => exact absurd rfl hz
  | succ n => rfl

/-- At any point the invariant gives the launch's back: the accumulator's named contents are forgotten. -/
theorem PhiS2_any (c : Dev nD) (n : ℕ) (h : n ≤ cfg2.N) :
    PhiS2 V c n h ⊢ held2 c iprop(∃ d, owns (c : Thread nD τ) scM2 fullShare d) := by
  cases n with
  | zero => rw [show PhiS2 V c 0 h = Pipeline.ΦA spec2 c from rfl, PhiA2_eq]
  | succ n =>
    rw [PhiS2_succ]
    refine held2_mono c ?_
    iintro H; iexists _; iexact H

/-! ## The pipeline's proof data -/

/-- The proof data of the third call's pipeline on core c: the arrays as the call finds them; after the body each
    input's buffer at its block and the output's at out2_3; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) : (dat2 V c).after 3 t = out2_3 V c t := by dsimp only [dat2]
/-- What the body leaves in the output window's buffer at the last step of a row block. -/
theorem after2_3 (c : Dev nD) (t : Fin cfg2.N) (h : t.val % 16 = 15) : (dat2 V c).after 3 t = out2_3 V c t := after2_3' V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in;
    the invariant hands the body the accumulator's buffer at what the point before left (at anything at a first
    step) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [PhiS2_castSucc V c t]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [accAt2_A V c t h0 h1]
    unfold sout2_A; (try dsimp only)
    · iintro ⟨HP, Ho, ⟨%d0, H0⟩, ⟨%d1, H1⟩, ⟨%d2, H2⟩, ⟨%d3, H3⟩⟩
      ihave HP1 := (PhiS2_any V c t.val _) $$ HP
      ihave HP2 := (held2_split c _) $$ HP1
      icases HP2 with ⟨HS0, HR⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · iapply (held2_join c _)
        isplitl [HS0]
        · unfold owns; iexists _; isplitr
          swap; · iexact HS0
          ipureintro; exact View.read_writes_of_cover _ _ _ _ _ (scover2_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS2_pos V c _ _ hz]
    by_cases h1 : t.val % 16 = 15
    · rw [show (dat2 V c).leavesExact 3 t = owns (c : Thread nD τ) (ms2_3 t) fullShare ((dat2 V c).after 3 t) from by
          unfold Dat.leavesExact; rw [liveAt2_3 t ((hcond2_1 t).mpr h1)], after2_3']
      rw [accAt2_C V c t h0 h1, out2_3_C V c t h0 h1]
      unfold out2_C_3 sout2_C; (try dsimp only)
      iintro ⟨HP, Ho, ⟨%d0, H0⟩, ⟨%d1, H1⟩, ⟨%d2, H2⟩, ⟨%d3, H3⟩⟩
      ihave HP2 := (held2_split c _) $$ HP
      icases HP2 with ⟨HS0, HR⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR]
      · iapply (held2_join c _)
        isplitl [HS0]
        · unfold owns; iexists _; isplitr
          swap; · iexact HS0
          ipureintro; exact View.read_writes_of_cover _ _ _ _ _ (scover2_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [accAt2_B V c t h0 h1]
      unfold sout2_B; (try dsimp only)
      iintro ⟨HP, Ho, ⟨%d0, H0⟩, ⟨%d1, H1⟩, ⟨%d2, H2⟩, ⟨%d3, H3⟩⟩
      ihave HP2 := (held2_split c _) $$ HP
      icases HP2 with ⟨HS0, HR⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · iapply (held2_join c _)
        isplitl [HS0]
        · unfold owns; iexists _; isplitr
          swap; · iexact HS0
          ipureintro; exact View.read_writes_of_cover _ _ _ _ _ (scover2_B c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl]
  exact Idealize.SL.BI.Entails.refl _

/-- After the last point the invariant gives the launch's back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Region

end Cert.KernelIdeal.Hand

end
-- ==== Proof.I.Run.lean ====
/-
  The whole program as one run. Its entry point is seven segments in a row: a stretch of host operations, the
  dense layer's region, the stretch that cuts the layer's output into queries, keys and values head by head, the attention
  region, the stretch that prepares the projection's weight and bias, the projection region, and the final reshape.
  The contents of every buffer a segment can change are named at each of the eight boundaries, as a fold from the launch
  memory: a host stretch applies its operations; a region leaves each of its windows' arrays at what its write-backs
  fold to and every other buffer as it found it. Each region is entered from "every unscoped buffer at the boundary's
  contents" and left at the next boundary's; the run ends with every unscoped buffer read against the last boundary, which
  gives both the six argument arrays unchanged and the result array's contents by name.
-/
import proofs.«116995_j6871947673702_2_alg».proof.Proof.I.Region0
import proofs.«116995_j6871947673702_2_alg».proof.Proof.I.Region1
import proofs.«116995_j6871947673702_2_alg».proof.Proof.I.Region2
import proofs.«116995_j6871947673702_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the first host stretch (the dense layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the dense layer: its arrays at what the write-backs fold to. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the head-splitting stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the stretch that prepares the projection's operands (the projection region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the projection region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the final reshape: the run's last boundary. -/
abbrev W7 : Dev nD → Valuation τ sig (Elt F) := fun c => StableHlo.after hostOps3 (W6 m ρ c)

/-! ## An argument array is never written: no host operation's result and no region's window is an argument -/

theorem W7_arg (c : Dev nD) (r : Ref sig .tc)
    (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The dense layer's region: entered from every unscoped buffer at W1, left at W2. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at W5, left at W6. Its invariant tracks the accumulator;
    it is entered from, and gives back, the scoped buffers untouched and the generator register. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry point as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of the entry point terminates, nothing
    faulting, and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ (∃ r, prngReg c r)
            ∗ ∃ W, owes (c : Thread nD τ) (0 : CellTallies nD τ sig Unit) W) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.I.Frames.lean ====
/-
  The program leaves its six argument arrays as launched. The run of the whole program ends with every unscoped
  buffer at the last boundary's contents; an argument array is the result of no host operation and the array of no
  window of any of the three pipelines, so walking the boundaries back from the last one — a host stretch changes only
  its operations' results, a region only its windows' arrays — reaches the launch memory at each of the six.
-/
import proofs.«116995_j6871947673702_2_alg».proof.Proof.I.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-! ## Each argument at the last boundary -/

theorem W7_main_arg0 (c : Dev nD) : W7 m ρ c (Proc.devRef .tc main_arg0) = m ((c : Thread nD τ).loc main_arg0) :=
  W7_arg m ρ c main_arg0 (by decide) (by decide) (by decide) (by decide) (by decide) (by decide) (by decide)
theorem W7_main_arg1 (c : Dev nD) : W7 m ρ c (Proc.devRef .tc main_arg1) = m ((c : Thread nD τ).loc main_arg1) :=
  W7_arg m ρ c main_arg1 (by decide) (by decide) (by decide) (by decide) (by decide) (by decide) (by decide)
theorem W7_main_arg2 (c : Dev nD) : W7 m ρ c (Proc.devRef .tc main_arg2) = m ((c : Thread nD τ).loc main_arg2) :=
  W7_arg m ρ c main_arg2 (by decide) (by decide) (by decide) (by decide) (by decide) (by decide) (by decide)
theorem W7_main_arg3 (c : Dev nD) : W7 m ρ c (Proc.devRef .tc main_arg3) = m ((c : Thread nD τ).loc main_arg3) :=
  W7_arg m ρ c main_arg3 (by decide) (by decide) (by decide) (by decide) (by decide) (by decide) (by decide)
theorem W7_main_arg4 (c : Dev nD) : W7 m ρ c (Proc.devRef .tc main_arg4) = m ((c : Thread nD τ).loc main_arg4) :=
  W7_arg m ρ c main_arg4 (by decide) (by decide) (by decide) (by decide) (by decide) (by decide) (by decide)
theorem W7_main_arg5 (c : Dev nD) : W7 m ρ c (Proc.devRef .tc main_arg5) = m ((c : Thread nD τ).loc main_arg5) :=
  W7_arg m ρ c main_arg5 (by decide) (by decide) (by decide) (by decide) (by decide) (by decide) (by decide)

/-! ## The frame -/

/-- From any memory with zero counters every weakly fair execution of the entry point terminates, nothing faulting,
    and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c)⟩)
    (run_all m ρ)

end Cert.KernelIdeal.Hand

end
-- ==== Proof.B.Region0.lean ====
/-
  Stage 1 of the program, the dense layer, as the pipeline runs it: sixteen grid points, point t handling rows
  512·t … 512·t + 511 of the 8192-row input x. At every point the body reads three staging buffers whole — the
  512 × 1024 block of x, the whole 1024 × 3072 weight w, the whole 1 × 3072 bias row b — and overwrites the fourth
  whole with the block's product with w plus the bias row broadcast down the 512 rows, rounded to the narrow format.

  This module states that half of the frame for this stage, at any float instance and at any contents V of the
  core's buffers when the stage is entered: what each window's block is at a point (its rectangle of the window's
  array read off V), what the body leaves in the output buffer as a function of the three input blocks (the one
  store's payload laid over the whole buffer), the pipeline's proof data built from these, and the body obligation:
  called at point t with each input buffer holding its block — whether the pipeline fetched it there or not: the
  weight and the bias are fetched once, at the first point, and their block index never moves afterwards —, the
  body returns with the inputs as found and the output buffer at that function of the blocks.
-/
import proofs.«116995_j6871947673702_2_alg».proof.Proof.Gen.Kernel.Launch
import proofs.«116995_j6871947673702_2_alg».proof.Proof.Gen.Kernel.Skeleton
import proofs.«116995_j6871947673702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the stage is entered: the parameter everything below is stated at
variable (V : (c : Dev nD) → (b : Ref sig .tc) → Buf (Elt F) ((c : Thread nD τ).loc b))

/-! ## The windows' blocks -/

/-- Window w's block at point t: the window's rectangle there, read off its array as the stage finds it. For the
    input x and the output that is rows 512·t … 512·t + 511; for the weight and the bias row it is the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each of the four staging buffers, whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output buffer after the body, from the three input blocks: its one store, of the body's arithmetic on the
    three loads, laid over the whole buffer. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-! ## The pipeline's proof data -/

/-- The proof data of this stage's pipeline on core c: the arrays as the stage finds them; after the body at point t
    each input's buffer still at its block and the output's at out0_3 of the three input blocks; the invariant that
    of a body that touches nothing but its windows' buffers (the other scoped buffers and the generator register
    pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents the stage is entered with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer: its block, fetched there or not -/

/-- The input x's current staging buffer holds its block at every point, for ANY proof data whose array is the
    entry contents and whose body leaves the block in place: where the pipeline did not fetch, the block index has
    not moved since the previous point, whose block is then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of the weight, fetched at the first point only: its block is the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of the bias row, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- The body's one store is of the whole output buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging buffers, the three inputs' at read contents x0, x1, x2 and the output's at anything,
    runs to a state with the inputs' buffers as they were and the output's at out0_3 of the three: three whole loads,
    one (unused) load of the output buffer, one whole store of the arithmetic on the three loads. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.B.Region1.lean ====
/-
  The attention stage as a pipeline body, at any float instance.

  The stage's grid has 64 x 2 points: point (g, half) works on head g and on the 1024 query rows
  1024 * half, ..., 1024 * half + 1023 of that head.  At a point the body reads three blocks whole: the query
  block [1, 1024, 64], the head's keys [1, 2048, 64] and the head's values [1, 2048, 64]; it then overwrites the whole
  output block [1, 1024, 64] with one value computed from the three.  Nothing else is touched.

  This module says what each staging buffer holds after the body at a point, as a function of the arrays as the
  stage finds them (the parameter V), and proves that the body, run on buffers holding the three input blocks,
  leaves exactly that: the three input blocks unchanged and the output block at the single stored value.  The keys
  and the values change only with the head, so they are fetched at every second point; between two fetches the
  block index has not moved, and the buffer still holds the block of the point: the statement about the inputs
  does not depend on the fetch schedule.
-/
import proofs.«116995_j6871947673702_2_alg».proof.Proof.Gen.Kernel.Launch
import proofs.«116995_j6871947673702_2_alg».proof.Proof.Gen.Kernel.Skeleton
import proofs.«116995_j6871947673702_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the attention stage is entered
variable (V : (c : Dev nD) → (b : Ref sig .tc) → Buf (Elt F) ((c : Thread nD τ).loc b))

/-! ## The windows' blocks -/

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, for any proof data over the arrays V
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the head's keys at every point, fetched there or not: where it is not
    fetched the head has not changed. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the head's values at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query (and output) block, and the whole key (and value) block, as rectangles. -/
abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0

/-! ## What the body leaves in the output window's buffer -/

/-- The output block after the body, from the three input blocks: the one store of the attention value of the
    three whole loads. -/
def out1_3 (x0 : Vec F S1x1024x64 .bf16) (x1 : Vec F S1x2048x64 .bf16) (x2 : Vec F S1x2048x64 .bf16) : Vec F S1x1024x64 .bf16 :=
  View.canon [⟨r1_0, k1_pay1 (View.ld x0 r1_0) (View.ld x1 r1_1) (View.ld x2 r1_1)⟩]

/-- The one store is of the whole block, so it covers it. -/
theorem cover1_3 (p0 : Vec F S1x1024x64 .bf16) (y : S1x1024x64.Idx) :
    ∃ pc ∈ ([⟨r1_0, p0⟩] : List (View.Piece (Elt F) S1x1024x64 .bf16)), y ∈ pc.1.set :=
  View.cover_of_tiled [⟨r1_0, p0⟩] S1x1024x64.size (by rfl) y

/-! ## The body's triple -/

set_option maxHeartbeats 1000000 in
/-- The body on whole staging buffers, the three inputs' holding x0, x1, x2 and the output's holding anything,
    runs to the continuation with the inputs' as they were and the output's at out1_3 of the three. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The stage's proof data -/

/-- The proof data of the attention stage on core c: the arrays as the stage finds them; after the body at point t
    each input's buffer at its block and the output's at out1_3 of the three input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents the stage is entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention stage, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.B.Region2Runs.lean ====
/-
  The third call: sixteen row blocks of 512 output rows, and inside a row block one step per head h = 0 .. 15.
  A 512 x 1024 accumulator lives in a buffer of the call's own and is carried from one step to the next:
  at h = 0 it is first set to zero; at every h the product of the head's 512 x 64 block with rows 64·h .. 64·h + 63
  of the weight is added to it; at h = 15 the accumulator plus the bias row is written to the output block.
  Point number t = 16·i + h, so h = t mod 16.

  This module holds what the three control cases share: the two branch conditions in closed form over the grid,
  where the output window is idle and where it is written back, the buffers the body is called with, each
  window's block read off the array as the call finds it, and the call's invariant opened so that the
  accumulator's buffer stands apart from the other calls' staging buffers.
-/
import proofs.«116995_j6871947673702_2_alg».proof.Proof.Gen.Kernel.Launch
import proofs.«116995_j6871947673702_2_alg».proof.Proof.Gen.Kernel.Skeleton
import proofs.«116995_j6871947673702_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The first branch of the body: the head index is 0 (the accumulator is zeroed). -/
abbrev cond2_0 (i : grid2.Coords) : Prop := (Scalar.cmpi .ne (Scalar.extui (Scalar.cmpi .eq (BitVec.ofNat 32 (i 1).val) 0#32)) 0#32) = 1#1
/-- It holds exactly at the first step of each row block. -/
theorem hcond2_0 : ∀ t : Fin cfg2.N, cond2_0 (grid2.coords t) ↔ t.val % 16 = 0 :=
  (by decide +kernel : ∀ t : Fin grid2.N, cond2_0 (grid2.coords t) ↔ t.val % 16 = 0)

/-- The second branch of the body: the head index is 15 (the output block is written). -/
abbrev cond2_1 (i : grid2.Coords) : Prop := k2_cond2 i = 1#1
/-- It holds exactly at the last step of each row block. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last step of a row block the output window is idle, -/
theorem idleAt2_3 : ∀ t : Fin cfg2.N, ¬cond2_1 (grid2.coords t) → cfg2.idle 3 (grid2.coords t) = true := by decide +kernel
/-- and its block is not written back there. -/
theorem noFlush2_3 : ∀ t : Fin cfg2.N, ¬cond2_1 (grid2.coords t) → (cfg2.win 3).flush t = false := by decide +kernel
/-- At the last step of a row block the output window is live. -/
theorem liveAt2_3 : ∀ t : Fin cfg2.N, cond2_1 (grid2.coords t) → cfg2.idle 3 (grid2.coords t) = false := by decide +kernel

/-! ## The buffers the body is called with -/

abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator's buffer, whole. -/
abbrev scM2 : Memref sig .tc .vmem S512x1024 .f32 := Memref.whole cc2_scratch0
/-- The accumulator's buffer as a view: what it holds is stated through it. -/
abbrev VS2 : View sig .tc .vmem S512x1024 .f32 := (scM2).view
/-- One staging buffer of the output window, through which its contents are stated (the choice does not matter). -/
abbrev VO2_3 : View sig .tc .vmem S512x1024 .f32 := (Memref.whole cc2_stg3_0 : Memref sig .tc .vmem S512x1024 .f32).view

/-! ## The call's invariant, with the accumulator's buffer apart -/

/-- The other calls' staging buffers, each at some contents, a statement S about the accumulator's buffer, and the
    generator register at some state. -/
def held2 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S) ∗ (∃ r, prngReg c r))

/-- The same without the accumulator's buffer. -/
def rest2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r))

/-- What the launch hands the call is held2 with the accumulator's buffer at some contents. -/
theorem PhiA2_eq (c : Dev nD) :
    (Pipeline.ΦA spec2 c : sProp 𝕄) = held2 c iprop(∃ d, owns (c : Thread nD τ) scM2 fullShare d) := by
  unfold Pipeline.ΦA held2; rw [scopedRest2_eq]; simp only [scM2, owns_whole]; try rfl

/-- The accumulator's part taken out of the invariant, -/
theorem held2_split (c : Dev nD) (S : sProp 𝕄) : held2 c S ⊢ iprop(S ∗ rest2 c) := by
  unfold held2 rest2
  iintro ⟨⟨H1, H2, H3, H4, H5, H6, H7, H8, H9, H10, H11, H12, H13, H14, HS⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- and put back. -/
theorem held2_join (c : Dev nD) (S : sProp 𝕄) : iprop(S ∗ rest2 c) ⊢ held2 c S := by
  unfold held2 rest2
  iintro ⟨HS, ⟨H1, H2, H3, H4, H5, H6, H7, H8, H9, H10, H11, H12, H13, H14⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HS

/-- The statement about the accumulator's buffer may be weakened inside the invariant. -/
theorem held2_mono (c : Dev nD) {S S' : sProp 𝕄} (h : S ⊢ S') : held2 c S ⊢ held2 c S' := by
  iintro H
  ihave H' := (held2_split c S) $$ H
  icases H' with ⟨HS, HR⟩
  iapply (held2_join c S')
  isplitl [HS]
  · iapply h; iexact HS
  iexact HR

section Blocks
variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Hand

end
-- ==== Proof.B.Region2RunA.lean ====
/-
  The third call's body at the first step of a row block (h = 0): the accumulator is set to zero and the first head's product added; the output block is not touched.
  The body is run once on arbitrary whole buffers: the inputs at named contents come back unchanged, and what the
  body's stores leave in the accumulator's buffer is recorded as the list of stored pieces, last first.
-/
import proofs.«116995_j6871947673702_2_alg».proof.Proof.B.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at xi3 (handed back untouched),
    the accumulator's buffer at anything (it is overwritten before it is read); it runs to the continuation holding the inputs as they were and
    each written buffer with its pieces written. -/
noncomputable def kernelRun2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨[], ?_, fun xi3 E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.B.Region2RunB.lean ====
/-
  The third call's body at a middle step of a row block (0 < h < 15): the head's product is added to the accumulator; the output block is not touched.
  The body is run once on arbitrary whole buffers: the inputs at named contents come back unchanged, and what the
  body's stores leave in the accumulator's buffer is recorded as the list of stored pieces, last first.
-/
import proofs.«116995_j6871947673702_2_alg».proof.Proof.B.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at xi3 (handed back untouched),
    the accumulator's buffer at xs0, what the step before left; it runs to the continuation holding the inputs as they were and
    each written buffer with its pieces written. -/
noncomputable def kernelRun2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨[], ?_, fun xi3 E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.B.Region2RunC.lean ====
/-
  The third call's body at the last step of a row block (h = 15): the last head's product is added to the accumulator, and the accumulator plus the bias row is stored as the output block.
  The body is run once on arbitrary whole buffers: the inputs at named contents come back unchanged, and what the
  body's stores leave in the accumulator's buffer and in the output block's buffer is recorded as the list of stored pieces, last first.
-/
import proofs.«116995_j6871947673702_2_alg».proof.Proof.B.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, on whole buffers: the three inputs at x0, x1, x2, the output block's buffer at anything,
    the accumulator's buffer at xs0, what the step before left; it runs to the continuation holding the inputs as they were and
    each written buffer with its pieces written. -/
noncomputable def kernelRun2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__proj_fused_kernel i arg2 harg2 arg3 harg3 arg4 harg4 arg5 harg5 arg6 harg6) K } := by
  refine ⟨?_, ?_, fun E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.B.Region2.lean ====
/-
  The third call, as one region entered at buffer contents V: the proof data of its pipeline and the body's
  obligation at every grid point.

  The accumulator after point n (accAt2) is defined by recursion on n along the grid order t = 16·i + h:
  at h = 0 it is what the first-step case leaves from the three input blocks at n (the zeroing, then the first
  head's product); at 0 < h it is what the middle-step (or, at h = 15, last-step) case leaves from the blocks at n
  and the accumulator after point n - 1. The output window's buffer after a point with h = 15 (out2_3) is what the
  last-step case stores there: the accumulator plus the bias row. Elsewhere the output window is idle: the body
  hands its buffer back as it found it, and the pipeline does not write it back.

  The invariant between points is the launch's before the first point and, after point n, the same with the
  accumulator's buffer held at accAt2 n; at the end the named contents are forgotten again.
-/
import proofs.«116995_j6871947673702_2_alg».proof.Proof.B.Region2RunA
import proofs.«116995_j6871947673702_2_alg».proof.Proof.B.Region2RunB
import proofs.«116995_j6871947673702_2_alg».proof.Proof.B.Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The pieces this case stores into the accumulator's buffer cover it (one whole-buffer store is the last of them). -/
theorem scover2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What this case leaves in the accumulator's buffer: its pieces read back. -/
def sout2_A (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) : Vec F S512x1024 .f32 :=
  VS2.read (Elt F) (VS2.writes (Elt F) VS2.junk (kernelRun2_A c i arg2 harg2 arg3 harg3 arg4 harg4 arg5 harg5 arg6 harg6 hc0 hc1 x0 x1 x2).2.1)

/-- The pieces this case stores into the accumulator's buffer cover it (one whole-buffer store is the last of them). -/
theorem scover2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What this case leaves in the accumulator's buffer: its pieces read back. -/
def sout2_B (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) : Vec F S512x1024 .f32 :=
  VS2.read (Elt F) (VS2.writes (Elt F) VS2.junk (kernelRun2_B c i arg2 harg2 arg3 harg3 arg4 harg4 arg5 harg5 arg6 harg6 hc0 hc1 x0 x1 x2 xs0).2.1)

/-- The pieces this case stores into the accumulator's buffer cover it (one whole-buffer store is the last of them). -/
theorem scover2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What this case leaves in the accumulator's buffer: its pieces read back. -/
def sout2_C (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) : Vec F S512x1024 .f32 :=
  VS2.read (Elt F) (VS2.writes (Elt F) VS2.junk (kernelRun2_C c i arg2 harg2 arg3 harg3 arg4 harg4 arg5 harg5 arg6 harg6 hc0 hc1 x0 x1 x2 xs0).2.1)

/-- The last-step case's one store into the output block's buffer covers it. -/
theorem cover2_C_3 (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the last-step case leaves in the output block's buffer: its pieces read back. -/
def out2_C_3 (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

section Region
variable (V : (c : Dev nD) → (b : Ref sig .tc) → Buf (Elt F) ((c : Thread nD τ).loc b))

/-! ## The accumulator after each point -/

/-- The accumulator's contents after the body at point n, by recursion along the grid order. -/
def accAt2 (c : Dev nD) : (n : ℕ) → n < cfg2.N → Vec F S512x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 16 = 0 then
      if h1 : (n + 1) % 16 = 15 then
        False.elim (by omega)
      else
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 16 = 15 then
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
      else
        sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

/-- At the first step of a row block: the first-step case's contents, from the blocks alone. -/
theorem accAt2_A (c : Dev nD) (t : Fin cfg2.N) (h0 : t.val % 16 = 0) (h1 : ¬t.val % 16 = 15) :
    accAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

/-- At a middle step: the middle-step case's contents, over what the point before left. -/
theorem accAt2_B (c : Dev nD) (t : Fin cfg2.N) (h0 : ¬t.val % 16 = 0) (h1 : ¬t.val % 16 = 15) :
    accAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last step: the last-step case's contents, over what the point before left. -/
theorem accAt2_C (c : Dev nD) (t : Fin cfg2.N) (h0 : ¬t.val % 16 = 0) (h1 : t.val % 16 = 15) :
    accAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the body leaves in the output window's buffer at a point: at the last step of a row block the last-step
    case's store (the accumulator plus the bias row); elsewhere the window is idle and this value is not consulted. -/
def out2_3 (c : Dev nD) (t : Fin cfg2.N) : Vec F S512x1024 .f32 :=
  if h1 : t.val % 16 = 15 then
    out2_C_3 c (grid2.coords t) (ms2_0 t) (hs2_0 t) (ms2_1 t) (hs2_1 t) (ms2_2 t) (hs2_2 t) (ms2_3 t) (hs2_3 t) scM2 (Memref.isWhole_whole _) (fun h => (fun h0 : t.val % 16 = 0 => by omega) ((hcond2_0 t).mp h)) ((hcond2_1 t).mpr h1) (iblk2 V c 0 t) (iblk2 V c 1 t) (iblk2 V c 2 t) (accAt2 V c (t.val - 1) (Nat.lt_of_le_of_lt (Nat.sub_le _ _) t.isLt))
  else
    VO2_3.read (Elt F) (VO2_3.writes (Elt F) VO2_3.junk [])

theorem out2_3_C (c : Dev nD) (t : Fin cfg2.N) (h0 : ¬t.val % 16 = 0) (h1 : t.val % 16 = 15) :
    out2_3 V c t = out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) :=
  (dif_pos h1).trans rfl

/-! ## The invariant between points -/

/-- Before point n: the launch's invariant at n = 0; afterwards the same with the accumulator's buffer at what the
    point before left. -/
def PhiS2 (c : Dev nD) : (n : ℕ) → n ≤ cfg2.N → sProp 𝕄
  | 0, _ => Pipeline.ΦA spec2 c
  | n + 1, hn => held2 c (owns (c : Thread nD τ) scM2 fullShare (accAt2 V c n hn))

theorem PhiS2_succ (c : Dev nD) (n : ℕ) (hn : n < cfg2.N) :
    PhiS2 V c (n + 1) hn = held2 c (owns (c : Thread nD τ) scM2 fullShare (accAt2 V c n hn)) := rfl

theorem PhiS2_pos (c : Dev nD) (n : ℕ) (h : n ≤ cfg2.N) (hz : n ≠ 0) :
    PhiS2 V c n h = held2 c (owns (c : Thread nD τ) scM2 fullShare (accAt2 V c (n - 1) (by omega))) := by
  cases n with
  | zero => exact absurd rfl hz
  | succ n => rfl

/-- At any point the invariant gives the launch's back: the accumulator's named contents are forgotten. -/
theorem PhiS2_any (c : Dev nD) (n : ℕ) (h : n ≤ cfg2.N) :
    PhiS2 V c n h ⊢ held2 c iprop(∃ d, owns (c : Thread nD τ) scM2 fullShare d) := by
  cases n with
  | zero => rw [show PhiS2 V c 0 h = Pipeline.ΦA spec2 c from rfl, PhiA2_eq]
  | succ n =>
    rw [PhiS2_succ]
    refine held2_mono c ?_
    iintro H; iexists _; iexact H

/-! ## The pipeline's proof data -/

/-- The proof data of the third call's pipeline on core c: the arrays as the call finds them; after the body each
    input's buffer at its block and the output's at out2_3; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) : (dat2 V c).after 3 t = out2_3 V c t := by dsimp only [dat2]
/-- What the body leaves in the output window's buffer at the last step of a row block. -/
theorem after2_3 (c : Dev nD) (t : Fin cfg2.N) (h : t.val % 16 = 15) : (dat2 V c).after 3 t = out2_3 V c t := after2_3' V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in;
    the invariant hands the body the accumulator's buffer at what the point before left (at anything at a first
    step) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [PhiS2_castSucc V c t]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [accAt2_A V c t h0 h1]
    unfold sout2_A; (try dsimp only)
    · iintro ⟨HP, Ho, ⟨%d0, H0⟩, ⟨%d1, H1⟩, ⟨%d2, H2⟩, ⟨%d3, H3⟩⟩
      ihave HP1 := (PhiS2_any V c t.val _) $$ HP
      ihave HP2 := (held2_split c _) $$ HP1
      icases HP2 with ⟨HS0, HR⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · iapply (held2_join c _)
        isplitl [HS0]
        · unfold owns; iexists _; isplitr
          swap; · iexact HS0
          ipureintro; exact View.read_writes_of_cover _ _ _ _ _ (scover2_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS2_pos V c _ _ hz]
    by_cases h1 : t.val % 16 = 15
    · rw [show (dat2 V c).leavesExact 3 t = owns (c : Thread nD τ) (ms2_3 t) fullShare ((dat2 V c).after 3 t) from by
          unfold Dat.leavesExact; rw [liveAt2_3 t ((hcond2_1 t).mpr h1)], after2_3']
      rw [accAt2_C V c t h0 h1, out2_3_C V c t h0 h1]
      unfold out2_C_3 sout2_C; (try dsimp only)
      iintro ⟨HP, Ho, ⟨%d0, H0⟩, ⟨%d1, H1⟩, ⟨%d2, H2⟩, ⟨%d3, H3⟩⟩
      ihave HP2 := (held2_split c _) $$ HP
      icases HP2 with ⟨HS0, HR⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR]
      · iapply (held2_join c _)
        isplitl [HS0]
        · unfold owns; iexists _; isplitr
          swap; · iexact HS0
          ipureintro; exact View.read_writes_of_cover _ _ _ _ _ (scover2_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [accAt2_B V c t h0 h1]
      unfold sout2_B; (try dsimp only)
      iintro ⟨HP, Ho, ⟨%d0, H0⟩, ⟨%d1, H1⟩, ⟨%d2, H2⟩, ⟨%d3, H3⟩⟩
      ihave HP2 := (held2_split c _) $$ HP
      icases HP2 with ⟨HS0, HR⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · iapply (held2_join c _)
        isplitl [HS0]
        · unfold owns; iexists _; isplitr
          swap; · iexact HS0
          ipureintro; exact View.read_writes_of_cover _ _ _ _ _ (scover2_B c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl]
  exact Idealize.SL.BI.Entails.refl _

/-- After the last point the invariant gives the launch's back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Region

end Cert.Kernel.Hand

end
-- ==== Proof.B.Run.lean ====
/-
  The whole program as one run. Its entry point is seven segments in a row: a stretch of host operations, the
  dense layer's region, the stretch that cuts the layer's output into queries, keys and values head by head, the attention
  region, the stretch that prepares the projection's weight and bias, the projection region, and the final reshape.
  The contents of every buffer a segment can change are named at each of the eight boundaries, as a fold from the launch
  memory: a host stretch applies its operations; a region leaves each of its windows' arrays at what its write-backs
  fold to and every other buffer as it found it. Each region is entered from "every unscoped buffer at the boundary's
  contents" and left at the next boundary's; the run ends with every unscoped buffer read against the last boundary, which
  gives both the six argument arrays unchanged and the result array's contents by name.
-/
import proofs.«116995_j6871947673702_2_alg».proof.Proof.B.Region0
import proofs.«116995_j6871947673702_2_alg».proof.Proof.B.Region1
import proofs.«116995_j6871947673702_2_alg».proof.Proof.B.Region2
import proofs.«116995_j6871947673702_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the first host stretch (the dense layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the dense layer: its arrays at what the write-backs fold to. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the head-splitting stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the stretch that prepares the projection's operands (the projection region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the projection region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the final reshape: the run's last boundary. -/
abbrev W7 : Dev nD → Valuation τ sig (Elt F) := fun c => StableHlo.after hostOps3 (W6 m ρ c)

/-! ## An argument array is never written: no host operation's result and no region's window is an argument -/

theorem W7_arg (c : Dev nD) (r : Ref sig .tc)
    (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The dense layer's region: entered from every unscoped buffer at W1, left at W2. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at W5, left at W6. Its invariant tracks the accumulator;
    it is entered from, and gives back, the scoped buffers untouched and the generator register. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry point as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of the entry point terminates, nothing
    faulting, and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ (∃ r, prngReg c r)
            ∗ ∃ W, owes (c : Thread nD τ) (0 : CellTallies nD τ sig Unit) W) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.B.Frames.lean ====
/-
  The program leaves its six argument arrays as launched. The run of the whole program ends with every unscoped
  buffer at the last boundary's contents; an argument array is the result of no host operation and the array of no
  window of any of the three pipelines, so walking the boundaries back from the last one — a host stretch changes only
  its operations' results, a region only its windows' arrays — reaches the launch memory at each of the six.
-/
import proofs.«116995_j6871947673702_2_alg».proof.Proof.B.Run

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-! ## Each argument at the last boundary -/

theorem W7_main_arg0 (c : Dev nD) : W7 m ρ c (Proc.devRef .tc main_arg0) = m ((c : Thread nD τ).loc main_arg0) :=
  W7_arg m ρ c main_arg0 (by decide) (by decide) (by decide) (by decide) (by decide) (by decide) (by decide)
theorem W7_main_arg1 (c : Dev nD) : W7 m ρ c (Proc.devRef .tc main_arg1) = m ((c : Thread nD τ).loc main_arg1) :=
  W7_arg m ρ c main_arg1 (by decide) (by decide) (by decide) (by decide) (by decide) (by decide) (by decide)
theorem W7_main_arg2 (c : Dev nD) : W7 m ρ c (Proc.devRef .tc main_arg2) = m ((c : Thread nD τ).loc main_arg2) :=
  W7_arg m ρ c main_arg2 (by decide) (by decide) (by decide) (by decide) (by decide) (by decide) (by decide)
theorem W7_main_arg3 (c : Dev nD) : W7 m ρ c (Proc.devRef .tc main_arg3) = m ((c : Thread nD τ).loc main_arg3) :=
  W7_arg m ρ c main_arg3 (by decide) (by decide) (by decide) (by decide) (by decide) (by decide) (by decide)
theorem W7_main_arg4 (c : Dev nD) : W7 m ρ c (Proc.devRef .tc main_arg4) = m ((c : Thread nD τ).loc main_arg4) :=
  W7_arg m ρ c main_arg4 (by decide) (by decide) (by decide) (by decide) (by decide) (by decide) (by decide)
theorem W7_main_arg5 (c : Dev nD) : W7 m ρ c (Proc.devRef .tc main_arg5) = m ((c : Thread nD τ).loc main_arg5) :=
  W7_arg m ρ c main_arg5 (by decide) (by decide) (by decide) (by decide) (by decide) (by decide) (by decide)

/-! ## The frame -/

/-- From any memory with zero counters every weakly fair execution of the entry point terminates, nothing faulting,
    and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c)⟩)
    (run_all m ρ)

end Cert.Kernel.Hand

end
-- ==== Proof.FrameClaims.lean ====
/-
  The two frame claims about the kernel's program, at the word-level reading and at the extended reals: each is the
  whole program's run read at its six argument arrays, which no host operation and no pipeline writes. The finiteness
  precondition is not used: the arrays are left as launched whatever they hold.
-/
import proofs.«116995_j6871947673702_2_alg».proof.Defs
import proofs.«116995_j6871947673702_2_alg».proof.Proof.I.Frames
import proofs.«116995_j6871947673702_2_alg».proof.Proof.B.Frames
import proofs.«116995_j6871947673702_2_alg».proof.Proof.Gen.Pre_finite_inputs

noncomputable section

namespace Cert.Proof.Frames

open Idealize.ShloMosaic Idealize.SL.Sem

/-- The program as printed, on machine words. -/
theorem frame_p : Cert.frame_Kernel (hKernel := Cert.Kernel.Gen.facts) (hPre_finite_inputs := Cert.Pre_finite_inputs.Gen.facts) :=
  fun m ρ _ => Cert.Kernel.Hand.frame m ρ

/-- Its idealization, on the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

end Cert.Proof.Frames

end
-- ==== Proof.RefFrame.lean ====
/-
  The reference runs to the end and leaves its six argument arrays as it found them.

  The reference is a straight line of host operations. Its run ends with the result buffer at the operations' composed
  term and every argument buffer unchanged; forgetting the first of these facts leaves exactly the frame statement.
-/
import proofs.«116995_j6871947673702_2_alg».proof.Defs
import proofs.«116995_j6871947673702_2_alg».proof.Proof.Gen.ReferenceIdeal.Run
import proofs.«116995_j6871947673702_2_alg».proof.Proof.Gen.Pre_finite_inputs

noncomputable section

namespace Cert.ReferenceIdeal.RefValue

open Idealize.ShloMosaic Idealize.ShloMosaic.TcCoe Idealize.SL.Sem

/-- The reference terminates without fault, its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.I.Glue.lean ====
/-
  The host operations between the regions, read at an index.

  Before the dense layer: the input [4, 2048, 1024] is flattened to 8192 rows (row 2048·β + n is token n of batch β), the
  first weight is transposed (entry (k, j) of the transposed weight is entry (j, k) of the stored one), and the masked bias
  (the entrywise product of bias and mask) becomes a one-row array.
  Between the dense layer and attention: column block σ of the layer's output (columns 1024·σ .. 1024·σ + 1023) is cut out,
  its 1024 columns read as 16 heads of width 64, and the token and head axes exchanged, so that head g = 16·β + h of the
  result, row n, coordinate e is the layer's output at row 2048·β + n, column 1024·σ + 64·h + e.
  Before the projection: the second weight transposed, its bias as a one-row array.  After it: the 8192 rows read back as
  [4, 2048, 1024].
-/
import proofs.«116995_j6871947673702_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Idealize.SL Idealize.SL.Sem
open Cert.KernelIdeal

/-! ## The layout operations, composed, at an index -/

section Layout
variable {α : Type}

/-- Row r of the flattened input is token r mod 2048 of batch r / 2048. -/
theorem flatten_apply (x : S4x2048x1024.Idx → α) (h : S4x2048x1024.ShapeCasts S8192x1024) (r : Fin 8192) (k : Fin 1024) :
    shapeCast S8192x1024 x h (ix2 r k)
      = x (ix3 (⟨r.val / 2048, by have := r.isLt; omega⟩ : Fin 4) (⟨r.val % 2048, Nat.mod_lt _ (by decide)⟩ : Fin 2048) k) :=
  shapeCast_apply x _ _ _ (by
    rw [Shape.rowMajor_val_three, Shape.rowMajor_val_two]
    show (r.val / 2048 * 2048 + r.val % 2048) * 1024 + k.val = r.val * 1024 + k.val
    have := Nat.div_add_mod r.val 2048; omega)

/-- The 8192 rows read back as four batches of 2048 tokens. -/
theorem unflatten_apply (x : S8192x1024.Idx → α) (h : S8192x1024.ShapeCasts S4x2048x1024) (β : Fin 4) (n : Fin 2048) (j : Fin 1024) :
    shapeCast S4x2048x1024 x h (ix3 β n j)
      = x (ix2 (⟨β.val * 2048 + n.val, by have := β.isLt; have := n.isLt; omega⟩ : Fin 8192) j) :=
  shapeCast_apply x _ _ _ (by
    rw [Shape.rowMajor_val_three, Shape.rowMajor_val_two]
    show (β.val * 2048 + n.val) * 1024 + j.val = (β.val * 2048 + n.val) * 1024 + j.val
    rfl)

/-- A vector of 3072 entries as a one-row array. -/
theorem row3072_apply (x : S3072.Idx → α) (h : S3072.ShapeCasts S1x3072) (u : Fin 1) (j : Fin 3072) :
    shapeCast S1x3072 x h (ix2 u j) = x (ix1 j) :=
  shapeCast_apply x _ _ _ (by
    rw [Shape.rowMajor_val_one, Shape.rowMajor_val_two]
    show j.val = u.val * 3072 + j.val
    have := u.isLt; omega)

/-- A vector of 1024 entries as a one-row array. -/
theorem row1024_apply (x : S1024.Idx → α) (h : S1024.ShapeCasts S1x1024) (u : Fin 1) (j : Fin 1024) :
    shapeCast S1x1024 x h (ix2 u j) = x (ix1 j) :=
  shapeCast_apply x _ _ _ (by
    rw [Shape.rowMajor_val_one, Shape.rowMajor_val_two]
    show j.val = u.val * 1024 + j.val
    have := u.isLt; omega)

/-- The rows of a [8192, 1024] array read as [4, 2048, 16, 64], the token and head axes exchanged, and batch and head
    merged: head g, row n, coordinate e is row 2048·(g / 16) + n, column 64·(g mod 16) + e. -/
theorem heads_apply (x : S8192x1024.Idx → α) (h1 : S8192x1024.ShapeCasts S4x2048x16x64)
    (h2 : S4x2048x16x64.Transposes [0, 2, 1, 3] S4x16x2048x64) (h3 : S4x16x2048x64.ShapeCasts S64x2048x64)
    (g : Fin 64) (n : Fin 2048) (e : Fin 64) :
    shapeCast S64x2048x64 (transpose S4x16x2048x64 [0, 2, 1, 3] (shapeCast S4x2048x16x64 x h1) h2) h3 (ix3 g n e)
      = x (ix2 (⟨g.val / 16 * 2048 + n.val, by have := g.isLt; have := n.isLt; omega⟩ : Fin 8192)
            (⟨g.val % 16 * 64 + e.val, by have := e.isLt; have : g.val % 16 < 16 := Nat.mod_lt _ (by decide); omega⟩ : Fin 1024)) := by
  have hg : g.val / 16 < 4 := by have := g.isLt; omega
  have hh : g.val % 16 < 16 := Nat.mod_lt _ (by decide)
  refine (shapeCast_apply _ _ (ix3 g n e) (ix4 (⟨g.val / 16, hg⟩ : Fin 4) (⟨g.val % 16, hh⟩ : Fin 16) n e) (by
    rw [Shape.rowMajor_val_four, Shape.rowMajor_val_three]
    show ((g.val / 16 * 16 + g.val % 16) * 2048 + n.val) * 64 + e.val = (g.val * 2048 + n.val) * 64 + e.val
    have := Nat.div_add_mod g.val 16; rw [show g.val / 16 * 16 + g.val % 16 = g.val by omega])).trans ?_
  refine (transpose_apply _ _ _ _ (ix4 (⟨g.val / 16, hg⟩ : Fin 4) n (⟨g.val % 16, hh⟩ : Fin 16) e) (fun b =>
    match b with | ⟨0, _⟩ => rfl | ⟨1, _⟩ => rfl | ⟨2, _⟩ => rfl | ⟨3, _⟩ => rfl)).trans ?_
  exact shapeCast_apply x _ _ _ (by
    rw [Shape.rowMajor_val_two, Shape.rowMajor_val_four]
    show (g.val / 16 * 2048 + n.val) * 1024 + (g.val % 16 * 64 + e.val)
      = ((g.val / 16 * 2048 + n.val) * 16 + g.val % 16) * 64 + e.val
    ring)

/-- Column block at offset o of a [8192, 3072] array. -/
theorem colblock_apply (o : ℕ) (x : S8192x3072.Idx → α) (h : S8192x3072.Slices ![0, o] S8192x1024) (r : Fin 8192) (k : Fin 1024)
    (ho : o + 1024 ≤ 3072) :
    extractStridedSlice S8192x1024 ![0, o] x h (ix2 r k) = x (ix2 r (⟨o + k.val, by have := k.isLt; omega⟩ : Fin 3072)) :=
  extractStridedSlice_apply _ x h _ _ fun a => match a with
    | ⟨0, _⟩ => by show r.val = 0 + r.val; omega
    | ⟨1, _⟩ => rfl

end Layout

/-! ## Each host stretch's results as terms of the contents it starts from -/

section Stretch
open Cert.KernelIdeal.Gen
variable {F : FTy → Type} [FloatOps F] [Cert.KernelIdeal.Facts]

theorem stretch0_v0 (W : Valuation τ sig (Elt F)) :
    StableHlo.after (hostOps0 (F := F)) W (Proc.devRef .tc main_v0)
      = shapeCast S8192x1024 (W (Proc.devRef .tc main_arg0)) Facts₀.shapeCasts_S4x2048x1024_S8192x1024 := by
  after_results; all_goals rfl

theorem stretch0_v2 (W : Valuation τ sig (Elt F)) :
    StableHlo.after (hostOps0 (F := F)) W (Proc.devRef .tc main_v2)
      = truncf .bf16 (transpose S1024x3072 [1, 0] (W (Proc.devRef .tc main_arg1)) Facts₀.transposes_S3072x1024_S1024x3072_1_0) Facts₀.bitsLt_bf16_f32 := by
  after_results; all_goals rfl

theorem stretch0_v4 (W : Valuation τ sig (Elt F)) :
    StableHlo.after (hostOps0 (F := F)) W (Proc.devRef .tc main_v4)
      = shapeCast S1x3072 (mulf (W (Proc.devRef .tc main_arg2)) (W (Proc.devRef .tc main_arg3))) Facts₀.shapeCasts_S3072_S1x3072 := by
  after_results; all_goals rfl

theorem stretch1_v11 (W : Valuation τ sig (Elt F)) :
    StableHlo.after (hostOps1 (F := F)) W (Proc.devRef .tc main_v11)
      = shapeCast S64x2048x64 (transpose S4x16x2048x64 [0, 2, 1, 3] (shapeCast S4x2048x16x64
          (extractStridedSlice S8192x1024 ![0, 0] (W (Proc.devRef .tc main_v5)) Facts₀.slices_S8192x3072_S8192x1024_0_0)
          Facts₀.shapeCasts_S8192x1024_S4x2048x16x64) Facts₀.transposes_S4x2048x16x64_S4x16x2048x64_0_2_1_3)
          Facts₀.shapeCasts_S4x16x2048x64_S64x2048x64 := by
  after_results; all_goals rfl

theorem stretch1_v14 (W : Valuation τ sig (Elt F)) :
    StableHlo.after (hostOps1 (F := F)) W (Proc.devRef .tc main_v14)
      = shapeCast S64x2048x64 (transpose S4x16x2048x64 [0, 2, 1, 3] (shapeCast S4x2048x16x64
          (extractStridedSlice S8192x1024 ![0, 1024] (W (Proc.devRef .tc main_v5)) Facts₀.slices_S8192x3072_S8192x1024_0_1024)
          Facts₀.shapeCasts_S8192x1024_S4x2048x16x64) Facts₀.transposes_S4x2048x16x64_S4x16x2048x64_0_2_1_3)
          Facts₀.shapeCasts_S4x16x2048x64_S64x2048x64 := by
  after_results; all_goals rfl

theorem stretch1_v17 (W : Valuation τ sig (Elt F)) :
    StableHlo.after (hostOps1 (F := F)) W (Proc.devRef .tc main_v17)
      = shapeCast S64x2048x64 (transpose S4x16x2048x64 [0, 2, 1, 3] (shapeCast S4x2048x16x64
          (extractStridedSlice S8192x1024 ![0, 2048] (W (Proc.devRef .tc main_v5)) Facts₀.slices_S8192x3072_S8192x1024_0_2048)
          Facts₀.shapeCasts_S8192x1024_S4x2048x16x64) Facts₀.transposes_S4x2048x16x64_S4x16x2048x64_0_2_1_3)
          Facts₀.shapeCasts_S4x16x2048x64_S64x2048x64 := by
  after_results; all_goals rfl

theorem stretch2_v20 (W : Valuation τ sig (Elt F)) :
    StableHlo.after (hostOps2 (F := F)) W (Proc.devRef .tc main_v20)
      = truncf .bf16 (transpose S1024x1024 [1, 0] (W (Proc.devRef .tc main_arg4)) Facts₀.transposes_S1024x1024_S1024x1024_1_0) Facts₀.bitsLt_bf16_f32 := by
  after_results; all_goals rfl

theorem stretch2_v21 (W : Valuation τ sig (Elt F)) :
    StableHlo.after (hostOps2 (F := F)) W (Proc.devRef .tc main_v21)
      = shapeCast S1x1024 (W (Proc.devRef .tc main_arg5)) Facts₀.shapeCasts_S1024_S1x1024 := by
  after_results; all_goals rfl

theorem stretch3_v23 (W : Valuation τ sig (Elt F)) :
    StableHlo.after (hostOps3 (F := F)) W (Proc.devRef .tc main_v23)
      = shapeCast S4x2048x1024 (W (Proc.devRef .tc main_v22)) Facts₀.shapeCasts_S8192x1024_S4x2048x1024 := by
  after_results; all_goals rfl

end Stretch

/-! ## The same, at an index, on the extended reals (a change of float format is the identity there) -/

section AtIdeal
open Cert.KernelIdeal.Gen

/-- A buffer's contents, typed as a function into the extended reals. -/
abbrev asVec (S : Shape) (a : S.Idx → EReal) : S.Idx → EReal := a
variable [Cert.KernelIdeal.Facts] (W : Valuation τ sig (Elt Ideal))

theorem v0_apply (r : Fin 8192) (k : Fin 1024) :
    StableHlo.after (hostOps0 (F := Ideal)) W (Proc.devRef .tc main_v0) (ix2 r k)
      = W (Proc.devRef .tc main_arg0) (ix3 (⟨r.val / 2048, by have := r.isLt; omega⟩ : Fin 4) (⟨r.val % 2048, Nat.mod_lt _ (by decide)⟩ : Fin 2048) k) := by
  rw [stretch0_v0]; exact flatten_apply _ _ r k

theorem v2_apply (k : Fin 1024) (j : Fin 3072) :
    StableHlo.after (hostOps0 (F := Ideal)) W (Proc.devRef .tc main_v2) (ix2 k j) = W (Proc.devRef .tc main_arg1) (ix2 j k) := by
  rw [stretch0_v2]; exact transpose_ix2_apply _ _ k j

theorem v4_apply (u : Fin 1) (j : Fin 3072) :
    StableHlo.after (hostOps0 (F := Ideal)) W (Proc.devRef .tc main_v4) (ix2 u j)
      = asVec S3072 (W (Proc.devRef .tc main_arg2)) (ix1 j) * asVec S3072 (W (Proc.devRef .tc main_arg3)) (ix1 j) := by
  rw [stretch0_v4]; exact row3072_apply _ _ u j

theorem v11_apply (g : Fin 64) (n : Fin 2048) (e : Fin 64) :
    StableHlo.after (hostOps1 (F := Ideal)) W (Proc.devRef .tc main_v11) (ix3 g n e)
      = W (Proc.devRef .tc main_v5) (ix2 (⟨g.val / 16 * 2048 + n.val, by have := g.isLt; have := n.isLt; omega⟩ : Fin 8192)
          (⟨0 + (g.val % 16 * 64 + e.val), by have := e.isLt; have : g.val % 16 < 16 := Nat.mod_lt _ (by decide); omega⟩ : Fin 3072)) := by
  rw [stretch1_v11]
  exact (heads_apply _ _ _ _ g n e).trans (colblock_apply 0 _ _ _ _ (by decide))

theorem v14_apply (g : Fin 64) (n : Fin 2048) (e : Fin 64) :
    StableHlo.after (hostOps1 (F := Ideal)) W (Proc.devRef .tc main_v14) (ix3 g n e)
      = W (Proc.devRef .tc main_v5) (ix2 (⟨g.val / 16 * 2048 + n.val, by have := g.isLt; have := n.isLt; omega⟩ : Fin 8192)
          (⟨1024 + (g.val % 16 * 64 + e.val), by have := e.isLt; have : g.val % 16 < 16 := Nat.mod_lt _ (by decide); omega⟩ : Fin 3072)) := by
  rw [stretch1_v14]
  exact (heads_apply _ _ _ _ g n e).trans (colblock_apply 1024 _ _ _ _ (by decide))

theorem v17_apply (g : Fin 64) (n : Fin 2048) (e : Fin 64) :
    StableHlo.after (hostOps1 (F := Ideal)) W (Proc.devRef .tc main_v17) (ix3 g n e)
      = W (Proc.devRef .tc main_v5) (ix2 (⟨g.val / 16 * 2048 + n.val, by have := g.isLt; have := n.isLt; omega⟩ : Fin 8192)
          (⟨2048 + (g.val % 16 * 64 + e.val), by have := e.isLt; have : g.val % 16 < 16 := Nat.mod_lt _ (by decide); omega⟩ : Fin 3072)) := by
  rw [stretch1_v17]
  exact (heads_apply _ _ _ _ g n e).trans (colblock_apply 2048 _ _ _ _ (by decide))

theorem v20_apply (k : Fin 1024) (j : Fin 1024) :
    StableHlo.after (hostOps2 (F := Ideal)) W (Proc.devRef .tc main_v20) (ix2 k j) = W (Proc.devRef .tc main_arg4) (ix2 j k) := by
  rw [stretch2_v20]; exact transpose_ix2_apply _ _ k j

theorem v21_apply (u : Fin 1) (j : Fin 1024) :
    StableHlo.after (hostOps2 (F := Ideal)) W (Proc.devRef .tc main_v21) (ix2 u j) = W (Proc.devRef .tc main_arg5) (ix1 j) := by
  rw [stretch2_v21]; exact row1024_apply _ _ u j

theorem v23_apply (β : Fin 4) (n : Fin 2048) (j : Fin 1024) :
    StableHlo.after (hostOps3 (F := Ideal)) W (Proc.devRef .tc main_v23) (ix3 β n j)
      = W (Proc.devRef .tc main_v22) (ix2 (⟨β.val * 2048 + n.val, by have := β.isLt; have := n.isLt; omega⟩ : Fin 8192) j) := by
  rw [stretch3_v23]; exact unflatten_apply _ _ β n j

end AtIdeal

end Cert.KernelIdeal.Glue

end
-- ==== Proof.Spec.lean ====
/-
  The arithmetic of the three stages, index by index, on the extended reals.

  Stage 1 (a dense layer over 8192 rows):  y[r, j] = Σ_k x[r, k] · w[k, j] + b[0, j].
  Stage 2 (softmax attention inside one head, 2048 keys of width 64), for head g, query row n and output column d:
    s_k = (Σ_e q[g, n, e] · κ[g, k, e]) · c,   M = sup_k s_k,   E_k = exp (s_k − M),   L = Σ_k E_k,
    o[g, n, d] = Σ_k (E_k · (1 / L)) · v[g, k, d]
  with the normalisation written as a product with the reciprocal of the row sum.
  Stage 3 (the heads merged and projected, one head's 64 columns at a time): row r = 2048·β + n of the output reads the
  sixteen heads 16·β + h of batch β at query row n,
    z[r, j] = (Σ_h Σ_e a[16·β + h, n, e] · w[64·h + e, j]) + b[0, j].
  The scale c is the single-precision word of 1/8; it is never evaluated here: both programs carry the same word.
-/
import proofs.«116995_j6871947673702_2_alg».proof.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal

/-- The scale both programs multiply the scores by: the single-precision word of 1/8, read at the extended reals. -/
def scale : EReal := Ideal.ofBits .f32 0x3E000000#32

/-! ## Stage 1: the dense layer -/

/-- One entry of the dense layer: row r of x against column j of w, plus the bias row's entry j. -/
def linearAt (x : FVec Ideal S8192x1024 .f32) (w : FVec Ideal S1024x3072 .bf16) (b : FVec Ideal S1x3072 .f32)
    (r : Fin 8192) (j : Fin 3072) : EReal :=
  (∑ k : Fin 1024, x (ix2 r k) * w (ix2 k j)) + b (ix2 (0 : Fin 1) j)

/-- The dense layer's whole result. -/
def linear (x : FVec Ideal S8192x1024 .f32) (w : FVec Ideal S1024x3072 .bf16) (b : FVec Ideal S1x3072 .f32) :
    FVec Ideal S8192x3072 .bf16 :=
  fun i => linearAt x w b (i 0) (i 1)

/-! ## Stage 2: attention inside a head -/

/-- The scaled score of query row n against key row k in head g. -/
def score (q κ : FVec Ideal S64x2048x64 .bf16) (g : Fin 64) (n k : Fin 2048) : EReal :=
  (∑ e : Fin 64, q (ix3 g n e) * κ (ix3 g k e)) * scale

/-- The largest score of a query row. -/
def rowMax (q κ : FVec Ideal S64x2048x64 .bf16) (g : Fin 64) (n : Fin 2048) : EReal :=
  (Finset.univ : Finset (Fin 2048)).sup fun k => score q κ g n k

/-- The exponential of a score's distance below the row's largest. -/
def expo (q κ : FVec Ideal S64x2048x64 .bf16) (g : Fin 64) (n k : Fin 2048) : EReal :=
  Ideal.exp (score q κ g n k - rowMax q κ g n)

/-- The row's normaliser. -/
def rowSum (q κ : FVec Ideal S64x2048x64 .bf16) (g : Fin 64) (n : Fin 2048) : EReal :=
  ∑ k : Fin 2048, expo q κ g n k

/-- One entry of a head's attention output, normalised by a product with the reciprocal of the row sum. -/
def attnAt (q κ v : FVec Ideal S64x2048x64 .bf16) (g : Fin 64) (n : Fin 2048) (d : Fin 64) : EReal :=
  ∑ k : Fin 2048, (expo q κ g n k * Ideal.div (Ideal.ofBits .f32 0x3F800000#32) (rowSum q κ g n)) * v (ix3 g k d)

/-- The attention stage's whole result, one head after the other. -/
def attn (q κ v : FVec Ideal S64x2048x64 .bf16) : FVec Ideal S64x2048x64 .bf16 :=
  fun i => attnAt q κ v (i 0) (i 1) (i 2)

/-! ## Stage 3: the heads merged and projected -/

/-- Head h of the batch that output row r belongs to, as a head number among the 64. -/
def headOf (r : Fin 8192) (h : Fin 16) : Fin 64 := ⟨r.val / 2048 * 16 + h.val, by have := r.isLt; have := h.isLt; omega⟩
/-- The query row inside its batch that output row r is. -/
def rowOf (r : Fin 8192) : Fin 2048 := ⟨r.val % 2048, Nat.mod_lt _ (by decide)⟩
/-- Row 64·h + e of the projection's weight. -/
def wrow (h : Fin 16) (e : Fin 64) : Fin 1024 := ⟨h.val * 64 + e.val, by have := h.isLt; have := e.isLt; omega⟩

/-- One entry of the projected output: the sixteen heads' contributions, then the bias row's entry. -/
def projAt (a : FVec Ideal S64x2048x64 .bf16) (w : FVec Ideal S1024x1024 .bf16) (b : FVec Ideal S1x1024 .f32)
    (r : Fin 8192) (j : Fin 1024) : EReal :=
  (∑ h : Fin 16, ∑ e : Fin 64, a (ix3 (headOf r h) (rowOf r) e) * w (ix2 (wrow h e) j)) + b (ix2 (0 : Fin 1) j)

/-- The projection stage's whole result. -/
def proj (a : FVec Ideal S64x2048x64 .bf16) (w : FVec Ideal S1024x1024 .bf16) (b : FVec Ideal S1x1024 .f32) :
    FVec Ideal S8192x1024 .f32 :=
  fun i => projAt a w b (i 0) (i 1)

end Cert.Spec

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.I.Value0.lean ====
/-
  The dense layer's result array after the sixteen grid points, over the extended reals: entry (r, j) is
  Σ_k x[r, k] · w[k, j] + b[0, j], the specification's value.

  Three steps. (1) One entry of what the body computes from its three loaded blocks: the narrowing format changes
  and the same-shape casts do nothing over the extended reals, the product accumulated into zeros is the plain sum
  over the 1024 contracted positions, and the bias row broadcast down the rows adds its entry of the column. (2) At
  grid point t the input block is rows 512·t … 512·t + 511 of x, the weight and bias blocks are the whole arrays, and
  the block written back is rows 512·t … 512·t + 511 of the result; so what point t writes back is that block of the
  specification's array. (3) Row r lies in the block of point r / 512, so the sixteen blocks cover the 8192 rows and
  the result array ends as the specification's.
-/
import proofs.«116995_j6871947673702_2_alg».proof.Proof.I.Region0
import proofs.«116995_j6871947673702_2_alg».proof.Proof.Spec
import proofs.«116995_j6871947673702_2_alg».proof.Proof.LibDotCols
import Idealize.ShloMosaic.Lib.Pipeline.Value
import Idealize.ShloMosaic.Lib.ValueLayout
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

/-! ## One entry of the body's arithmetic -/

/-- Entry (p, q) of what the body computes from a 512 × 1024 block x0, the weight x1 and the bias row x2: row p of the
    block against column q of the weight, plus the bias row's entry q. -/
theorem pay0_apply (x0 : Vec Ideal S512x1024 .f32) (x1 : Vec Ideal S1024x3072 .bf16) (x2 : Vec Ideal S1x3072 .f32)
    (p : Fin 512) (q : Fin 3072) :
    k0_pay1 x0 x1 x2 (ix2 p q) = (∑ k : Fin 1024, x0 (ix2 p k) * x1 (ix2 k q)) + x2 (ix2 (0 : Fin 1) q) := by
  unfold k0_pay1
  simp only [shapeCast_self]
  refine (truncf_apply (ψ := .bf16) _ bitsLt_bf16_f32 _).trans ?_
  refine (addf_apply _ _ _).trans ?_
  refine congrArg₂ (· + ·) ?_ ?_
  · refine (Cert.Lib.DotCols.matmul_cols_apply (φ₁ := .bf16) (φ₂ := .bf16) dot_S512x1024_S1024x3072_S512x3072_1_0_0_1_n_n rfl none
      (truncf .bf16 x0 bitsLt_bf16_f32) x1 p q).trans ?_
    rfl
  · exact broadcastTo_1b_ab_apply _ _ p q

/-- The same entry against the whole arrays: when row p of the block is row r of x, the weight block is the whole
    weight and the bias block the whole bias row, the entry is the specification's at (r, q). -/
theorem block_entry0 (X : FVec Ideal S8192x1024 .f32) (W : FVec Ideal S1024x3072 .bf16) (B : FVec Ideal S1x3072 .f32)
    (x0 : Vec Ideal S512x1024 .f32) (x1 : Vec Ideal S1024x3072 .bf16) (x2 : Vec Ideal S1x3072 .f32)
    (p : Fin 512) (q : Fin 3072) (r : Fin 8192)
    (h0 : ∀ k : Fin 1024, x0 (ix2 p k) = X (ix2 r k)) (h1 : x1 = W) (h2 : x2 = B) :
    k0_pay1 x0 x1 x2 (ix2 p q) = Cert.Spec.linear X W B (ix2 r q) := by
  subst h1 h2
  rw [pay0_apply]
  show _ = Cert.Spec.linearAt X x1 x2 r q
  unfold Cert.Spec.linearAt
  exact congrArg₂ (· + ·) (Finset.sum_congr rfl fun k _ => congrArg₂ (· * ·) (h0 k) rfl) rfl

/-! ## The blocks at a grid point -/

variable (V : (c : Dev nD) → (b : Ref sig .tc) → Buf (Elt Ideal) ((c : Thread nD τ).loc b))

theorem zero_off0 : (![0, 0] : Fin 2 → Nat) = fun _ => 0 := funext fun a => by fin_cases a <;> rfl

/-- The index maps, decided over the sixteen points: the input block and the output block of point t are block row t;
    the weight and the bias are always at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 512·t + p of x. -/
theorem iblk0_x (c : Dev nD) (t : Fin cfg0.N) (p : Fin 512) (k : Fin 1024) (r : Fin 8192) (hr : r.val = 512 * t.val + p.val) :
    (Hand.iblk0 V c 0 t : Vec Ideal S512x1024 .f32) (ix2 p k) = (V c main_v0 : S8192x1024.Idx → Ideal .f32) (ix2 r k) := by
  obtain ⟨e00, e01, -⟩ := idx_facts0 t
  show V c main_v0 (((cfg0.win 0).blk t).view.emb (ix2 p k)) = V c main_v0 (ix2 r k)
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  rw [h]

/-- The weight's block at every point is the whole weight. -/
theorem iblk0_w (c : Dev nD) (t : Fin cfg0.N) :
    (Hand.iblk0 V c 1 t : Vec Ideal S1024x3072 .bf16) = (V c main_v2 : S1024x3072.Idx → Ideal .bf16) := by
  obtain ⟨-, -, e10, e11, -⟩ := idx_facts0 t
  funext y
  show V c main_v2 (((cfg0.win 1).blk t).view.emb y) = V c main_v2 y
  have h : ((cfg0.win 1).blk t).view.emb y = y := by
    funext a; apply Fin.ext
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  rw [h]

/-- The bias row's block at every point is the whole bias row. -/
theorem iblk0_b (c : Dev nD) (t : Fin cfg0.N) :
    (Hand.iblk0 V c 2 t : Vec Ideal S1x3072 .f32) = (V c main_v4 : S1x3072.Idx → Ideal .f32) := by
  obtain ⟨-, -, -, -, e20, e21, -⟩ := idx_facts0 t
  funext y
  show V c main_v4 (((cfg0.win 2).blk t).view.emb y) = V c main_v4 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 3072 + 1 * (y 1).val = (y 1).val; omega
  rw [h]

/-! ## What a point writes back -/

/-- What point t writes back is rows 512·t … 512·t + 511 of the specification's array. -/
theorem flushed0_eq (c : Dev nD) (t : Fin cfg0.N) :
    (Hand.dat0 V c).flushed 3 t
      = ((cfg0.win 3).blk t).view.read (Elt Ideal) (Cert.Spec.linear (V c main_v0) (V c main_v2) (V c main_v4)) := by
  show (cfg0.win 3).cut (grid0.coords t) ((Hand.dat0 V c).after 3 t) = _
  rw [Hand.after0_3]
  unfold Hand.out0_3
  rw [View.canon_unit_zero zero_off0]
  simp only [View.ld_unit_zero (S := S512x1024) zero_off0, View.ld_unit_zero (S := S1024x3072) zero_off0,
    View.ld_unit_zero (S := S1x3072) zero_off0]
  have hN : cfg0.N = 16 := N_0
  have ht : t.val < cfg0.N := t.isLt
  obtain ⟨-, -, -, -, -, -, e30, e31⟩ := idx_facts0 t
  funext j
  obtain ⟨p, q, rfl⟩ : ∃ (p : Fin 512) (q : Fin 3072), j = ix2 p q := ⟨j 0, j 1, eq_ix2 j⟩
  have hemb : ((cfg0.win 3).blk t).view.emb (ix2 p q) = ix2 (⟨512 * t.val + p.val, by omega⟩ : Fin 8192) q := by
    funext a; apply Fin.ext
    match a with
    | ⟨0, _⟩ => show win0_3.index t (0 : Fin 2) * 512 + 1 * p.val = 512 * t.val + p.val; omega
    | ⟨1, _⟩ => show win0_3.index t (1 : Fin 2) * 3072 + 1 * q.val = q.val; omega
  show k0_pay1 (Hand.iblk0 V c 0 t) (Hand.iblk0 V c 1 t) (Hand.iblk0 V c 2 t) (ix2 p q)
    = Cert.Spec.linear (V c main_v0) (V c main_v2) (V c main_v4) (((cfg0.win 3).blk t).view.emb (ix2 p q))
  rw [hemb]
  exact block_entry0 (V c main_v0) (V c main_v2) (V c main_v4) (Hand.iblk0 V c 0 t) (Hand.iblk0 V c 1 t) (Hand.iblk0 V c 2 t)
    p q ⟨512 * t.val + p.val, by omega⟩ (fun k => iblk0_x V c t p k _ rfl) (iblk0_w V c t) (iblk0_b V c t)

/-! ## The sixteen blocks cover the array -/

/-- An index of the result array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Row r of the result is in the block of point r / 512, which is written back. -/
theorem cover0 (i : S8192x3072.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 3072 := (i 1).isLt
  obtain ⟨t, ht⟩ : ∃ t : Fin cfg0.N, t.val = (i 0).val / 512 := ⟨⟨(i 0).val / 512, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-! ## The result array -/

/-- After the sixteen points the result array holds the dense layer of the arrays the stage was entered with. -/
theorem final0 (c : Dev nD) :
    (Hand.dat0 V c).arrAt 3 cfg0.N = Cert.Spec.linear (V c main_v0) (V c main_v2) (V c main_v4) :=
  (Hand.dat0 V c).arrAt_eq_of_cover 3 (Cert.Spec.linear (V c main_v0) (V c main_v2) (V c main_v4))
    (fun t _ => flushed0_eq V c t) cover0

end Cert.KernelIdeal.HandValue

end
-- ==== Proof.SpecRef.lean ====
/-
  The reference's arithmetic, index by index, on the extended reals, in the order the reference computes it.

  The fused input layer: for batch β, token n and output column o,
    P[β, n, o] = Σ_c x[β, n, c] · W[o, c] + u[o] · μ[o]      (the weight stored output-major, the bias masked entry by entry).
  Column o = 1024·σ + 64·h + d carries part σ (0 queries, 1 keys, 2 values), head h, width coordinate d.
  Inside batch β and head h, for query n and key k:
    s = (Σ_d P[β, n, col 0 h d] · P[β, k, col 1 h d]) · c,  M = sup_k s,  E = exp (s − M),  L = Σ_k E,  p = E / L,
    a[β, h, n, d] = Σ_k p_k · P[β, k, col 2 h d].
  The heads laid side by side (column 64·h + d) and projected by the second weight, stored output-major, plus its bias:
    z[β, n, j] = Σ_c a[β, c / 64, n, c mod 64] · R[j, c] + t[j].
-/
import proofs.«116995_j6871947673702_2_alg».proof.Proof.Spec

noncomputable section

open scoped BigOperators

namespace Cert.SpecRef

open Idealize.ShloMosaic Idealize.ShloMosaic.ValueIdx Cert.KernelIdeal Cert.Spec

/-- Column 1024·σ + 64·h + d of the fused input layer. -/
def col (σ : Fin 3) (h : Fin 16) (d : Fin 64) : Fin 3072 :=
  ⟨σ.val * 1024 + h.val * 64 + d.val, by have := σ.isLt; have := h.isLt; have := d.isLt; omega⟩

section
variable (x : FVec Ideal S4x2048x1024 .f32) (W : FVec Ideal S3072x1024 .f32) (u μ : FVec Ideal S3072 .f32)

/-- One entry of the fused input layer. -/
def inAt (β : Fin 4) (n : Fin 2048) (o : Fin 3072) : EReal :=
  (∑ c : Fin 1024, x (ix3 β n c) * W (ix2 o c)) + u (ix1 o) * μ (ix1 o)

/-- The scaled score of query n against key k in head h of batch β. -/
def score (β : Fin 4) (h : Fin 16) (n k : Fin 2048) : EReal :=
  (∑ d : Fin 64, inAt x W u μ β n (col 0 h d) * inAt x W u μ β k (col 1 h d)) * scale

/-- The largest score of a query. -/
def rowMax (β : Fin 4) (h : Fin 16) (n : Fin 2048) : EReal :=
  (Finset.univ : Finset (Fin 2048)).sup fun k => score x W u μ β h n k

/-- The exponential of a score's distance below the largest. -/
def expo (β : Fin 4) (h : Fin 16) (n k : Fin 2048) : EReal :=
  Ideal.exp (score x W u μ β h n k - rowMax x W u μ β h n)

/-- The query's normaliser. -/
def rowSum (β : Fin 4) (h : Fin 16) (n : Fin 2048) : EReal :=
  ∑ k : Fin 2048, expo x W u μ β h n k

/-- One entry of a head's output, each weight a quotient by the normaliser. -/
def headAt (β : Fin 4) (h : Fin 16) (n : Fin 2048) (d : Fin 64) : EReal :=
  ∑ k : Fin 2048, Ideal.div (expo x W u μ β h n k) (rowSum x W u μ β h n) * inAt x W u μ β k (col 2 h d)

/-- The head that column c of the merged heads belongs to, and its coordinate inside the head. -/
def headOfCol (c : Fin 1024) : Fin 16 := ⟨c.val / 64, by have := c.isLt; omega⟩
def widthOfCol (c : Fin 1024) : Fin 64 := ⟨c.val % 64, Nat.mod_lt _ (by decide)⟩

variable (R : FVec Ideal S1024x1024 .f32) (t : FVec Ideal S1024 .f32)

/-- One entry of the reference's result. -/
def outAt (β : Fin 4) (n : Fin 2048) (j : Fin 1024) : EReal :=
  (∑ c : Fin 1024, headAt x W u μ β (headOfCol c) n (widthOfCol c) * R (ix2 j c)) + t (ix1 j)

/-- The reference's whole result. -/
def out : FVec Ideal S4x2048x1024 .f32 :=
  fun i => outAt x W u μ R t (i 0) (i 1) (i 2)
end

end Cert.SpecRef

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.Bridge.lean ====
/-
  The two arrangements of the arithmetic are one function of real inputs.

  Stage 1 is the same sum on both sides once the flattened rows and the transposed weight are read back.
  Stage 2: with every input entry a real number, every entry of the fused input layer is real (a finite sum of products of
  reals plus a product of reals), so every score is real, a row's largest score is one of its scores (a supremum over a
  finite nonempty set in a linear order is attained) and hence real, each exponential is the exponential of a real, and the
  row sum L is a positive real. For a nonzero real L the quotient E / L is E · (1 / L), and 1 / L is 1 · (1 / L): the
  kernel's product with the reciprocal and the reference's quotient agree term by term.
  Stage 3: the sum over the 1024 merged columns is the sum over 16 heads of the sum over their 64 columns (column
  64·h + e), with the transposed second weight read back; addition on the extended reals is commutative and associative,
  so nothing about finiteness is used there.
-/
import proofs.«116995_j6871947673702_2_alg».proof.Proof.Spec
import proofs.«116995_j6871947673702_2_alg».proof.Proof.SpecRef
import proofs.«116995_j6871947673702_2_alg».proof.Proof.LibRealSums
import proofs.«116995_j6871947673702_2_alg».proof.Proof.LibGridAcc
import Idealize.ShloMosaic.PureOps.Ideal.Laws

noncomputable section

open scoped BigOperators

namespace Cert.Bridge

open Idealize.ShloMosaic Idealize.ShloMosaic.ValueIdx Cert.KernelIdeal Cert.Spec

/-- Every entry is a real number. -/
def AllReal {S : Shape} (a : S.Idx → EReal) : Prop := ∀ i, ∃ r : ℝ, a i = (r : EReal)

/-! ## Reals inside the extended reals -/

/-- Being a real number. -/
def IsR (a : EReal) : Prop := ∃ r : ℝ, a = (r : EReal)

theorem isR_coe (r : ℝ) : IsR (r : EReal) := ⟨r, rfl⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
theorem IsR.sup {n : ℕ} (f : Fin n → EReal) (hn : 0 < n) (h : ∀ i, IsR (f i)) : IsR ((Finset.univ : Finset (Fin n)).sup f) := by
  obtain ⟨i, -, hi⟩ := Finset.exists_mem_eq_sup (Finset.univ : Finset (Fin n)) ⟨⟨0, hn⟩, Finset.mem_univ _⟩ f
  rw [hi]; exact h i

/-- The scale is a real number. -/
theorem isR_scale : IsR Cert.Spec.scale := by
  unfold Cert.Spec.scale
  exact ⟨_, by simp [Ideal.ofBits, Ideal.ieee]; rfl⟩

/-- The single-precision word of one is the real one. -/
theorem ofBits_one : Ideal.ofBits .f32 0x3F800000#32 = (1 : EReal) := by
  simp [Ideal.ofBits, Ideal.ieee]
  rw [← EReal.coe_mul]
  norm_num

/-! ## Coordinates -/

/-- The batch a flattened row belongs to. -/
def batchOfRow (r : Fin 8192) : Fin 4 := ⟨r.val / 2048, by have := r.isLt; omega⟩
/-- The batch a head number belongs to, and the head's number inside its batch. -/
def batchOfHead (g : Fin 64) : Fin 4 := ⟨g.val / 16, by have := g.isLt; omega⟩
def headIn (g : Fin 64) : Fin 16 := ⟨g.val % 16, Nat.mod_lt _ (by decide)⟩

section Stages
variable (x : FVec Ideal S4x2048x1024 .f32) (W : FVec Ideal S3072x1024 .f32) (u μ : FVec Ideal S3072 .f32)
  (R : FVec Ideal S1024x1024 .f32) (t : FVec Ideal S1024 .f32)

/-! ## Stage 1 -/

theorem linear_eq (X : FVec Ideal S8192x1024 .f32) (Wt : FVec Ideal S1024x3072 .bf16) (B : FVec Ideal S1x3072 .f32)
    (hX : ∀ r k, X (ix2 r k) = x (ix3 (batchOfRow r) (rowOf r) k))
    (hW : ∀ k j, Wt (ix2 k j) = W (ix2 j k))
    (hB : ∀ j, B (ix2 (0 : Fin 1) j) = u (ix1 j) * μ (ix1 j)) (r : Fin 8192) (j : Fin 3072) :
    linearAt X Wt B r j = SpecRef.inAt x W u μ (batchOfRow r) (rowOf r) j := by
  unfold linearAt SpecRef.inAt
  simp only [hX, hW, hB]

/-! ## Stage 2 -/

section Real
variable (hx : AllReal x) (hW : AllReal W) (hu : AllReal u) (hμ : AllReal μ)
include hx hW hu hμ

theorem isR_inAt (β : Fin 4) (n : Fin 2048) (o : Fin 3072) : IsR (SpecRef.inAt x W u μ β n o) :=
  (IsR.sum _ _ fun c => IsR.mul (hx _) (hW _)).add (IsR.mul (hu _) (hμ _))

theorem isR_score (β : Fin 4) (h : Fin 16) (n k : Fin 2048) : IsR (SpecRef.score x W u μ β h n k) :=
  (IsR.sum _ _ fun d => (isR_inAt x W u μ hx hW hu hμ β n _).mul (isR_inAt x W u μ hx hW hu hμ β k _)).mul isR_scale

theorem isR_rowMax (β : Fin 4) (h : Fin 16) (n : Fin 2048) : IsR (SpecRef.rowMax x W u μ β h n) :=
  IsR.sup _ (by decide) fun k => isR_score x W u μ hx hW hu hμ β h n k

/-- Each exponential is a positive real. -/
theorem expo_pos (β : Fin 4) (h : Fin 16) (n k : Fin 2048) :
    ∃ r : ℝ, SpecRef.expo x W u μ β h n k = (r : EReal) ∧ 0 < r := by
  obtain ⟨a, ha⟩ := isR_score x W u μ hx hW hu hμ β h n k
  obtain ⟨b, hb⟩ := isR_rowMax x W u μ hx hW hu hμ β h n
  refine ⟨Real.exp (a - b), ?_, Real.exp_pos _⟩
  unfold SpecRef.expo
  rw [ha, hb, ← EReal.coe_sub]
  rfl

/-- The row sum is a positive real. -/
theorem rowSum_pos (β : Fin 4) (h : Fin 16) (n : Fin 2048) :
    ∃ l : ℝ, SpecRef.rowSum x W u μ β h n = (l : EReal) ∧ 0 < l := by
  choose r hr hpos using fun k => expo_pos x W u μ hx hW hu hμ β h n k
  refine ⟨∑ k : Fin 2048, r k, ?_, Finset.sum_pos (fun k _ => hpos k) ⟨0, Finset.mem_univ _⟩⟩
  unfold SpecRef.rowSum
  rw [Cert.Lib.RealSums.coe_sum]
  exact Finset.sum_congr rfl fun k _ => hr k

theorem attn_eq (Q K V : FVec Ideal S64x2048x64 .bf16)
    (hQ : ∀ g n e, Q (ix3 g n e) = SpecRef.inAt x W u μ (batchOfHead g) n (SpecRef.col 0 (headIn g) e))
    (hK : ∀ g n e, K (ix3 g n e) = SpecRef.inAt x W u μ (batchOfHead g) n (SpecRef.col 1 (headIn g) e))
    (hV : ∀ g n e, V (ix3 g n e) = SpecRef.inAt x W u μ (batchOfHead g) n (SpecRef.col 2 (headIn g) e))
    (g : Fin 64) (n : Fin 2048) (d : Fin 64) :
    attnAt Q K V g n d = SpecRef.headAt x W u μ (batchOfHead g) (headIn g) n d := by
  have hs : ∀ k, Cert.Spec.score Q K g n k = SpecRef.score x W u μ (batchOfHead g) (headIn g) n k := by
    intro k; unfold Cert.Spec.score SpecRef.score; simp only [hQ, hK]
  have hM : Cert.Spec.rowMax Q K g n = SpecRef.rowMax x W u μ (batchOfHead g) (headIn g) n := by
    unfold Cert.Spec.rowMax SpecRef.rowMax; simp only [hs]
  have hE : ∀ k, Cert.Spec.expo Q K g n k = SpecRef.expo x W u μ (batchOfHead g) (headIn g) n k := by
    intro k; unfold Cert.Spec.expo SpecRef.expo; rw [hs, hM]
  have hL : Cert.Spec.rowSum Q K g n = SpecRef.rowSum x W u μ (batchOfHead g) (headIn g) n := by
    unfold Cert.Spec.rowSum SpecRef.rowSum; simp only [hE]
  obtain ⟨l, hl, hlpos⟩ := rowSum_pos x W u μ hx hW hu hμ (batchOfHead g) (headIn g) n
  unfold attnAt SpecRef.headAt
  refine Finset.sum_congr rfl fun k _ => ?_
  rw [hE, hL, hV, hl, Ideal.div_coe (ne_of_gt hlpos), Ideal.div_coe (ne_of_gt hlpos), ofBits_one, one_mul]

end Real

/-! ## Stage 3 -/

theorem proj_eq (A : FVec Ideal S64x2048x64 .bf16) (Rt : FVec Ideal S1024x1024 .bf16) (T : FVec Ideal S1x1024 .f32)
    (hA : ∀ g n e, A (ix3 g n e) = SpecRef.headAt x W u μ (batchOfHead g) (headIn g) n e)
    (hR : ∀ k j, Rt (ix2 k j) = R (ix2 j k)) (hT : ∀ j, T (ix2 (0 : Fin 1) j) = t (ix1 j))
    (r : Fin 8192) (j : Fin 1024) :
    projAt A Rt T r j = SpecRef.outAt x W u μ R t (batchOfRow r) (rowOf r) j := by
  unfold projAt SpecRef.outAt
  rw [hT]
  refine congrArg (· + t (ix1 j)) ?_
  rw [Cert.Lib.GridAcc.sum_blocks' (B := 16) (J := 64)
    (fun c : Fin (16 * 64) => SpecRef.headAt x W u μ (batchOfRow r) (SpecRef.headOfCol c) (rowOf r) (SpecRef.widthOfCol c) * R (ix2 j c))]
  refine Finset.sum_congr rfl fun h _ => Finset.sum_congr rfl fun e _ => ?_
  rw [hA, hR]
  have e1 : batchOfHead (headOf r h) = batchOfRow r := Fin.ext (by
    show (r.val / 2048 * 16 + h.val) / 16 = r.val / 2048
    have := h.isLt; omega)
  have e2 : headIn (headOf r h) = h := Fin.ext (by
    show (r.val / 2048 * 16 + h.val) % 16 = h.val
    have := h.isLt; omega)
  have e3 : SpecRef.headOfCol (⟨h.val * 64 + e.val, Cert.Lib.GridAcc.blk_lt' h e⟩ : Fin (16 * 64)) = h := Fin.ext (by
    show (h.val * 64 + e.val) / 64 = h.val
    have := e.isLt; omega)
  have e4 : SpecRef.widthOfCol (⟨h.val * 64 + e.val, Cert.Lib.GridAcc.blk_lt' h e⟩ : Fin (16 * 64)) = e := Fin.ext (by
    show (h.val * 64 + e.val) % 64 = e.val
    have := e.isLt; omega)
  rw [e1, e2, e3, e4]
  rfl

end Stages

end Cert.Bridge

end
-- ==== Proof.Compose.lean ====
/-
  The three stages chained: the kernel's arrangement of the whole computation, fed with the reshaped input, the
  transposed weights and the masked bias, is the reference's result entry by entry.

  The dense layer over the 8192 flattened rows, read at row 2048·β + n and column o, is the fused input layer of batch
  β and token n at column o. The attention stage's operands are column blocks of that layer — head g = 16·β + h reads
  rows 2048·β + n and columns 1024·σ + 64·h + e, σ = 0, 1, 2 for queries, keys and values — so they are the fused
  layer's entries at (β, n, column σ h e), and the stage's output for head g is the reference's head output for batch
  g / 16 and head g mod 16. The projection of the merged heads, read at row 2048·β + n, is the reference's result at
  (β, n, ·). Only arithmetic on the coordinates is added here: (16·a + b) / 16 = a and so on.
-/
import proofs.«116995_j6871947673702_2_alg».proof.Proof.Bridge

noncomputable section

open scoped BigOperators

namespace Cert.Compose

open Idealize.ShloMosaic Idealize.ShloMosaic.ValueIdx Cert.KernelIdeal Cert.Spec Cert.Bridge

section
variable (x : FVec Ideal S4x2048x1024 .f32) (W : FVec Ideal S3072x1024 .f32) (u μ : FVec Ideal S3072 .f32)
  (R : FVec Ideal S1024x1024 .f32) (t : FVec Ideal S1024 .f32)

/-- An entry of the fused input layer depends on its three coordinates only through their values. -/
theorem inAt_of_val (β β' : Fin 4) (n n' : Fin 2048) (o o' : Fin 3072)
    (hβ : β.val = β'.val) (hn : n.val = n'.val) (ho : o.val = o'.val) :
    SpecRef.inAt x W u μ β n o = SpecRef.inAt x W u μ β' n' o' := by
  obtain rfl := Fin.ext hβ; obtain rfl := Fin.ext hn; obtain rfl := Fin.ext ho; rfl

/-- The same of an entry of the reference's result, in its batch and token coordinates. -/
theorem outAt_of_val (β β' : Fin 4) (n n' : Fin 2048) (j : Fin 1024) (hβ : β.val = β'.val) (hn : n.val = n'.val) :
    SpecRef.outAt x W u μ R t β n j = SpecRef.outAt x W u μ R t β' n' j := by
  obtain rfl := Fin.ext hβ; obtain rfl := Fin.ext hn; rfl

/-- THE CHAIN. With the dense layer's operands the flattened input, the transposed fused weight and the masked bias
    row, the attention operands the three column blocks of the dense layer's result regrouped by head, and the
    projection's operands the transposed second weight and its bias row, the projection of the attention of those
    operands, at row 2048·β + n, is the reference's result at batch β and token n. -/
theorem kernel_out_eq
    (hx : Cert.Bridge.AllReal x) (hW : Cert.Bridge.AllReal W) (hu : Cert.Bridge.AllReal u) (hμ : Cert.Bridge.AllReal μ)
    (X : FVec Ideal S8192x1024 .f32) (Wt : FVec Ideal S1024x3072 .bf16) (B : FVec Ideal S1x3072 .f32)
    (Q K V : FVec Ideal S64x2048x64 .bf16) (Rt : FVec Ideal S1024x1024 .bf16) (T : FVec Ideal S1x1024 .f32)
    (hX : ∀ (r : Fin 8192) (k : Fin 1024), X (ix2 r k) = x (ix3 (⟨r.val / 2048, by have := r.isLt; omega⟩ : Fin 4) (⟨r.val % 2048, Nat.mod_lt _ (by decide)⟩ : Fin 2048) k))
    (hWt : ∀ (k : Fin 1024) (j : Fin 3072), Wt (ix2 k j) = W (ix2 j k))
    (hB : ∀ (v : Fin 1) (j : Fin 3072), B (ix2 v j) = u (ix1 j) * μ (ix1 j))
    (hQ : ∀ (g : Fin 64) (n : Fin 2048) (e : Fin 64), Q (ix3 g n e) = Cert.Spec.linear X Wt B (ix2 (⟨g.val / 16 * 2048 + n.val, by have := g.isLt; have := n.isLt; omega⟩ : Fin 8192) (⟨0 + (g.val % 16 * 64 + e.val), by have := e.isLt; have : g.val % 16 < 16 := Nat.mod_lt _ (by decide); omega⟩ : Fin 3072)))
    (hK : ∀ (g : Fin 64) (n : Fin 2048) (e : Fin 64), K (ix3 g n e) = Cert.Spec.linear X Wt B (ix2 (⟨g.val / 16 * 2048 + n.val, by have := g.isLt; have := n.isLt; omega⟩ : Fin 8192) (⟨1024 + (g.val % 16 * 64 + e.val), by have := e.isLt; have : g.val % 16 < 16 := Nat.mod_lt _ (by decide); omega⟩ : Fin 3072)))
    (hV : ∀ (g : Fin 64) (n : Fin 2048) (e : Fin 64), V (ix3 g n e) = Cert.Spec.linear X Wt B (ix2 (⟨g.val / 16 * 2048 + n.val, by have := g.isLt; have := n.isLt; omega⟩ : Fin 8192) (⟨2048 + (g.val % 16 * 64 + e.val), by have := e.isLt; have : g.val % 16 < 16 := Nat.mod_lt _ (by decide); omega⟩ : Fin 3072)))
    (hRt : ∀ (k j : Fin 1024), Rt (ix2 k j) = R (ix2 j k)) (hT : ∀ (v : Fin 1) (j : Fin 1024), T (ix2 v j) = t (ix1 j))
    (β : Fin 4) (n : Fin 2048) (j : Fin 1024) :
    Cert.Spec.proj (Cert.Spec.attn Q K V) Rt T (ix2 (⟨β.val * 2048 + n.val, by have := β.isLt; have := n.isLt; omega⟩ : Fin 8192) j)
      = Cert.SpecRef.outAt x W u μ R t β n j := by
  -- the dense layer at a flattened row is the fused input layer at the row's batch and token
  have hlin : ∀ (r : Fin 8192) (o : Fin 3072),
      Cert.Spec.linear X Wt B (ix2 r o) = SpecRef.inAt x W u μ (batchOfRow r) (rowOf r) o :=
    fun r o => Cert.Bridge.linear_eq x W u μ X Wt B (fun r k => hX r k) hWt (fun j => hB 0 j) r o
  -- the three column blocks, regrouped by head, are the fused layer's query, key and value columns
  have hQ' : ∀ g n e, Q (ix3 g n e) = SpecRef.inAt x W u μ (batchOfHead g) n (SpecRef.col 0 (headIn g) e) := fun g n e =>
    (hQ g n e).trans ((hlin _ _).trans (inAt_of_val x W u μ _ _ _ _ _ _
      (by show (g.val / 16 * 2048 + n.val) / 2048 = g.val / 16; have := n.isLt; omega)
      (by show (g.val / 16 * 2048 + n.val) % 2048 = n.val; have := n.isLt; omega)
      (by show 0 + (g.val % 16 * 64 + e.val) = 0 * 1024 + g.val % 16 * 64 + e.val; omega)))
  have hK' : ∀ g n e, K (ix3 g n e) = SpecRef.inAt x W u μ (batchOfHead g) n (SpecRef.col 1 (headIn g) e) := fun g n e =>
    (hK g n e).trans ((hlin _ _).trans (inAt_of_val x W u μ _ _ _ _ _ _
      (by show (g.val / 16 * 2048 + n.val) / 2048 = g.val / 16; have := n.isLt; omega)
      (by show (g.val / 16 * 2048 + n.val) % 2048 = n.val; have := n.isLt; omega)
      (by show 1024 + (g.val % 16 * 64 + e.val) = 1 * 1024 + g.val % 16 * 64 + e.val; omega)))
  have hV' : ∀ g n e, V (ix3 g n e) = SpecRef.inAt x W u μ (batchOfHead g) n (SpecRef.col 2 (headIn g) e) := fun g n e =>
    (hV g n e).trans ((hlin _ _).trans (inAt_of_val x W u μ _ _ _ _ _ _
      (by show (g.val / 16 * 2048 + n.val) / 2048 = g.val / 16; have := n.isLt; omega)
      (by show (g.val / 16 * 2048 + n.val) % 2048 = n.val; have := n.isLt; omega)
      (by show 2048 + (g.val % 16 * 64 + e.val) = 2 * 1024 + g.val % 16 * 64 + e.val; omega)))
  -- so the attention stage's output is the reference's head output
  have hA : ∀ g n e, Cert.Spec.attn Q K V (ix3 g n e) = SpecRef.headAt x W u μ (batchOfHead g) (headIn g) n e :=
    fun g n e => Cert.Bridge.attn_eq x W u μ hx hW hu hμ Q K V hQ' hK' hV' g n e
  -- and the projection at row 2048·β + n the reference's result at (β, n)
  refine (Cert.Bridge.proj_eq x W u μ R t (Cert.Spec.attn Q K V) Rt T hA hRt (fun j => hT 0 j) _ j).trans ?_
  exact outAt_of_val x W u μ R t _ _ _ _ j
    (by show (β.val * 2048 + n.val) / 2048 = β.val; have := n.isLt; omega)
    (by show (β.val * 2048 + n.val) % 2048 = n.val; have := n.isLt; omega)

end

end Cert.Compose

end
-- ==== Proof.I.KernelValue.lean ====
/-
  The result array of the whole program, on the extended reals, as a function of the six argument arrays.

  Reading the run's last boundary backwards: the result is the projection region's output read as [4, 2048, 1024]; that
  output is the projection of the attention region's output with the transposed second weight and its bias row; the
  attention output is the attention of the three head-split column blocks of the dense layer's output; the dense layer's
  output is the layer of the flattened input, the transposed first weight and the masked bias row. With every argument
  entry a real number this composite is the reference's arithmetic entry by entry.
-/
import proofs.«116995_j6871947673702_2_alg».proof.Proof.I.Run
import proofs.«116995_j6871947673702_2_alg».proof.Proof.I.Glue
import proofs.«116995_j6871947673702_2_alg».proof.Proof.I.Value0
import proofs.«116995_j6871947673702_2_alg».proof.Proof.Compose

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.Glue

variable (m : (ℓ : Loc nD τ sig) → Buf (Elt Ideal) ℓ) (ρ : Dev nD → PrngReg)

/-- Up to the attention region's exit no segment writes an argument array. -/
theorem W4_arg (c : Dev nD) (r : Ref sig .tc)
    (h0 : r ∉ hostOps0_W) (h1 : r ∉ hostOps1_W)
    (n0 : ∀ w, Pipeline.arrRef spec0 w ≠ r) (n1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-- The result array is the reference's arithmetic of the argument arrays, given the attention and projection regions'
    outputs as functions of the arrays they are entered with. -/
theorem kernel_value_of
    (hf1 : ∀ (V : (c : Dev nD) → (b : Ref sig .tc) → Buf (Elt Ideal) ((c : Thread nD τ).loc b)) (c : Dev nD),
      (dat1 V c).arrAt 3 cfg1.N = Cert.Spec.attn (V c main_v11) (V c main_v14) (V c main_v17))
    (hf2 : ∀ (V : (c : Dev nD) → (b : Ref sig .tc) → Buf (Elt Ideal) ((c : Thread nD τ).loc b)) (c : Dev nD),
      (dat2 V c).arrAt 3 cfg2.N = Cert.Spec.proj (V c main_v18) (V c main_v20) (V c main_v21))
    (c : Dev nD)
    (hx : Cert.Bridge.AllReal (asVec S4x2048x1024 (m ((c : Thread nD τ).loc main_arg0))))
    (hW : Cert.Bridge.AllReal (asVec S3072x1024 (m ((c : Thread nD τ).loc main_arg1))))
    (hu : Cert.Bridge.AllReal (asVec S3072 (m ((c : Thread nD τ).loc main_arg2))))
    (hμ : Cert.Bridge.AllReal (asVec S3072 (m ((c : Thread nD τ).loc main_arg3)))) :
    asVec S4x2048x1024 (W7 m ρ c (Proc.devRef .tc main_v23))
      = Cert.SpecRef.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨β, n, j, rfl⟩ : ∃ (β : Fin 4) (n : Fin 2048) (j : Fin 1024), i = ix3 β n j := ⟨i 0, i 1, i 2, eq_ix3 i⟩
  -- the final reshape, then the projection region's output
  have e23 := v23_apply (W6 m ρ c) β n j
  have e22 : W6 m ρ c (Proc.devRef .tc main_v22)
      = Cert.Spec.proj (V5 m ρ c main_v18) (V5 m ρ c main_v20) (V5 m ρ c main_v21) :=
    (W6_arr m ρ c 3).trans (hf2 (V5 m ρ) c)
  -- the attention region's output reaches the projection region untouched
  have e18 : V5 m ρ c main_v18 = Cert.Spec.attn (V3 m ρ c main_v11) (V3 m ρ c main_v14) (V3 m ρ c main_v17) :=
    (StableHlo.after_of_writes_sub hostOps2 _ hostOps2_writes (by decide : main_v18 ∉ hostOps2_W)).trans
      ((W4_arr m ρ c 3).trans (hf1 (V3 m ρ) c))
  -- the dense layer's output
  have e5 : W2 m ρ c (Proc.devRef .tc main_v5)
      = Cert.Spec.linear (V1 m ρ c main_v0) (V1 m ρ c main_v2) (V1 m ρ c main_v4) :=
    (W2_arr m ρ c 3).trans (final0 (V1 m ρ) c)
  show W7 m ρ c (Proc.devRef .tc main_v23) (ix3 β n j) = Cert.SpecRef.outAt _ _ _ _ _ _ β n j
  refine e23.trans ?_
  rw [e22, e18]
  refine Cert.Compose.kernel_out_eq _ _ _ _ _ _ hx hW hu hμ
    (V1 m ρ c main_v0) (V1 m ρ c main_v2) (V1 m ρ c main_v4)
    (V3 m ρ c main_v11) (V3 m ρ c main_v14) (V3 m ρ c main_v17) (V5 m ρ c main_v20) (V5 m ρ c main_v21)
    (fun r k => v0_apply (W0 m ρ c) r k)
    (fun k j => v2_apply (W0 m ρ c) k j)
    (fun v j => v4_apply (W0 m ρ c) v j)
    (fun g n e => (v11_apply (W2 m ρ c) g n e).trans (by rw [e5]))
    (fun g n e => (v14_apply (W2 m ρ c) g n e).trans (by rw [e5]))
    (fun g n e => (v17_apply (W2 m ρ c) g n e).trans (by rw [e5]))
    (fun k j => (v20_apply (W4 m ρ c) k j).trans (by rw [W4_arg m ρ c main_arg4 (by decide) (by decide) (by decide) (by decide)]))
    (fun v j => (v21_apply (W4 m ρ c) v j).trans (by rw [W4_arg m ρ c main_arg5 (by decide) (by decide) (by decide) (by decide)]))
    β n j

end Cert.KernelIdeal.HandValue

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«116995_j6871947673702_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«116995_j6871947673702_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.I.Value1Pay.lean ====
/-
  One entry of the attention stage's stored block, as arithmetic on the extended reals.

  At a grid point the body holds a query block q [1, 1024, 64], the head's keys κ [1, 2048, 64] and the head's values
  v [1, 2048, 64].  It drops the leading unit axis of each, forms the 1024 x 2048 matrix of scaled scores
      s[p, k] = (Σ_e q[p, e] · κ[k, e]) · c,
  takes every row's largest score M[p] = sup_k s[p, k], the exponentials E[p, k] = exp (s[p, k] − M[p]), every row's sum
  L[p] = Σ_k E[p, k], the weights E[p, k] · (1 / L[p]), and multiplies the weight matrix by the values:
      o[p, d] = Σ_k (E[p, k] · (1 / L[p])) · v[k, d].
  The changes of float format on the way are the identity on the extended reals, and the scale c and the numerator 1 stay
  the words the program carries.

  Entry (p, d) of the result depends only on row p of the queries, on all the key rows, and on column d of the values:
  attnRow below is that dependence written once, for the stored block (pay1_apply) and for the whole arrays
  (attnAt_eq_attnRow), so that the two are compared argument by argument and no sum is ever opened.
-/
import proofs.«116995_j6871947673702_2_alg».proof.Proof.Gen.KernelIdeal.Skeleton
import proofs.«116995_j6871947673702_2_alg».proof.Proof.Spec
import proofs.«116995_j6871947673702_2_alg».proof.Proof.LibDotRows
import proofs.«116995_j6871947673702_2_alg».proof.Proof.LibDotCols
import proofs.«116995_j6871947673702_2_alg».proof.Proof.LibHostMax
import proofs.«116995_j6871947673702_2_alg».proof.Proof.LibLaneRows
import Idealize.ShloMosaic.Lib.ValueLayout

noncomputable section

open scoped BigOperators

namespace Cert.KernelIdeal.HandValue

open Cert.KernelIdeal Cert.KernelIdeal.Gen
open Idealize.ShloMosaic Idealize.ShloMosaic.ValueIdx

/-! ## One entry as a function of a query row, the key rows and a value column -/

/-- The scaled score of the query row against key row k. -/
def scoreRow (qr : Fin 64 → EReal) (kk : Fin 2048 → Fin 64 → EReal) (k : Fin 2048) : EReal :=
  (∑ e : Fin 64, qr e * kk k e) * Cert.Spec.scale

/-- The largest score of the query row. -/
def maxRow (qr : Fin 64 → EReal) (kk : Fin 2048 → Fin 64 → EReal) : EReal :=
  (Finset.univ : Finset (Fin 2048)).sup fun k => scoreRow qr kk k

/-- The exponential of a score's distance below the largest. -/
def expoRow (qr : Fin 64 → EReal) (kk : Fin 2048 → Fin 64 → EReal) (k : Fin 2048) : EReal :=
  Ideal.exp (scoreRow qr kk k - maxRow qr kk)

/-- The query row's normaliser. -/
def sumRow (qr : Fin 64 → EReal) (kk : Fin 2048 → Fin 64 → EReal) : EReal :=
  ∑ k : Fin 2048, expoRow qr kk k

/-- The output entry: the normalised weights against the value column. -/
def attnRow (qr : Fin 64 → EReal) (kk : Fin 2048 → Fin 64 → EReal) (vv : Fin 2048 → EReal) : EReal :=
  ∑ k : Fin 2048, (expoRow qr kk k * Ideal.div (Ideal.ofBits .f32 0x3F800000#32) (sumRow qr kk)) * vv k

/-- The specification's entry (g, n, d) is attnRow of query row n, the key rows and value column d of head g. -/
theorem attnAt_eq_attnRow (q κ v : FVec Ideal S64x2048x64 .bf16) (g : Fin 64) (n : Fin 2048) (d : Fin 64) :
    Cert.Spec.attnAt q κ v g n d
      = attnRow (fun e => q (ix3 g n e)) (fun k e => κ (ix3 g k e)) (fun k => v (ix3 g k d)) := rfl

/-! ## The body's stages, over matrices -/

/-- The scaled scores of a query matrix against a key matrix. -/
def scores (q2 : FVec Ideal S1024x64 .bf16) (k2 : FVec Ideal S2048x64 .bf16) : FVec Ideal S1024x2048 .f32 :=
  mulf (matmul dot_S1024x64_S2048x64_S1024x2048_1_1_0_0_n_n none q2 k2 (constant S1024x2048 .f32 0x00000000#32))
    (broadcast S1024x2048 (Scalar.ofBits .f32 0x3E000000#32))

/-- Every row's largest entry, spread back over the row. -/
def rowMaxCol (s : FVec Ideal S1024x2048 .f32) : FVec Ideal S1024x2048 .f32 :=
  broadcastTo S1024x2048
    (shapeCast S1024x1 (multiReduction .maximumf [1] S1024 s 0xFF800000#32 reduces_S1024x2048_S1024 (.inl rfl) rfl) shapeCasts_S1024_S1024x1)
    broadcasts_S1024x1_S1024x2048

/-- The exponentials of the entries' distances below their rows' largest. -/
def expos (s : FVec Ideal S1024x2048 .f32) : FVec Ideal S1024x2048 .f32 := exp (subf s (rowMaxCol s))

/-- The reciprocal of every row's sum, spread back over the row. -/
def recipCol (E : FVec Ideal S1024x2048 .f32) : FVec Ideal S1024x2048 .f32 :=
  broadcastTo S1024x2048
    (divf (broadcast S1024x1 (Scalar.ofBits .f32 0x3F800000#32))
      (shapeCast S1024x1 (multiReduction .add [1] S1024 E 0x00000000#32 reduces_S1024x2048_S1024 (.inl rfl) rfl) shapeCasts_S1024_S1024x1))
    broadcasts_S1024x1_S1024x2048

/-- The normalised weights. -/
def weights (E : FVec Ideal S1024x2048 .f32) : FVec Ideal S1024x2048 .bf16 :=
  truncf .bf16 (mulf E (recipCol E)) bitsLt_bf16_f32

/-- The weights against the value matrix. -/
def outMat (W : FVec Ideal S1024x2048 .bf16) (v2 : FVec Ideal S2048x64 .bf16) : FVec Ideal S1024x64 .bf16 :=
  truncf .bf16 (matmul dot_S1024x2048_S2048x64_S1024x64_1_0_0_1_n_n none W v2 (constant S1024x64 .f32 0x00000000#32)) bitsLt_bf16_f32

/-- The stored value is the composition of the stages on the three blocks with their unit axes dropped. -/
theorem pay1_eq (x0 : FVec Ideal S1x1024x64 .bf16) (x1 x2 : FVec Ideal S1x2048x64 .bf16) :
    k1_pay1 (F := Ideal) x0 x1 x2
      = shapeCast S1x1024x64
          (outMat (weights (expos (scores (shapeCast S1024x64 x0 shapeCasts_S1x1024x64_S1024x64) (shapeCast S2048x64 x1 shapeCasts_S1x2048x64_S2048x64))))
            (shapeCast S2048x64 x2 shapeCasts_S1x2048x64_S2048x64))
          shapeCasts_S1024x64_S1x1024x64 := rfl

/-! ## Each stage at an entry -/

/-- A score is the inner product of a query row and a key row, scaled. -/
theorem scores_apply (q2 : FVec Ideal S1024x64 .bf16) (k2 : FVec Ideal S2048x64 .bf16) (p : Fin 1024) (k : Fin 2048) :
    scores q2 k2 (ix2 p k) = (∑ e : Fin 64, q2 (ix2 p e) * k2 (ix2 k e)) * Cert.Spec.scale :=
  congrArg (· * Cert.Spec.scale)
    (Cert.Lib.DotRows.matmul_rows_apply (M := 1024) (K := 64) (N := 2048) dot_S1024x64_S2048x64_S1024x2048_1_1_0_0_n_n rfl none q2 k2 p k)

/-- The spread row maximum at any entry of row p is the supremum of row p. -/
theorem rowMaxCol_apply (s : FVec Ideal S1024x2048 .f32) (p : Fin 1024) (k : Fin 2048) :
    rowMaxCol s (ix2 p k) = (Finset.univ : Finset (Fin 2048)).sup fun k' => s (ix2 p k') := by
  unfold rowMaxCol
  refine (LaneRows.broadcastTo_col_apply _ broadcasts_S1024x1_S1024x2048 p k).trans ?_
  refine (HostMax.shapeCast_col_apply _ shapeCasts_S1024_S1024x1 (ix2 p (0 : Fin 1)) p rfl).trans ?_
  exact HostMax.multiReduction_rows s reduces_S1024x2048_S1024 (.inl rfl) rfl p

/-- An exponential at an entry. -/
theorem expos_apply (s : FVec Ideal S1024x2048 .f32) (p : Fin 1024) (k : Fin 2048) :
    expos s (ix2 p k) = Ideal.exp (s (ix2 p k) - (Finset.univ : Finset (Fin 2048)).sup fun k' => s (ix2 p k')) :=
  congrArg (fun m => Ideal.exp (s (ix2 p k) - m)) (rowMaxCol_apply s p k)

/-- The spread reciprocal at any entry of row p is one over the sum of row p. -/
theorem recipCol_apply (E : FVec Ideal S1024x2048 .f32) (p : Fin 1024) (k : Fin 2048) :
    recipCol E (ix2 p k) = Ideal.div (Ideal.ofBits .f32 0x3F800000#32) (∑ k' : Fin 2048, E (ix2 p k')) := by
  unfold recipCol
  refine (LaneRows.broadcastTo_col_apply _ broadcasts_S1024x1_S1024x2048 p k).trans ?_
  refine congrArg (Ideal.div (Ideal.ofBits .f32 0x3F800000#32)) ?_
  refine (HostMax.shapeCast_col_apply _ shapeCasts_S1024_S1024x1 (ix2 p (0 : Fin 1)) p rfl).trans ?_
  exact LaneRows.multiReduction_add_rows E 0x00000000#32 reduces_S1024x2048_S1024 (.inl rfl) rfl p

/-- A weight at an entry. -/
theorem weights_apply (E : FVec Ideal S1024x2048 .f32) (p : Fin 1024) (k : Fin 2048) :
    weights E (ix2 p k) = E (ix2 p k) * Ideal.div (Ideal.ofBits .f32 0x3F800000#32) (∑ k' : Fin 2048, E (ix2 p k')) :=
  congrArg (fun r => E (ix2 p k) * r) (recipCol_apply E p k)

/-- The product of the weights and the values at an entry. -/
theorem outMat_apply (W : FVec Ideal S1024x2048 .bf16) (v2 : FVec Ideal S2048x64 .bf16) (p : Fin 1024) (d : Fin 64) :
    outMat W v2 (ix2 p d) = ∑ k : Fin 2048, W (ix2 p k) * v2 (ix2 k d) :=
  Cert.Lib.DotCols.matmul_cols_apply (M := 1024) (K := 2048) (N := 64) dot_S1024x2048_S2048x64_S1024x64_1_0_0_1_n_n rfl none W v2 p d

/-! ## The stages composed -/

/-- An exponential of the scores of two matrices is expoRow of the query row and the key rows. -/
theorem expos_scores_apply (q2 : FVec Ideal S1024x64 .bf16) (k2 : FVec Ideal S2048x64 .bf16) (p : Fin 1024) (k : Fin 2048) :
    expos (scores q2 k2) (ix2 p k) = expoRow (fun e => q2 (ix2 p e)) (fun k' e => k2 (ix2 k' e)) k := by
  rw [expos_apply]
  unfold expoRow maxRow scoreRow
  simp only [scores_apply]

/-- Entry (p, d) of the stages composed on three matrices is attnRow of query row p, the key rows and value column d. -/
theorem stages_apply (q2 : FVec Ideal S1024x64 .bf16) (k2 v2 : FVec Ideal S2048x64 .bf16) (p : Fin 1024) (d : Fin 64) :
    outMat (weights (expos (scores q2 k2))) v2 (ix2 p d)
      = attnRow (fun e => q2 (ix2 p e)) (fun k e => k2 (ix2 k e)) (fun k => v2 (ix2 k d)) := by
  rw [outMat_apply]
  unfold attnRow sumRow
  refine Finset.sum_congr rfl fun k _ => ?_
  rw [weights_apply]
  simp only [expos_scores_apply]

/-- THE STORED VALUE AT AN ENTRY: entry (0, p, d) of the block the body stores is attnRow of row p of the query block,
    the rows of the key block and column d of the value block. -/
theorem pay1_apply (x0 : FVec Ideal S1x1024x64 .bf16) (x1 x2 : FVec Ideal S1x2048x64 .bf16) (p : Fin 1024) (d : Fin 64) :
    k1_pay1 (F := Ideal) x0 x1 x2 (ix3 (0 : Fin 1) p d)
      = attnRow (fun e => x0 (ix3 (0 : Fin 1) p e)) (fun k e => x1 (ix3 (0 : Fin 1) k e)) (fun k => x2 (ix3 (0 : Fin 1) k d)) := by
  rw [pay1_eq]
  refine (shapeCast_ab_1ab_apply _ shapeCasts_S1024x64_S1x1024x64 (0 : Fin 1) p d).trans ?_
  refine (stages_apply _ _ _ p d).trans ?_
  simp only [shapeCast_1ab_ab_apply]

/-- The same against whole arrays: if row p of the query block is row n of head g's queries, the key block is head g's keys
    and the value block is head g's values, entry (0, p, d) of the stored block is the specification's entry (g, n, d). -/
theorem pay1_eq_attnAt (Q K Vv : FVec Ideal S64x2048x64 .bf16) (x0 : FVec Ideal S1x1024x64 .bf16) (x1 x2 : FVec Ideal S1x2048x64 .bf16)
    (g : Fin 64) (n : Fin 2048) (p : Fin 1024) (d : Fin 64)
    (h0 : ∀ e : Fin 64, x0 (ix3 (0 : Fin 1) p e) = Q (ix3 g n e))
    (h1 : ∀ (k : Fin 2048) (e : Fin 64), x1 (ix3 (0 : Fin 1) k e) = K (ix3 g k e))
    (h2 : ∀ k : Fin 2048, x2 (ix3 (0 : Fin 1) k d) = Vv (ix3 g k d)) :
    k1_pay1 (F := Ideal) x0 x1 x2 (ix3 (0 : Fin 1) p d) = Cert.Spec.attnAt Q K Vv g n d := by
  rw [pay1_apply, attnAt_eq_attnRow]
  have e0 : (fun e => x0 (ix3 (0 : Fin 1) p e)) = fun e => Q (ix3 g n e) := funext h0
  have e1 : (fun k e => x1 (ix3 (0 : Fin 1) k e)) = fun k e => K (ix3 g k e) := funext fun k => funext (h1 k)
  have e2 : (fun k => x2 (ix3 (0 : Fin 1) k d)) = fun k => Vv (ix3 g k d) := funext h2
  rw [e0, e1, e2]

end Cert.KernelIdeal.HandValue

end
-- ==== Proof.I.Value1.lean ====
/-
  The attention stage's output array after the stage has run, at the extended reals.

  Point t = (g, half) of the 64 x 2 grid (t = 2 * g + half) reads block (g, half, 0) of the query array, that is head g,
  rows 1024 * half, ..., 1024 * half + 1023; block (g, 0, 0) of the key array and of the value array, that is head g whole;
  and writes block (g, half, 0) of the output array.  Entry (0, p, d) of the written block is the specification's
  entry (g, 1024 * half + p, d): it depends on row p of the query block, which is row 1024 * half + p of head g's
  queries, on the rows of the key block, which are head g's key rows, and on column d of the value block, which is
  column d of head g's values.  Every output entry (g, n, d) lies in the block of exactly the point 2 * g + n / 1024,
  and every point writes its block back, so after the last point the output array is the specification's attention
  of the three arrays as the stage found them.
-/
import proofs.«116995_j6871947673702_2_alg».proof.Proof.I.Region1
import proofs.«116995_j6871947673702_2_alg».proof.Proof.I.Value1Pay
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-- The block indices at point t, decided over the grid: the query and output windows are at (t / 2, t % 2, 0), the
    key and value windows at (t / 2, 0, 0). -/
theorem index_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

/-- The grid has 128 points. -/
theorem point_lt (t : Fin cfg1.N) : t.val < 128 := lt_of_lt_of_eq t.isLt (show cfg1.N = 128 from N_1)

/-! ## The three input blocks as rows of their arrays -/

/-- Row p of the query block at point t is row 1024 * (t % 2) + p of head t / 2 of the query array. -/
theorem iblk1_0_apply (c : Dev nD) (t : Fin cfg1.N) (p : Fin 1024) (e : Fin 64) (g : Fin 64) (n : Fin 2048)
    (hg : g.val = t.val / 2) (hn : n.val = 1024 * (t.val % 2) + p.val) :
    (Hand.iblk1 V c 0 t : FVec Ideal S1x1024x64 .bf16) (ix3 (0 : Fin 1) p e)
      = (V c main_v11 : FVec Ideal S64x2048x64 .bf16) (ix3 g n e) := by
  obtain ⟨e0, e1, e2, -⟩ := index_facts1 t
  show (V c main_v11 : FVec Ideal S64x2048x64 .bf16) (((cfg1.win 0).blk t).view.emb (ix3 (0 : Fin 1) p e)) = _
  refine congrArg (V c main_v11 : FVec Ideal S64x2048x64 .bf16) ?_
  funext a; apply Fin.ext
  match a with
  | ⟨0, _⟩ => show win1_0.index t (0 : Fin 3) * 1 + 1 * 0 = g.val; rw [e0, hg]; omega
  | ⟨1, _⟩ => show win1_0.index t (1 : Fin 3) * 1024 + 1 * p.val = n.val; rw [e1, hn]; omega
  | ⟨2, _⟩ => show win1_0.index t (2 : Fin 3) * 64 + 1 * e.val = e.val; rw [e2]; omega

/-- Row k of the key block at point t is row k of head t / 2 of the key array. -/
theorem iblk1_1_apply (c : Dev nD) (t : Fin cfg1.N) (k : Fin 2048) (e : Fin 64) (g : Fin 64) (hg : g.val = t.val / 2) :
    (Hand.iblk1 V c 1 t : FVec Ideal S1x2048x64 .bf16) (ix3 (0 : Fin 1) k e)
      = (V c main_v14 : FVec Ideal S64x2048x64 .bf16) (ix3 g k e) := by
  obtain ⟨-, -, -, e0, e1, e2, -⟩ := index_facts1 t
  show (V c main_v14 : FVec Ideal S64x2048x64 .bf16) (((cfg1.win 1).blk t).view.emb (ix3 (0 : Fin 1) k e)) = _
  refine congrArg (V c main_v14 : FVec Ideal S64x2048x64 .bf16) ?_
  funext a; apply Fin.ext
  match a with
  | ⟨0, _⟩ => show win1_1.index t (0 : Fin 3) * 1 + 1 * 0 = g.val; rw [e0, hg]; omega
  | ⟨1, _⟩ => show win1_1.index t (1 : Fin 3) * 2048 + 1 * k.val = k.val; rw [e1]; omega
  | ⟨2, _⟩ => show win1_1.index t (2 : Fin 3) * 64 + 1 * e.val = e.val; rw [e2]; omega

/-- Row k of the value block at point t is row k of head t / 2 of the value array. -/
theorem iblk1_2_apply (c : Dev nD) (t : Fin cfg1.N) (k : Fin 2048) (d : Fin 64) (g : Fin 64) (hg : g.val = t.val / 2) :
    (Hand.iblk1 V c 2 t : FVec Ideal S1x2048x64 .bf16) (ix3 (0 : Fin 1) k d)
      = (V c main_v17 : FVec Ideal S64x2048x64 .bf16) (ix3 g k d) := by
  obtain ⟨-, -, -, -, -, -, e0, e1, e2, -⟩ := index_facts1 t
  show (V c main_v17 : FVec Ideal S64x2048x64 .bf16) (((cfg1.win 2).blk t).view.emb (ix3 (0 : Fin 1) k d)) = _
  refine congrArg (V c main_v17 : FVec Ideal S64x2048x64 .bf16) ?_
  funext a; apply Fin.ext
  match a with
  | ⟨0, _⟩ => show win1_2.index t (0 : Fin 3) * 1 + 1 * 0 = g.val; rw [e0, hg]; omega
  | ⟨1, _⟩ => show win1_2.index t (1 : Fin 3) * 2048 + 1 * k.val = k.val; rw [e1]; omega
  | ⟨2, _⟩ => show win1_2.index t (2 : Fin 3) * 64 + 1 * d.val = d.val; rw [e2]; omega

/-! ## What a point writes back -/

/-- WHAT POINT t WRITES BACK is block t of the specification's attention of the three arrays as the stage finds them. -/
theorem flushed1_eq (c : Dev nD) (t : Fin cfg1.N) :
    (Hand.dat1 V c).flushed 3 t
      = ((cfg1.win 3).blk t).view.read (Elt Ideal) (Cert.Spec.attn (V c main_v11) (V c main_v14) (V c main_v17)) := by
  show (cfg1.win 3).cut (grid1.coords t) ((Hand.dat1 V c).after 3 t) = _
  rw [Hand.after1_3]
  unfold Hand.out1_3
  rw [View.canon_unit_zero zero3]
  simp only [View.ld_unit_zero (S := S1x1024x64) zero3, View.ld_unit_zero (S := S1x2048x64) zero3]
  have ht := point_lt t
  obtain ⟨-, -, -, -, -, -, -, -, -, e0, e1, e2⟩ := index_facts1 t
  funext j
  obtain ⟨u, p, d, rfl⟩ : ∃ (u : Fin 1) (p : Fin 1024) (d : Fin 64), j = ix3 u p d := ⟨j 0, j 1, j 2, eq_ix3 j⟩
  obtain rfl : u = 0 := Subsingleton.elim _ _
  have hemb : ((cfg1.win 3).blk t).view.emb (ix3 (0 : Fin 1) p d)
      = ix3 (⟨t.val / 2, by omega⟩ : Fin 64) (⟨1024 * (t.val % 2) + p.val, by have := p.isLt; omega⟩ : Fin 2048) d := by
    funext a; apply Fin.ext
    match a with
    | ⟨0, _⟩ => show win1_3.index t (0 : Fin 3) * 1 + 1 * 0 = t.val / 2; rw [e0]; omega
    | ⟨1, _⟩ => show win1_3.index t (1 : Fin 3) * 1024 + 1 * p.val = 1024 * (t.val % 2) + p.val; rw [e1]; omega
    | ⟨2, _⟩ => show win1_3.index t (2 : Fin 3) * 64 + 1 * d.val = d.val; rw [e2]; omega
  show k1_pay1 (F := Ideal) (Hand.iblk1 V c 0 t) (Hand.iblk1 V c 1 t) (Hand.iblk1 V c 2 t) (ix3 (0 : Fin 1) p d)
      = Cert.Spec.attn (V c main_v11) (V c main_v14) (V c main_v17) (((cfg1.win 3).blk t).view.emb (ix3 (0 : Fin 1) p d))
  rw [hemb]
  exact pay1_eq_attnAt (V c main_v11) (V c main_v14) (V c main_v17) (Hand.iblk1 V c 0 t) (Hand.iblk1 V c 1 t) (Hand.iblk1 V c 2 t)
    ⟨t.val / 2, by omega⟩ ⟨1024 * (t.val % 2) + p.val, by have := p.isLt; omega⟩ p d
    (fun e => iblk1_0_apply V c t p e _ _ rfl rfl)
    (fun k e => iblk1_1_apply V c t k e _ rfl)
    (fun k => iblk1_2_apply V c t k d _ rfl)

/-! ## The cover -/

/-- An index of the output array is in point t's block iff each coordinate is in the block's range on its axis. -/
theorem mem_blk1_3 (t : Fin cfg1.N) (i : S64x2048x64.Idx) :
    i ∈ ((cfg1.win 3).blk t).view.set
      ↔ ∀ a : Fin 3, win1_3.index t a * S1x1024x64.size a ≤ (i a).val ∧ (i a).val < win1_3.index t a * S1x1024x64.size a + S1x1024x64.size a := by
  show i ∈ ((View.whole main_v18).slice (win1_3.rect t)).set ↔ _
  rw [View.set_slice_whole, Rect.mem_set_unit]
  exact Iff.rfl

/-- Entry (g, n, d) of the output array is in the block of point 2 * g + n / 1024, which writes it back. -/
theorem cover_out1 (i : S64x2048x64.Idx) :
    ∃ t : Fin cfg1.N, (cfg1.win 3).flush t = true ∧ i ∈ ((cfg1.win 3).blk t).view.set := by
  have h0 : (i 0).val < 64 := (i 0).isLt
  have h1 : (i 1).val < 2048 := (i 1).isLt
  have h2 : (i 2).val < 64 := (i 2).isLt
  obtain ⟨t, tv⟩ : ∃ t : Fin cfg1.N, t.val = 2 * (i 0).val + (i 1).val / 1024 :=
    ⟨⟨2 * (i 0).val + (i 1).val / 1024, by rw [show cfg1.N = 128 from N_1]; omega⟩, rfl⟩
  refine ⟨t, flush1_3 t, ?_⟩
  rw [mem_blk1_3]
  obtain ⟨-, -, -, -, -, -, -, -, -, e0, e1, e2⟩ := index_facts1 t
  intro a
  match a with
  | ⟨0, _⟩ => show win1_3.index t (0 : Fin 3) * 1 ≤ (i 0).val ∧ (i 0).val < win1_3.index t (0 : Fin 3) * 1 + 1; rw [e0, tv]; omega
  | ⟨1, _⟩ => show win1_3.index t (1 : Fin 3) * 1024 ≤ (i 1).val ∧ (i 1).val < win1_3.index t (1 : Fin 3) * 1024 + 1024; rw [e1, tv]; omega
  | ⟨2, _⟩ => show win1_3.index t (2 : Fin 3) * 64 ≤ (i 2).val ∧ (i 2).val < win1_3.index t (2 : Fin 3) * 64 + 64; rw [e2]; omega

/-! ## The output array after the stage -/

/-- THE OUTPUT ARRAY after the last point is the specification's attention of the query, key and value arrays as the stage
    found them. -/
theorem final1 (c : Dev nD) :
    (Hand.dat1 V c).arrAt 3 cfg1.N = Cert.Spec.attn (V c main_v11) (V c main_v14) (V c main_v17) :=
  (Hand.dat1 V c).arrAt_eq_of_cover 3 (Cert.Spec.attn (V c main_v11) (V c main_v14) (V c main_v17))
    (fun t _ => flushed1_eq V c t) (fun i => cover_out1 i)

end Cert.KernelIdeal.HandValue

end
-- ==== Proof.RefIn.lean ====
/-
  The reference's fused input layer, read at an index.

  Entry (β, n, o) of the fourth stage is the contraction of row (β, n) of x with row o of the weight (the weight is
  stored output-major, so the contraction runs along the second axis of both), plus the masked bias: the product
  u[o] · μ[o], formed once per column and repeated over batches and tokens by two broadcasts.
-/
import proofs.«116995_j6871947673702_2_alg».proof.Proof.Gen.ReferenceIdeal.Read
import proofs.«116995_j6871947673702_2_alg».proof.Proof.SpecRef

noncomputable section

open scoped BigOperators

namespace Cert.ReferenceIdeal.RefValue

open Idealize.ShloMosaic Idealize.ShloMosaic.ValueIdx Cert.ReferenceIdeal Cert.ReferenceIdeal.Read

/-- The left operand of the first contraction is read at (β, n, k). -/
theorem lidx_v1 (β : Fin 4) (n : Fin 2048) (o : Fin 3072) (k : Fin 1024) :
    lidx_main_v1 (ix3 β n o) k = ix3 β n k :=
  funext fun a => Fin.ext (by match a with | ⟨0, _⟩ => rfl | ⟨1, _⟩ => rfl | ⟨2, _⟩ => rfl)

/-- The right operand of the first contraction is read at (o, k). -/
theorem ridx_v1 (β : Fin 4) (n : Fin 2048) (o : Fin 3072) (k : Fin 1024) :
    ridx_main_v1 (ix3 β n o) k = ix2 o k :=
  funext fun a => Fin.ext (by match a with | ⟨0, _⟩ => rfl | ⟨1, _⟩ => rfl)

/-- The two broadcasts of the bias read column o. -/
theorem idx_v2_v3 (β : Fin 4) (n : Fin 2048) (o : Fin 3072) :
    idx_main_v2 (idx_main_v3 (ix3 β n o)) = ix1 o :=
  funext fun a => Fin.ext (by match a with | ⟨0, _⟩ => rfl)

/-- Stage four at (β, n, o) is the specification's input-layer entry. -/
theorem v4_at (x : FVec Ideal S4x2048x1024 .f32) (W : FVec Ideal S3072x1024 .f32) (u μ : FVec Ideal S3072 .f32)
    (β : Fin 4) (n : Fin 2048) (o : Fin 3072) :
    val_main_v4 (F := Ideal) x W u μ (ix3 β n o) = Cert.SpecRef.inAt x W u μ β n o := by
  rw [val_main_v4_apply, val_main_v1_apply, val_main_v3_apply, val_main_v2_apply, val_main_v0_apply]
  simp only [lidx_v1, ridx_v1, idx_v2_v3]
  rfl

end Cert.ReferenceIdeal.RefValue

end
-- ==== Proof.RefHeads.lean ====
/-
  Queries, keys and values of a head are columns of the fused input layer.

  The input layer's 3072 columns are cut as [3, 16, 64]: part σ (0 queries, 1 keys, 2 values), head h, width coordinate d,
  so that column 1024·σ + 64·h + d is (σ, h, d). The reference reshapes [4, 2048, 3072] to [4, 2048, 3, 16, 64], moves the
  part to the front and the head before the token (axes 2, 0, 3, 1, 4), cuts the leading axis into its three parts and drops
  the unit axis each cut leaves. Read backwards at (β, h, n, d), each of the three arrays is the input layer at
  (β, n, 1024·σ + 64·h + d).
-/
import proofs.«116995_j6871947673702_2_alg».proof.Proof.RefIn

noncomputable section

namespace Cert.ReferenceIdeal.RefValue

open Idealize.ShloMosaic Idealize.ShloMosaic.ValueIdx Cert.ReferenceIdeal Cert.ReferenceIdeal.Read

/-- The reshape [4, 2048, 3072] → [4, 2048, 3, 16, 64] reads (β, n, σ, h, d) at column 1024·σ + 64·h + d of row (β, n). -/
theorem idx_v5 (β : Fin 4) (n : Fin 2048) (σ : Fin 3) (h : Fin 16) (d : Fin 64) :
    idx_main_v5 (ix5 β n σ h d) = ix3 β n (Cert.SpecRef.col σ h d) :=
  funext fun a => Fin.ext (by
    have hβ := β.isLt; have hh := h.isLt; have hn := n.isLt; have hd := d.isLt; have hσ := σ.isLt
    match a with
    | ⟨0, _⟩ => show ((((β.val * 2048 + n.val) * 3 + σ.val) * 16 + h.val) * 64 + d.val) / 6291456 = β.val; omega
    | ⟨1, _⟩ => show ((((β.val * 2048 + n.val) * 3 + σ.val) * 16 + h.val) * 64 + d.val) / 3072 % 2048 = n.val; omega
    | ⟨2, _⟩ =>
      show ((((β.val * 2048 + n.val) * 3 + σ.val) * 16 + h.val) * 64 + d.val) % 3072 = σ.val * 1024 + h.val * 64 + d.val
      omega)

/-- The transpose by (2, 0, 3, 1, 4) reads (σ, β, h, n, d) at (β, n, σ, h, d). -/
theorem idx_v6 (σ : Fin 3) (β : Fin 4) (h : Fin 16) (n : Fin 2048) (d : Fin 64) :
    idx_main_v6 (ix5 σ β h n d) = ix5 β n σ h d :=
  funext fun a => Fin.ext (by
    match a with
    | ⟨0, _⟩ => rfl
    | ⟨1, _⟩ => rfl
    | ⟨2, _⟩ => rfl
    | ⟨3, _⟩ => rfl
    | ⟨4, _⟩ => rfl)

/-- The slice that keeps part 0 of the leading axis reads (0, β, h, n, d). -/
theorem idx_v7 (β : Fin 4) (h : Fin 16) (n : Fin 2048) (d : Fin 64) :
    idx_main_v7 (ix5 (0 : Fin 1) β h n d) = ix5 (0 : Fin 3) β h n d :=
  funext fun a => Fin.ext (by
    match a with
    | ⟨0, _⟩ => rfl
    | ⟨1, _⟩ => rfl
    | ⟨2, _⟩ => rfl
    | ⟨3, _⟩ => rfl
    | ⟨4, _⟩ => rfl)

/-- The slice that keeps part 1 of the leading axis reads (1, β, h, n, d). -/
theorem idx_v9 (β : Fin 4) (h : Fin 16) (n : Fin 2048) (d : Fin 64) :
    idx_main_v9 (ix5 (0 : Fin 1) β h n d) = ix5 (1 : Fin 3) β h n d :=
  funext fun a => Fin.ext (by
    match a with
    | ⟨0, _⟩ => rfl
    | ⟨1, _⟩ => rfl
    | ⟨2, _⟩ => rfl
    | ⟨3, _⟩ => rfl
    | ⟨4, _⟩ => rfl)

/-- The slice that keeps part 2 of the leading axis reads (2, β, h, n, d). -/
theorem idx_v11 (β : Fin 4) (h : Fin 16) (n : Fin 2048) (d : Fin 64) :
    idx_main_v11 (ix5 (0 : Fin 1) β h n d) = ix5 (2 : Fin 3) β h n d :=
  funext fun a => Fin.ext (by
    match a with
    | ⟨0, _⟩ => rfl
    | ⟨1, _⟩ => rfl
    | ⟨2, _⟩ => rfl
    | ⟨3, _⟩ => rfl
    | ⟨4, _⟩ => rfl)

/-- Dropping the leading unit axis: entry (β, h, n, d) is read at (0, β, h, n, d). -/
theorem idx_v8 (β : Fin 4) (h : Fin 16) (n : Fin 2048) (d : Fin 64) :
    idx_main_v8 (ix4 β h n d) = ix5 (0 : Fin 1) β h n d :=
  funext fun a => Fin.ext (by
    have hβ := β.isLt; have hh := h.isLt; have hn := n.isLt; have hd := d.isLt
    match a with
    | ⟨0, _⟩ => rfl
    | ⟨1, _⟩ => show (((β.val * 16 + h.val) * 2048 + n.val) * 64 + d.val) / 2097152 % 4 = β.val; omega
    | ⟨2, _⟩ => show (((β.val * 16 + h.val) * 2048 + n.val) * 64 + d.val) / 131072 % 16 = h.val; omega
    | ⟨3, _⟩ => show (((β.val * 16 + h.val) * 2048 + n.val) * 64 + d.val) / 64 % 2048 = n.val; omega
    | ⟨4, _⟩ => show (((β.val * 16 + h.val) * 2048 + n.val) * 64 + d.val) % 64 = d.val; omega)

/-- Dropping the leading unit axis: entry (β, h, n, d) is read at (0, β, h, n, d). -/
theorem idx_v10 (β : Fin 4) (h : Fin 16) (n : Fin 2048) (d : Fin 64) :
    idx_main_v10 (ix4 β h n d) = ix5 (0 : Fin 1) β h n d :=
  funext fun a => Fin.ext (by
    have hβ := β.isLt; have hh := h.isLt; have hn := n.isLt; have hd := d.isLt
    match a with
    | ⟨0, _⟩ => rfl
    | ⟨1, _⟩ => show (((β.val * 16 + h.val) * 2048 + n.val) * 64 + d.val) / 2097152 % 4 = β.val; omega
    | ⟨2, _⟩ => show (((β.val * 16 + h.val) * 2048 + n.val) * 64 + d.val) / 131072 % 16 = h.val; omega
    | ⟨3, _⟩ => show (((β.val * 16 + h.val) * 2048 + n.val) * 64 + d.val) / 64 % 2048 = n.val; omega
    | ⟨4, _⟩ => show (((β.val * 16 + h.val) * 2048 + n.val) * 64 + d.val) % 64 = d.val; omega)

/-- Dropping the leading unit axis: entry (β, h, n, d) is read at (0, β, h, n, d). -/
theorem idx_v12 (β : Fin 4) (h : Fin 16) (n : Fin 2048) (d : Fin 64) :
    idx_main_v12 (ix4 β h n d) = ix5 (0 : Fin 1) β h n d :=
  funext fun a => Fin.ext (by
    have hβ := β.isLt; have hh := h.isLt; have hn := n.isLt; have hd := d.isLt
    match a with
    | ⟨0, _⟩ => rfl
    | ⟨1, _⟩ => show (((β.val * 16 + h.val) * 2048 + n.val) * 64 + d.val) / 2097152 % 4 = β.val; omega
    | ⟨2, _⟩ => show (((β.val * 16 + h.val) * 2048 + n.val) * 64 + d.val) / 131072 % 16 = h.val; omega
    | ⟨3, _⟩ => show (((β.val * 16 + h.val) * 2048 + n.val) * 64 + d.val) / 64 % 2048 = n.val; omega
    | ⟨4, _⟩ => show (((β.val * 16 + h.val) * 2048 + n.val) * 64 + d.val) % 64 = d.val; omega)

/-- The queries of head h of batch β, at token n and width coordinate d, are column (0, h, d) of the input layer. -/
theorem v8_at (x : FVec Ideal S4x2048x1024 .f32) (W : FVec Ideal S3072x1024 .f32) (u μ : FVec Ideal S3072 .f32)
    (β : Fin 4) (h : Fin 16) (n : Fin 2048) (d : Fin 64) :
    val_main_v8 (F := Ideal) x W u μ (ix4 β h n d) = Cert.SpecRef.inAt x W u μ β n (Cert.SpecRef.col 0 h d) := by
  rw [val_main_v8_apply, val_main_v7_apply, val_main_v6_apply, val_main_v5_apply]
  simp only [idx_v8, idx_v7, idx_v6, idx_v5]
  exact v4_at x W u μ β n (Cert.SpecRef.col 0 h d)

/-- The keys of head h of batch β, at token n and width coordinate d, are column (1, h, d) of the input layer. -/
theorem v10_at (x : FVec Ideal S4x2048x1024 .f32) (W : FVec Ideal S3072x1024 .f32) (u μ : FVec Ideal S3072 .f32)
    (β : Fin 4) (h : Fin 16) (n : Fin 2048) (d : Fin 64) :
    val_main_v10 (F := Ideal) x W u μ (ix4 β h n d) = Cert.SpecRef.inAt x W u μ β n (Cert.SpecRef.col 1 h d) := by
  rw [val_main_v10_apply, val_main_v9_apply, val_main_v6_apply, val_main_v5_apply]
  simp only [idx_v10, idx_v9, idx_v6, idx_v5]
  exact v4_at x W u μ β n (Cert.SpecRef.col 1 h d)

/-- The values of head h of batch β, at token n and width coordinate d, are column (2, h, d) of the input layer. -/
theorem v12_at (x : FVec Ideal S4x2048x1024 .f32) (W : FVec Ideal S3072x1024 .f32) (u μ : FVec Ideal S3072 .f32)
    (β : Fin 4) (h : Fin 16) (n : Fin 2048) (d : Fin 64) :
    val_main_v12 (F := Ideal) x W u μ (ix4 β h n d) = Cert.SpecRef.inAt x W u μ β n (Cert.SpecRef.col 2 h d) := by
  rw [val_main_v12_apply, val_main_v11_apply, val_main_v6_apply, val_main_v5_apply]
  simp only [idx_v12, idx_v11, idx_v6, idx_v5]
  exact v4_at x W u μ β n (Cert.SpecRef.col 2 h d)

end Cert.ReferenceIdeal.RefValue

end
-- ==== Proof.LibHostMax4.lean ====
/-
  A host reduction with a maximum body, started from the bottom element, over the LAST axis of a rank-4 array [a, b, c, w],
  read at an index over the extended reals: at (p, q, r) it is the supremum of the `w` entries (p, q, r, ·). The reduction is a
  fold of `max` over the reduced axis's coordinates in some order, and a fold of `max` from the bottom element over a finite
  family is the family's supremum whatever the order. (The rank-2 and rank-3 forms are in the companion module.)
-/
import Idealize.ShloMosaic.Lib.ValueIdx
import Idealize.ShloMosaic.Lib.Pipeline.Value
import Idealize.ShloMosaic.PureOps.Ideal.Laws

noncomputable section

namespace HostMax4

open Idealize.ShloMosaic Idealize.ShloMosaic.ValueIdx

/-- Position (p, q, r) of an [a, b, c, w] array with coordinate `k` put back on the reduced (last) axis is (p, q, r, k). -/
theorem lift_last {a b c w : ℕ} (h : (⟨4, ![a, b, c, w]⟩ : Shape).Reduces [3] (⟨3, ![a, b, c]⟩ : Shape))
    (p : Fin a) (q : Fin b) (r : Fin c) (k : Fin ((⟨4, ![a, b, c, w]⟩ : Shape).size 3)) :
    h.lift (ix3 p q r) k = ix4 p q r (⟨k.val, k.isLt⟩ : Fin w) := by
  funext d; apply Fin.ext
  fin_cases d <;> rfl

/-- From −∞ the host's maximum over the last axis of an [a, b, c, w] array, at (p, q, r), is the supremum of that row. -/
theorem reduce_last {a b c w : ℕ} (v : FVec Ideal ⟨4, ![a, b, c, w]⟩ .f32) (init : (⟨0, ![]⟩ : Shape).Idx → Ideal .f32)
    (hinit : ∀ i, init i = (⊥ : EReal))
    (h' : (⟨4, ![a, b, c, w]⟩ : Shape).ReducesTo [3] (⟨3, ![a, b, c]⟩ : Shape))
    (h : (⟨4, ![a, b, c, w]⟩ : Shape).Reduces [3] (⟨3, ![a, b, c]⟩ : Shape))
    (hu : 0 < (⟨0, ![]⟩ : Shape).numel) (p : Fin a) (q : Fin b) (r : Fin c) :
    Host.reduce FloatOps.maximumf v init h' hu (ix3 p q r) = (Finset.univ : Finset (Fin w)).sup fun k => v (ix4 p q r k) := by
  rw [Host.reduce_eq_fold_single FloatOps.maximumf v init h' h hu, hinit]
  have hf : (v ∘ h.lift (ix3 p q r)) = fun k : Fin w => v (ix4 p q r k) :=
    funext fun k => congrArg v (lift_last h p q r k)
  exact congrArg (fun f => Finset.fold max (⊥ : EReal) f (Finset.univ : Finset (Fin w))) hf

end HostMax4

end
-- ==== Proof.RefSoftmax.lean ====
/-
  The softmax of one head and the head's output, read at an index.

  For batch β, head h and query n: the score against key k is the contraction of the query's 64 coordinates with the key's,
  times the scale word; the row maximum is a fold of max over the 2048 keys started from the word of −∞, which denotes the
  bottom element, so the fold is the supremum of the row, and a further max with −∞ changes nothing; each score has the
  maximum subtracted and is exponentiated; the normaliser is the sum of the row's exponentials started from the zero word;
  each exponential is divided by the normaliser; and the head's output at width coordinate d is the contraction of these
  quotients with the values' column d over the keys.
-/
import proofs.«116995_j6871947673702_2_alg».proof.Proof.RefHeads
import proofs.«116995_j6871947673702_2_alg».proof.Proof.LibHostMax
import proofs.«116995_j6871947673702_2_alg».proof.Proof.LibHostMax4

noncomputable section

open scoped BigOperators

namespace Cert.ReferenceIdeal.RefValue

open Idealize.ShloMosaic Idealize.ShloMosaic.ValueIdx Cert.ReferenceIdeal Cert.ReferenceIdeal.Read

/-! ## The scores -/

/-- The score's left operand is the query n at coordinate e. -/
theorem lidx_v13 (β : Fin 4) (h : Fin 16) (n k : Fin 2048) (e : Fin 64) :
    lidx_main_v13 (ix4 β h n k) e = ix4 β h n e :=
  funext fun a => Fin.ext (by match a with | ⟨0, _⟩ => rfl | ⟨1, _⟩ => rfl | ⟨2, _⟩ => rfl | ⟨3, _⟩ => rfl)

/-- The score's right operand is the key k at coordinate e. -/
theorem ridx_v13 (β : Fin 4) (h : Fin 16) (n k : Fin 2048) (e : Fin 64) :
    ridx_main_v13 (ix4 β h n k) e = ix4 β h k e :=
  funext fun a => Fin.ext (by match a with | ⟨0, _⟩ => rfl | ⟨1, _⟩ => rfl | ⟨2, _⟩ => rfl | ⟨3, _⟩ => rfl)

/-- Stage fifteen at (β, h, n, k) is the scaled score of query n against key k. -/
theorem v15_at (x : FVec Ideal S4x2048x1024 .f32) (W : FVec Ideal S3072x1024 .f32) (u μ : FVec Ideal S3072 .f32)
    (β : Fin 4) (h : Fin 16) (n k : Fin 2048) :
    val_main_v15 (F := Ideal) x W u μ (ix4 β h n k) = Cert.SpecRef.score x W u μ β h n k := by
  rw [val_main_v15_apply, val_main_v13_apply, val_main_v14_apply, val_main_cst_apply]
  simp only [lidx_v13, ridx_v13, v8_at, v10_at]
  rfl

/-! ## The row maximum -/

/-- Stage sixteen at (β, h, n) is the supremum of the query's scores. -/
theorem v16_at (x : FVec Ideal S4x2048x1024 .f32) (W : FVec Ideal S3072x1024 .f32) (u μ : FVec Ideal S3072 .f32)
    (β : Fin 4) (h : Fin 16) (n : Fin 2048) :
    val_main_v16 (F := Ideal) x W u μ (ix3 β h n) = Cert.SpecRef.rowMax x W u μ β h n := by
  unfold val_main_v16
  refine (HostMax4.reduce_last (val_main_v15 (F := Ideal) x W u μ) (val_main_cst_0 (F := Ideal))
    (fun _ => HostMax.ofBits_neg_inf) _ (by decide) _ β h n).trans ?_
  exact Finset.sup_congr rfl fun k _ => v15_at x W u μ β h n k

/-- The further maximum with −∞ leaves the row maximum as it is. -/
theorem v18_at (x : FVec Ideal S4x2048x1024 .f32) (W : FVec Ideal S3072x1024 .f32) (u μ : FVec Ideal S3072 .f32)
    (β : Fin 4) (h : Fin 16) (n : Fin 2048) :
    val_main_v18 (F := Ideal) x W u μ (ix3 β h n) = Cert.SpecRef.rowMax x W u μ β h n := by
  rw [val_main_v18_apply, val_main_v17_apply, val_main_cst_1_apply, v16_at]
  show max (Ideal.ofBits .f32 0xFF800000#32) _ = _
  rw [HostMax.ofBits_neg_inf]
  exact max_bot_left _

/-! ## The exponentials, their sum, the quotients -/

/-- The two broadcasts of a per-query quantity along the keys read it at (β, h, n). -/
theorem idx_v19_v20 (β : Fin 4) (h : Fin 16) (n k : Fin 2048) :
    idx_main_v19 (idx_main_v20 (ix4 β h n k)) = ix3 β h n :=
  funext fun a => Fin.ext (by match a with | ⟨0, _⟩ => rfl | ⟨1, _⟩ => rfl | ⟨2, _⟩ => rfl)

theorem idx_v24_v25 (β : Fin 4) (h : Fin 16) (n k : Fin 2048) :
    idx_main_v24 (idx_main_v25 (ix4 β h n k)) = ix3 β h n :=
  funext fun a => Fin.ext (by match a with | ⟨0, _⟩ => rfl | ⟨1, _⟩ => rfl | ⟨2, _⟩ => rfl)

/-- The row sum reads the query's row at key k. -/
theorem idx_v23 (β : Fin 4) (h : Fin 16) (n k : Fin 2048) :
    idx_main_v23 (ix3 β h n) k = ix4 β h n k :=
  funext fun a => Fin.ext (by match a with | ⟨0, _⟩ => rfl | ⟨1, _⟩ => rfl | ⟨2, _⟩ => rfl | ⟨3, _⟩ => rfl)

/-- Stage twenty-two at (β, h, n, k) is the exponential of the score's distance below the row maximum. -/
theorem v22_at (x : FVec Ideal S4x2048x1024 .f32) (W : FVec Ideal S3072x1024 .f32) (u μ : FVec Ideal S3072 .f32)
    (β : Fin 4) (h : Fin 16) (n k : Fin 2048) :
    val_main_v22 (F := Ideal) x W u μ (ix4 β h n k) = Cert.SpecRef.expo x W u μ β h n k := by
  rw [val_main_v22_apply, val_main_v21_apply, val_main_v20_apply, val_main_v19_apply]
  simp only [idx_v19_v20, v15_at, v18_at]
  rfl

/-- Stage twenty-three at (β, h, n) is the sum of the query's exponentials. -/
theorem v23_at (x : FVec Ideal S4x2048x1024 .f32) (W : FVec Ideal S3072x1024 .f32) (u μ : FVec Ideal S3072 .f32)
    (β : Fin 4) (h : Fin 16) (n : Fin 2048) :
    val_main_v23 (F := Ideal) x W u μ (ix3 β h n) = Cert.SpecRef.rowSum x W u μ β h n := by
  rw [val_main_v23_apply]
  simp only [idx_v23, v22_at]
  show Ideal.ofBits .f32 0x00000000#32 + _ = _
  rw [Ideal.ofBits_zero_f32, zero_add]
  rfl

/-- Stage twenty-six at (β, h, n, k) is the exponential over the normaliser. -/
theorem v26_at (x : FVec Ideal S4x2048x1024 .f32) (W : FVec Ideal S3072x1024 .f32) (u μ : FVec Ideal S3072 .f32)
    (β : Fin 4) (h : Fin 16) (n k : Fin 2048) :
    val_main_v26 (F := Ideal) x W u μ (ix4 β h n k)
      = Ideal.div (Cert.SpecRef.expo x W u μ β h n k) (Cert.SpecRef.rowSum x W u μ β h n) := by
  rw [val_main_v26_apply, val_main_v25_apply, val_main_v24_apply]
  simp only [idx_v24_v25, v22_at, v23_at]
  rfl

/-! ## The head's output -/

/-- The output's left operand is the quotient at key k. -/
theorem lidx_v27 (β : Fin 4) (h : Fin 16) (n : Fin 2048) (d : Fin 64) (k : Fin 2048) :
    lidx_main_v27 (ix4 β h n d) k = ix4 β h n k :=
  funext fun a => Fin.ext (by match a with | ⟨0, _⟩ => rfl | ⟨1, _⟩ => rfl | ⟨2, _⟩ => rfl | ⟨3, _⟩ => rfl)

/-- The output's right operand is the value of key k at coordinate d. -/
theorem ridx_v27 (β : Fin 4) (h : Fin 16) (n : Fin 2048) (d : Fin 64) (k : Fin 2048) :
    ridx_main_v27 (ix4 β h n d) k = ix4 β h k d :=
  funext fun a => Fin.ext (by match a with | ⟨0, _⟩ => rfl | ⟨1, _⟩ => rfl | ⟨2, _⟩ => rfl | ⟨3, _⟩ => rfl)

/-- Stage twenty-seven at (β, h, n, d) is the head's output entry. -/
theorem v27_at (x : FVec Ideal S4x2048x1024 .f32) (W : FVec Ideal S3072x1024 .f32) (u μ : FVec Ideal S3072 .f32)
    (β : Fin 4) (h : Fin 16) (n : Fin 2048) (d : Fin 64) :
    val_main_v27 (F := Ideal) x W u μ (ix4 β h n d) = Cert.SpecRef.headAt x W u μ β h n d := by
  rw [val_main_v27_apply]
  simp only [lidx_v27, ridx_v27, v26_at, v12_at]
  rfl

end Cert.ReferenceIdeal.RefValue

end
-- ==== Proof.RefRead.lean ====
/-
  The reference's result, read one operation at a time, is the function Cert.SpecRef.out of the six argument arrays.

  After the heads' outputs: the transpose puts the token before the head and the reshape lays the sixteen heads side by
  side, so that column c of row (β, n) is head c / 64 at width coordinate c mod 64. The last contraction runs this row
  against row j of the second weight (stored output-major), and the bias entry j, repeated over batches and tokens by
  two broadcasts, is added. Every earlier stage is read in the modules this one imports.
-/
import proofs.«116995_j6871947673702_2_alg».proof.Proof.Gen.ReferenceIdeal.Run
import proofs.«116995_j6871947673702_2_alg».proof.Proof.Gen.ReferenceIdeal.Read
import proofs.«116995_j6871947673702_2_alg».proof.Proof.SpecRef
import proofs.«116995_j6871947673702_2_alg».proof.Proof.RefSoftmax

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Read

/-! ## The heads side by side -/

/-- The transpose by (0, 2, 1, 3) reads (β, n, h, d) at (β, h, n, d). -/
theorem idx_v28 (β : Fin 4) (n : Fin 2048) (h : Fin 16) (d : Fin 64) :
    idx_main_v28 (ix4 β n h d) = ix4 β h n d :=
  funext fun a => Fin.ext (by match a with | ⟨0, _⟩ => rfl | ⟨1, _⟩ => rfl | ⟨2, _⟩ => rfl | ⟨3, _⟩ => rfl)

/-- The reshape [4, 2048, 16, 64] → [4, 2048, 1024] reads column c at head c / 64, width coordinate c mod 64. -/
theorem idx_v29 (β : Fin 4) (n : Fin 2048) (c : Fin 1024) :
    idx_main_v29 (ix3 β n c) = ix4 β n (Cert.SpecRef.headOfCol c) (Cert.SpecRef.widthOfCol c) :=
  funext fun a => Fin.ext (by
    have hβ := β.isLt; have hn := n.isLt; have hc := c.isLt
    match a with
    | ⟨0, _⟩ => show ((β.val * 2048 + n.val) * 1024 + c.val) / 2097152 = β.val; omega
    | ⟨1, _⟩ => show ((β.val * 2048 + n.val) * 1024 + c.val) / 1024 % 2048 = n.val; omega
    | ⟨2, _⟩ => show ((β.val * 2048 + n.val) * 1024 + c.val) / 64 % 16 = c.val / 64; omega
    | ⟨3, _⟩ => show ((β.val * 2048 + n.val) * 1024 + c.val) % 64 = c.val % 64; omega)

/-- Stage twenty-nine at (β, n, c) is the output of head c / 64 at token n and width coordinate c mod 64. -/
theorem v29_at (x : FVec Ideal S4x2048x1024 .f32) (W : FVec Ideal S3072x1024 .f32) (u μ : FVec Ideal S3072 .f32)
    (β : Fin 4) (n : Fin 2048) (c : Fin 1024) :
    val_main_v29 (F := Ideal) x W u μ (ix3 β n c)
      = Cert.SpecRef.headAt x W u μ β (Cert.SpecRef.headOfCol c) n (Cert.SpecRef.widthOfCol c) := by
  rw [val_main_v29_apply, val_main_v28_apply]
  simp only [idx_v29, idx_v28]
  exact v27_at x W u μ β (Cert.SpecRef.headOfCol c) n (Cert.SpecRef.widthOfCol c)

/-! ## The projection and its bias -/

/-- The projection's left operand is the merged row at column c. -/
theorem lidx_v30 (β : Fin 4) (n : Fin 2048) (j c : Fin 1024) :
    lidx_main_v30 (ix3 β n j) c = ix3 β n c :=
  funext fun a => Fin.ext (by match a with | ⟨0, _⟩ => rfl | ⟨1, _⟩ => rfl | ⟨2, _⟩ => rfl)

/-- The projection's right operand is row j of the weight at column c. -/
theorem ridx_v30 (β : Fin 4) (n : Fin 2048) (j c : Fin 1024) :
    ridx_main_v30 (ix3 β n j) c = ix2 j c :=
  funext fun a => Fin.ext (by match a with | ⟨0, _⟩ => rfl | ⟨1, _⟩ => rfl)

/-- The two broadcasts of the bias read entry j. -/
theorem idx_v31_v32 (β : Fin 4) (n : Fin 2048) (j : Fin 1024) :
    idx_main_v31 (idx_main_v32 (ix3 β n j)) = ix1 j :=
  funext fun a => Fin.ext (by match a with | ⟨0, _⟩ => rfl)

/-- The last stage at (β, n, j) is the specification's result entry. -/
theorem v33_at (x : FVec Ideal S4x2048x1024 .f32) (W : FVec Ideal S3072x1024 .f32) (u μ : FVec Ideal S3072 .f32)
    (R : FVec Ideal S1024x1024 .f32) (t : FVec Ideal S1024 .f32)
    (β : Fin 4) (n : Fin 2048) (j : Fin 1024) :
    val_main_v33 (F := Ideal) x W u μ R t (ix3 β n j) = Cert.SpecRef.outAt x W u μ R t β n j := by
  rw [val_main_v33_apply, val_main_v30_apply, val_main_v32_apply, val_main_v31_apply]
  simp only [lidx_v30, ridx_v30, idx_v31_v32, v29_at]
  rfl

/-! ## The whole result -/

/-- The last stage of the reference, as a function of the six arrays, is the specification's result. -/
theorem ref_out (x : FVec Ideal S4x2048x1024 .f32) (W : FVec Ideal S3072x1024 .f32) (u μ : FVec Ideal S3072 .f32)
    (R : FVec Ideal S1024x1024 .f32) (t : FVec Ideal S1024 .f32) :
    Cert.ReferenceIdeal.Read.val_main_v33 (F := Ideal) x W u μ R t = Cert.SpecRef.out x W u μ R t := by
  funext i
  obtain ⟨β, n, j, rfl⟩ : ∃ (β : Fin 4) (n : Fin 2048) (j : Fin 1024), i = ix3 β n j := ⟨i 0, i 1, i 2, eq_ix3 i⟩
  exact v33_at x W u μ R t β n j

/-- The term the reference's run leaves in its result buffer is the specification's result of the launch contents. -/
theorem res_out (m : (ℓ : Loc nD τ sig) → Buf (Elt Ideal) ℓ) (c : Dev nD) :
    Cert.ReferenceIdeal.Value.res_main_v33 (F := Ideal) m c
      = Cert.SpecRef.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (Cert.ReferenceIdeal.Read.val_main_v33_eq m c).trans (ref_out _ _ _ _ _ _)

end Cert.ReferenceIdeal.RefValue

end
-- ==== Proof.Finite.lean ====
/-
  Finiteness of the six argument arrays.

  The precondition says, of every entry x of every argument, that |x| lies strictly below the single-precision word of
  +∞, all these comparisons joined by "and". On the extended reals |x| is max x (−x) and that word denotes ⊤. For x = ⊤
  and for x = ⊥ the maximum is ⊤, which is not below ⊤; so each entry is neither of them: it is a real number.
-/
import proofs.«116995_j6871947673702_2_alg».proof.Pre_finite_inputs
import Idealize.ShloMosaic.PureOps.Ideal
import Idealize.ShloMosaic.Lib.ValueIdx
import Idealize.ShloMosaic.Lib.ReduceAll

noncomputable section

namespace Cert.Finite

open Idealize.ShloMosaic

/-- Every entry of the array is a real number. -/
def AllReal {S : Shape} (a : S.Idx → EReal) : Prop := ∀ i, ∃ r : ℝ, a i = (r : EReal)

/-- The shape without axes has one index. -/
instance : Subsingleton Cert.Pre_finite_inputs.S_.Idx := ⟨fun a b => funext fun d => d.elim0⟩

/-- An extended real whose absolute value is strictly below the word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One argument: if "every |entry| is below +∞" reduces to one, every entry is a real. -/
theorem allReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim S ![] hb (constant (F := Ideal) Cert.Pre_finite_inputs.S_ .f32 0x7F800000#32)))
          (constantI Cert.Pre_finite_inputs.S_ 1 1#1) hr hu j = 1#1) : AllReal a :=
  fun i => real_of_abs_lt_inf (a i) (Host.reduce_andi_all _ _ hr hu j e i)

open Cert.Pre_finite_inputs in
/-- The precondition, decoded: all six arguments consist of reals. -/
theorem reals_of_pre [Cert.Pre_finite_inputs.Facts]
    (a0 : FVec Ideal S4x2048x1024 .f32) (a1 : FVec Ideal S3072x1024 .f32) (a2 a3 : FVec Ideal S3072 .f32)
    (a4 : FVec Ideal S1024x1024 .f32) (a5 : FVec Ideal S1024 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  have e := congrFun h ValueIdx.ix0
  dsimp only [Cert.Pre_finite_inputs.fn, Cert.Pre_finite_inputs.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5⟩

end Cert.Finite

end
-- ==== Proof.Algebraic.lean ====
/-
  The two idealized programs, run from memories that agree on the six arguments, end with equal results.

  The kernel side ends with its result array at the composite of the three stages (the run of the whole program read at its
  last boundary, then the stages' value legs and the host glue), which for real inputs is the reference's arithmetic entry
  by entry; the precondition says exactly that every input entry is real. The reference side ends with its result at the
  same arithmetic of its own arguments, which are the kernel's.
-/
import proofs.«116995_j6871947673702_2_alg».proof.Defs
import proofs.«116995_j6871947673702_2_alg».proof.Proof.Gen.Kernel
import proofs.«116995_j6871947673702_2_alg».proof.Proof.Gen.KernelIdeal
import proofs.«116995_j6871947673702_2_alg».proof.Proof.Gen.ReferenceIdeal
import proofs.«116995_j6871947673702_2_alg».proof.Proof.Gen.Pre_finite_inputs
import proofs.«116995_j6871947673702_2_alg».proof.Proof.I.KernelValue
import proofs.«116995_j6871947673702_2_alg».proof.Proof.I.Value1
import proofs.«116995_j6871947673702_2_alg».proof.Proof.RefRead
import proofs.«116995_j6871947673702_2_alg».proof.Proof.Finite

noncomputable section

namespace Cert.Proof.Alg

open Idealize.ShloMosaic Idealize.ShloMosaic.TcCoe Idealize.SL.Sem
open Cert.KernelIdeal Cert.KernelIdeal.Gen

/-- Equal results, given the projection region's output as a function of the arrays it is entered with. -/
theorem algebraic_of
    (hf2 : ∀ (V : (c : Dev nD) → (b : Ref sig .tc) → Buf (Elt Ideal) ((c : Thread nD τ).loc b)) (c : Dev nD),
      (Hand.dat2 V c).arrAt 3 cfg2.N = Cert.Spec.proj (V c main_v18) (V c main_v20) (V c main_v21)) :
    Cert.algebraic_KernelIdeal_ReferenceIdeal := by
  intro m ρ m' ρ' hpre hagree
  have hre := fun c : Dev nD => Cert.Finite.reals_of_pre _ _ _ _ _ _ (hpre c)
  refine ⟨fun c => Cert.SpecRef.out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)), ?_, ?_⟩
  · refine (θ_run Cert.KernelIdeal.defs _ _).mono (fun r h c => ?_) (Hand.run_all m ρ)
    refine ⟨?_, ?_, ?_, ?_, ?_, ?_, ?_⟩
    · exact (h c _ (Hand.mem_uc main_v23 (by decide))).trans
        (HandValue.kernel_value_of m ρ HandValue.final1 hf2 c (hre c).1 (hre c).2.1 (hre c).2.2.1 (hre c).2.2.2.1)
    · exact (h c _ (Hand.mem_uc main_arg0 (by decide))).trans
        (Hand.W7_arg m ρ c main_arg0 (by decide) (by decide) (by decide) (by decide) (by decide) (by decide) (by decide))
    · exact (h c _ (Hand.mem_uc main_arg1 (by decide))).trans
        (Hand.W7_arg m ρ c main_arg1 (by decide) (by decide) (by decide) (by decide) (by decide) (by decide) (by decide))
    · exact (h c _ (Hand.mem_uc main_arg2 (by decide))).trans
        (Hand.W7_arg m ρ c main_arg2 (by decide) (by decide) (by decide) (by decide) (by decide) (by decide) (by decide))
    · exact (h c _ (Hand.mem_uc main_arg3 (by decide))).trans
        (Hand.W7_arg m ρ c main_arg3 (by decide) (by decide) (by decide) (by decide) (by decide) (by decide) (by decide))
    · exact (h c _ (Hand.mem_uc main_arg4 (by decide))).trans
        (Hand.W7_arg m ρ c main_arg4 (by decide) (by decide) (by decide) (by decide) (by decide) (by decide) (by decide))
    · exact (h c _ (Hand.mem_uc main_arg5 (by decide))).trans
        (Hand.W7_arg m ρ c main_arg5 (by decide) (by decide) (by decide) (by decide) (by decide) (by decide) (by decide))
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_out m' c, (hagree c).1, (hagree c).2.1, (hagree c).2.2.1, (hagree c).2.2.2.1,
      (hagree c).2.2.2.2.1, (hagree c).2.2.2.2.2]

end Cert.Proof.Alg

end
-- ==== Proof.I.Value2Pieces.lean ====
/-
  The third call's accumulator and output block as recurrences over the body's arithmetic.

  Each control case stores whole buffers through the whole-buffer rectangle at zero offsets, so what a case leaves is
  the payload of its last store, and a load after a store reads that store's payload. Hence:
  at the first step of a row block the accumulator is the sum payload (head block times weight rows, added to its
  third argument) applied to the zero payload; at every other step it is the sum payload applied to the accumulator
  of the point before; and at the last step of a row block the output block is the bias payload of that point's
  accumulator and the bias block.
-/
import proofs.«116995_j6871947673702_2_alg».proof.Proof.I.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What each case leaves, as a payload of the inputs -/

/-- First step: the zero payload is stored, read back, and the head's product added to it. -/
theorem sout2_A_eq (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S64x1024 .bf16) (x2 : Vec F S1x1024 .f32) :
    sout2_A c i arg2 harg2 arg3 harg3 arg4 harg4 arg5 harg5 arg6 harg6 hc0 hc1 x0 x1 x2 = k2_pay2 x0 x1 (k2_pay1 (F := F)) := by
  unfold sout2_A
  rw [View.read_writes_eq_canon _ _ _ (scover2_A c i arg2 harg2 arg3 harg3 arg4 harg4 arg5 harg5 arg6 harg6 hc0 hc1 x0 x1 x2)]
  unfold kernelRun2_A
  dsimp only
  try sl_unfold_words
  rw [View.canon_cons_unit_zero (S := S512x1024) zeros2, View.readCov_unit_zero (S := S512x1024) _ zeros2]
  simp only [View.readAt_eq_ld, harg2.read_unread, harg3.read_unread, View.ld_unit_zero (S := S1x512x64) zeros3, View.ld_unit_zero (S := S64x1024) zeros2]

/-- Middle step: the head's product is added to what the accumulator held. -/
theorem sout2_B_eq (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S64x1024 .bf16) (x2 : Vec F S1x1024 .f32) (xs0 : Vec F S512x1024 .f32) :
    sout2_B c i arg2 harg2 arg3 harg3 arg4 harg4 arg5 harg5 arg6 harg6 hc0 hc1 x0 x1 x2 xs0 = k2_pay2 x0 x1 xs0 := by
  unfold sout2_B
  rw [View.read_writes_eq_canon _ _ _ (scover2_B c i arg2 harg2 arg3 harg3 arg4 harg4 arg5 harg5 arg6 harg6 hc0 hc1 x0 x1 x2 xs0)]
  unfold kernelRun2_B
  dsimp only
  try sl_unfold_words
  rw [View.canon_unit_zero (S := S512x1024) zeros2]
  simp only [View.readAt_eq_ld, harg2.read_unread, harg3.read_unread, View.ld_unit_zero (S := S1x512x64) zeros3, View.ld_unit_zero (S := S64x1024) zeros2, harg6.read_unread, View.ld_unit_zero (S := S512x1024) zeros2]

/-- Last step, the accumulator: as at a middle step. -/
theorem sout2_C_eq (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) :
    sout2_C c i arg2 harg2 arg3 harg3 arg4 harg4 arg5 harg5 arg6 harg6 hc0 hc1 x0 x1 x2 xs0 = k2_pay2 x0 x1 xs0 := by
  unfold sout2_C
  rw [View.read_writes_eq_canon _ _ _ (scover2_C c i arg2 harg2 arg3 harg3 arg4 harg4 arg5 harg5 arg6 harg6 hc0 hc1 x0 x1 x2 xs0)]
  unfold kernelRun2_C
  dsimp only
  try sl_unfold_words
  rw [View.canon_unit_zero (S := S512x1024) zeros2]
  simp only [View.readAt_eq_ld, harg2.read_unread, harg3.read_unread, View.ld_unit_zero (S := S1x512x64) zeros3, View.ld_unit_zero (S := S64x1024) zeros2, harg6.read_unread, View.ld_unit_zero (S := S512x1024) zeros2]

/-- Last step, the output block: the bias payload of the updated accumulator and the bias block. -/
theorem out2_C_3_eq (c : Dev nD) (i : grid2.Coords) (arg2 : Memref sig .tc .vmem S1x512x64 .bf16) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S64x1024 .bf16) (x2 : Vec F S1x1024 .f32) (xs0 : Vec F S512x1024 .f32) :
    out2_C_3 c i arg2 harg2 arg3 harg3 arg4 harg4 arg5 harg5 arg6 harg6 hc0 hc1 x0 x1 x2 xs0 = k2_pay3 (k2_pay2 x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  try sl_unfold_words
  rw [View.canon_unit_zero (S := S512x1024) zeros2, View.readCov_unit_zero (S := S512x1024) _ zeros2]
  simp only [View.readAt_eq_ld, harg2.read_unread, harg3.read_unread, View.ld_unit_zero (S := S1x512x64) zeros3, View.ld_unit_zero (S := S64x1024) zeros2, harg4.read_unread, harg6.read_unread, View.ld_unit_zero (S := S512x1024) zeros2, View.ld_unit_zero (S := S1x1024) zeros2]

section Region
variable (V : (c : Dev nD) → (b : Ref sig .tc) → Buf (Elt F) ((c : Thread nD τ).loc b))

/-! ## The recurrences -/

/-- The first point of a row block starts from the zero payload. -/
theorem accAt2_first (c : Dev nD) (n : ℕ) (hn : n < cfg2.N) (h0 : n % 16 = 0) :
    accAt2 V c n hn = k2_pay2 (iblk2 V c 0 ⟨n, hn⟩ : Vec F S1x512x64 .bf16) (iblk2 V c 1 ⟨n, hn⟩ : Vec F S64x1024 .bf16) (k2_pay1 (F := F)) :=
  (accAt2_A V c ⟨n, hn⟩ h0 (fun h15 : n % 16 = 15 => by omega)).trans (sout2_A_eq ..)

/-- Every other point adds to the accumulator of the point before. -/
theorem accAt2_next (c : Dev nD) (n : ℕ) (hn : n + 1 < cfg2.N) (h0 : (n + 1) % 16 ≠ 0) :
    accAt2 V c (n + 1) hn = k2_pay2 (iblk2 V c 0 ⟨n + 1, hn⟩ : Vec F S1x512x64 .bf16) (iblk2 V c 1 ⟨n + 1, hn⟩ : Vec F S64x1024 .bf16) (accAt2 V c n (Nat.lt_of_succ_lt hn)) := by
  by_cases h1 : (n + 1) % 16 = 15
  · exact (accAt2_C V c ⟨n + 1, hn⟩ h0 h1).trans (sout2_C_eq ..)
  · exact (accAt2_B V c ⟨n + 1, hn⟩ h0 h1).trans (sout2_B_eq ..)

/-- At the last step of a row block the output block is the bias payload of that point's accumulator and the bias block. -/
theorem out2_3_last (c : Dev nD) (t : Fin cfg2.N) (h15 : t.val % 16 = 15) :
    out2_3 V c t = k2_pay3 (accAt2 V c t.val t.isLt) (iblk2 V c 2 t : Vec F S1x1024 .f32) := by
  have h0 : ¬t.val % 16 = 0 := by omega
  rw [out2_3_C V c t h0 h15, out2_C_3_eq, accAt2_C V c t h0 h15, sout2_C_eq]

end Region

end Cert.KernelIdeal.Hand

end
-- ==== Proof.I.Value2Pay.lean ====
/-
  The three values the projection stage's body stores, each read at one entry, on the extended reals.

  The body keeps a 512 x 1024 accumulator across the sixteen heads of an output block.  At the first head it stores zeros
  into the accumulator.  At every head it adds to the accumulator the product of the head's 512 x 64 block a of the attention
  output (its leading unit axis dropped) with the head's 64 rows w of the projection's weight: entry (r, j) becomes
      acc[r, j] + Σ_e a[r, e] · w[e, j].
  At the last head it stores into the output block the accumulator plus the bias row spread over the 512 rows:
      acc[r, j] + b[0, j].
  A change of shape between equal shapes is the identity, and the product accumulates into the zero array, so it is the
  plain sum.
-/
import proofs.«116995_j6871947673702_2_alg».proof.Proof.Gen.KernelIdeal.Skeleton
import proofs.«116995_j6871947673702_2_alg».proof.Proof.LibDotCols
import Idealize.ShloMosaic.Lib.ValueLayout
import Idealize.ShloMosaic.Lib.ValueIdx
import Idealize.ShloMosaic.PureOps.Ideal.Laws

noncomputable section

open scoped BigOperators

namespace Cert.KernelIdeal.HandValue

open Cert.KernelIdeal Cert.KernelIdeal.Gen
open Idealize.ShloMosaic Idealize.ShloMosaic.ValueIdx

/-! ## The zeros stored at the first head -/

/-- The first stored value is the zero word spread over the accumulator's shape. -/
theorem pay2_1_eq :
    k2_pay1 (F := Ideal)
      = shapeCast S512x1024 (broadcast S512x1024 (Scalar.ofBits (F := Ideal) .f32 0x00000000#32)) shapeCasts_S512x1024_S512x1024 := rfl

/-- Every entry of it is zero. -/
theorem pay2_1_apply (r : Fin 512) (j : Fin 1024) : k2_pay1 (F := Ideal) (ix2 r j) = (0 : EReal) := by
  rw [pay2_1_eq, shapeCast_self]
  exact Ideal.ofBits_zero_f32

/-! ## One head's product added to the accumulator -/

/-- The second stored value is the accumulator plus the product of the head's block and the head's weight rows. -/
theorem pay2_2_eq (v3 : FVec Ideal S1x512x64 .bf16) (v5 : FVec Ideal S64x1024 .bf16) (v7 : FVec Ideal S512x1024 .f32) :
    k2_pay2 (F := Ideal) v3 v5 v7
      = shapeCast S512x1024
          (addf v7 (matmul dot_S512x64_S64x1024_S512x1024_1_0_0_1_n_n none (shapeCast S512x64 v3 shapeCasts_S1x512x64_S512x64)
            (shapeCast S64x1024 v5 shapeCasts_S64x1024_S64x1024) (constant S512x1024 .f32 0x00000000#32)))
          shapeCasts_S512x1024_S512x1024 := rfl

/-- Entry (r, j) of it: the accumulator's entry plus the inner product of row r of the head's block and column j of the
    head's weight rows. -/
theorem pay2_2_apply (v3 : Vec Ideal S1x512x64 .bf16) (v5 : Vec Ideal S64x1024 .bf16) (v7 : Vec Ideal S512x1024 .f32)
    (r : Fin 512) (j : Fin 1024) :
    k2_pay2 v3 v5 v7 (ix2 r j) = v7 (ix2 r j) + ∑ e : Fin 64, v3 (ix3 (0 : Fin 1) r e) * v5 (ix2 e j) := by
  rw [pay2_2_eq, shapeCast_self, shapeCast_self, addf_apply]
  refine congrArg (v7 (ix2 r j) + ·) ?_
  refine (Cert.Lib.DotCols.matmul_cols_apply (M := 512) (K := 64) (N := 1024) (φ₁ := .bf16) (φ₂ := .bf16)
    dot_S512x64_S64x1024_S512x1024_1_0_0_1_n_n rfl none (shapeCast S512x64 v3 shapeCasts_S1x512x64_S512x64) v5 r j).trans ?_
  refine Finset.sum_congr rfl fun e _ => ?_
  rw [shapeCast_1ab_ab_apply]

/-! ## The accumulator plus the bias row, stored at the last head -/

/-- The third stored value is the accumulator plus the bias row spread over the rows. -/
theorem pay2_3_eq (v16 : FVec Ideal S512x1024 .f32) (v17 : FVec Ideal S1x1024 .f32) :
    k2_pay3 (F := Ideal) v16 v17
      = addf v16 (broadcastTo S512x1024 (shapeCast S1x1024 v17 shapeCasts_S1x1024_S1x1024) broadcasts_S1x1024_S512x1024) := rfl

/-- Entry (r, j) of it: the accumulator's entry plus the bias row's entry j. -/
theorem pay2_3_apply (v16 : Vec Ideal S512x1024 .f32) (v17 : Vec Ideal S1x1024 .f32) (r : Fin 512) (j : Fin 1024) :
    k2_pay3 v16 v17 (ix2 r j) = v16 (ix2 r j) + v17 (ix2 (0 : Fin 1) j) := by
  rw [pay2_3_eq, shapeCast_self, addf_apply, broadcastTo_1b_ab_apply]

end Cert.KernelIdeal.HandValue

end
-- ==== Proof.I.Value2Acc.lean ====
/-
  The third call's accumulator, row block by row block.

  Point t = 16·i + h of the grid works on output rows 512·i … 512·i + 511 and on head h. Its head block is rows
  512·(i mod 4) … of head 16·(i / 4) + h of the heads' array (batch i / 4), its weight block is rows 64·h … 64·h + 63 of
  the weight, its bias block is the whole bias row. At h = 0 the accumulator becomes 0 plus the head's product, at
  every later h the head's product is added to it; so after h = 15 entry (r, j) of the accumulator is the sum over the
  sixteen heads of Σ_e a[head, row, e] · w[64·h + e, j], and the output block receives that plus the bias entry j:
  the specification's entry at row 512·i + r. Addition on the extended reals is commutative and associative, which is
  all the step-by-step sum needs.
-/
import proofs.«116995_j6871947673702_2_alg».proof.Proof.I.Value2Pieces
import proofs.«116995_j6871947673702_2_alg».proof.Proof.I.Value2Pay
import proofs.«116995_j6871947673702_2_alg».proof.Proof.Spec
import proofs.«116995_j6871947673702_2_alg».proof.Proof.LibGridAcc
import Idealize.ShloMosaic.Lib.Pipeline.Value
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

/-! ## One step of the accumulator, over any blocks -/

/-- The product of a 512 × 64 head block with a 64 × 1024 weight block, at entry (r, j). -/
def headProd2 (x0 : Vec Ideal S1x512x64 .bf16) (x1 : Vec Ideal S64x1024 .bf16) (r : Fin 512) (j : Fin 1024) : EReal :=
  ∑ e : Fin 64, x0 (ix3 (0 : Fin 1) r e) * x1 (ix2 e j)

/-- The first step: the head's product added to the zero array. -/
theorem first_entry2 (x0 : Vec Ideal S1x512x64 .bf16) (x1 : Vec Ideal S64x1024 .bf16) (r : Fin 512) (j : Fin 1024) :
    k2_pay2 x0 x1 (k2_pay1 (F := Ideal)) (ix2 r j) = 0 + headProd2 x0 x1 r j :=
  (pay2_2_apply x0 x1 (k2_pay1 (F := Ideal)) r j).trans (congrArg (· + _) (pay2_1_apply r j))

/-- A later step: the head's product added to what the accumulator held. -/
theorem next_entry2 (x0 : Vec Ideal S1x512x64 .bf16) (x1 : Vec Ideal S64x1024 .bf16) (xs : Vec Ideal S512x1024 .f32)
    (r : Fin 512) (j : Fin 1024) :
    k2_pay2 x0 x1 xs (ix2 r j) = xs (ix2 r j) + headProd2 x0 x1 r j :=
  pay2_2_apply x0 x1 xs r j

/-! ## The blocks at a grid point -/

variable (V : (c : Dev nD) → (b : Ref sig .tc) → Buf (Elt Ideal) ((c : Thread nD τ).loc b))

/-- The index maps, decided over the 256 points t = 16·i + h: the head block is block (16·(i / 4) + h, i mod 4, 0), the
    weight block is block row h, the bias is at block (0, 0), the output block is block row i. -/
theorem idx_facts2 : ∀ t : Fin cfg2.N,
    win2_0.index t (0 : Fin 3) = t.val / 16 / 4 * 16 + t.val % 16 ∧ win2_0.index t (1 : Fin 3) = t.val / 16 % 4
    ∧ win2_0.index t (2 : Fin 3) = 0
    ∧ win2_1.index t (0 : Fin 2) = t.val % 16 ∧ win2_1.index t (1 : Fin 2) = 0
    ∧ win2_2.index t (0 : Fin 2) = 0 ∧ win2_2.index t (1 : Fin 2) = 0
    ∧ win2_3.index t (0 : Fin 2) = t.val / 16 ∧ win2_3.index t (1 : Fin 2) = 0 :=
  (by decide +kernel : ∀ t : Fin grid2.N, _)

/-- Entry (0, r, e) of the head block at point t is entry (g, n, e) of the heads' array. -/
theorem iblk2_a (c : Dev nD) (t : Fin cfg2.N) (r : Fin 512) (e : Fin 64) (g : Fin 64) (n : Fin 2048)
    (hg : g.val = t.val / 16 / 4 * 16 + t.val % 16) (hn : n.val = t.val / 16 % 4 * 512 + r.val) :
    (Hand.iblk2 V c 0 t : Vec Ideal S1x512x64 .bf16) (ix3 (0 : Fin 1) r e)
      = (V c main_v18 : S64x2048x64.Idx → Ideal .bf16) (ix3 g n e) := by
  obtain ⟨e00, e01, e02, -⟩ := idx_facts2 t
  show V c main_v18 (((cfg2.win 0).blk t).view.emb (ix3 (0 : Fin 1) r e)) = V c main_v18 (ix3 g n e)
  have h : ((cfg2.win 0).blk t).view.emb (ix3 (0 : Fin 1) r e) = ix3 g n e := by
    funext a; apply Fin.ext
    match a with
    | ⟨0, _⟩ => show win2_0.index t (0 : Fin 3) * 1 + 1 * 0 = g.val; omega
    | ⟨1, _⟩ => show win2_0.index t (1 : Fin 3) * 512 + 1 * r.val = n.val; omega
    | ⟨2, _⟩ => show win2_0.index t (2 : Fin 3) * 64 + 1 * e.val = e.val; omega
  rw [h]

/-- Entry (e, j) of the weight block at point t is entry (ρ, j) of the weight, ρ = 64·h + e. -/
theorem iblk2_w (c : Dev nD) (t : Fin cfg2.N) (e : Fin 64) (j : Fin 1024) (ρ : Fin 1024)
    (hρ : ρ.val = t.val % 16 * 64 + e.val) :
    (Hand.iblk2 V c 1 t : Vec Ideal S64x1024 .bf16) (ix2 e j) = (V c main_v20 : S1024x1024.Idx → Ideal .bf16) (ix2 ρ j) := by
  obtain ⟨-, -, -, e10, e11, -⟩ := idx_facts2 t
  show V c main_v20 (((cfg2.win 1).blk t).view.emb (ix2 e j)) = V c main_v20 (ix2 ρ j)
  have h : ((cfg2.win 1).blk t).view.emb (ix2 e j) = ix2 ρ j := by
    funext a; apply Fin.ext
    match a with
    | ⟨0, _⟩ => show win2_1.index t (0 : Fin 2) * 64 + 1 * e.val = ρ.val; omega
    | ⟨1, _⟩ => show win2_1.index t (1 : Fin 2) * 1024 + 1 * j.val = j.val; omega
  rw [h]

/-- The bias row's block at every point is the whole bias row. -/
theorem iblk2_b (c : Dev nD) (t : Fin cfg2.N) :
    (Hand.iblk2 V c 2 t : Vec Ideal S1x1024 .f32) = (V c main_v21 : S1x1024.Idx → Ideal .f32) := by
  obtain ⟨-, -, -, -, -, e20, e21, -⟩ := idx_facts2 t
  funext y
  show V c main_v21 (((cfg2.win 2).blk t).view.emb y) = V c main_v21 y
  have h : ((cfg2.win 2).blk t).view.emb y = y := by
    funext a; apply Fin.ext
    match a with
    | ⟨0, _⟩ => show win2_2.index t (0 : Fin 2) * 1 + 1 * (y 0).val = (y 0).val; omega
    | ⟨1, _⟩ => show win2_2.index t (1 : Fin 2) * 1024 + 1 * (y 1).val = (y 1).val; omega
  rw [h]

/-! ## A head's contribution -/

/-- Output row 512·i + r. -/
def row2 (i : Fin 16) (r : Fin 512) : Fin 8192 := ⟨512 * i.val + r.val, by have := i.isLt; have := r.isLt; omega⟩

/-- Head h's contribution to entry (r, j) of row block i. -/
def term2 (a : FVec Ideal S64x2048x64 .bf16) (w : FVec Ideal S1024x1024 .bf16) (i h : Fin 16) (r : Fin 512)
    (j : Fin 1024) : EReal :=
  ∑ e : Fin 64, a (ix3 (Cert.Spec.headOf (row2 i r) h) (Cert.Spec.rowOf (row2 i r)) e) * w (ix2 (Cert.Spec.wrow h e) j)

/-- At point 16·i + h the product of the two blocks, at (r, j), is head h's contribution. -/
theorem blocks_term2 (c : Dev nD) (t : Fin cfg2.N) (i h : Fin 16) (ht : t.val = 16 * i.val + h.val)
    (r : Fin 512) (j : Fin 1024) :
    headProd2 (Hand.iblk2 V c 0 t) (Hand.iblk2 V c 1 t) r j = term2 (V c main_v18) (V c main_v20) i h r j := by
  have hi := i.isLt; have hh := h.isLt; have hr := r.isLt
  unfold headProd2 term2
  refine Finset.sum_congr rfl fun e _ => congrArg₂ (· * ·)
    (iblk2_a V c t r e (Cert.Spec.headOf (row2 i r) h) (Cert.Spec.rowOf (row2 i r)) ?_ ?_)
    (iblk2_w V c t e j (Cert.Spec.wrow h e) ?_)
  · show (512 * i.val + r.val) / 2048 * 16 + h.val = t.val / 16 / 4 * 16 + t.val % 16; omega
  · show (512 * i.val + r.val) % 2048 = t.val / 16 % 4 * 512 + r.val; omega
  · show h.val * 64 + e.val = t.val % 16 * 64 + e.val
    have he := e.isLt; omega

/-! ## The accumulator after each point -/

/-- After the first point of a row block: zero plus the first head's product. -/
theorem acc2_first (c : Dev nD) (n : ℕ) (hn : n < cfg2.N) (h0 : n % 16 = 0) (r : Fin 512) (j : Fin 1024) :
    Hand.accAt2 V c n hn (ix2 r j)
      = 0 + headProd2 (Hand.iblk2 V c 0 ⟨n, hn⟩) (Hand.iblk2 V c 1 ⟨n, hn⟩) r j := by
  rw [Hand.accAt2_first V c n hn h0]
  exact first_entry2 (Hand.iblk2 V c 0 ⟨n, hn⟩) (Hand.iblk2 V c 1 ⟨n, hn⟩) r j

/-- After any later point: what the point before left, plus this head's product. -/
theorem acc2_next (c : Dev nD) (n : ℕ) (hn : n + 1 < cfg2.N) (h0 : (n + 1) % 16 ≠ 0) (r : Fin 512) (j : Fin 1024) :
    Hand.accAt2 V c (n + 1) hn (ix2 r j)
      = Hand.accAt2 V c n (Nat.lt_of_succ_lt hn) (ix2 r j)
        + headProd2 (Hand.iblk2 V c 0 ⟨n + 1, hn⟩) (Hand.iblk2 V c 1 ⟨n + 1, hn⟩) r j := by
  rw [Hand.accAt2_next V c n hn h0]
  exact next_entry2 (Hand.iblk2 V c 0 ⟨n + 1, hn⟩) (Hand.iblk2 V c 1 ⟨n + 1, hn⟩)
    (Hand.accAt2 V c n (Nat.lt_of_succ_lt hn)) r j

/-- The accumulator's contents depend on the point's number only. -/
theorem accAt2_congr (c : Dev nD) {n n' : ℕ} (e : n = n') (hn : n < cfg2.N) (hn' : n' < cfg2.N) :
    Hand.accAt2 V c n hn = Hand.accAt2 V c n' hn' := by
  subst e; rfl

/-- After the last point of row block i, entry (r, j) of the accumulator is the sum of the sixteen heads'
    contributions. -/
theorem acc2_last (c : Dev nD) (i : Fin 16) (r : Fin 512) (j : Fin 1024) (hb : 16 * i.val + 15 < cfg2.N) :
    Hand.accAt2 V c (16 * i.val + 15) hb (ix2 r j) = ∑ h : Fin 16, term2 (V c main_v18) (V c main_v20) i h r j := by
  have hN : cfg2.N = 256 := N_2
  have hi := i.isLt
  have hlt : ∀ h : Fin 16, 16 * i.val + h.val < cfg2.N := fun h => by have := h.isLt; rw [hN]; omega
  refine Cert.Lib.GridAcc.acc_fin_eq_sum (n := 15)
    (fun h : Fin 16 => Hand.accAt2 V c (16 * i.val + h.val) (hlt h) (ix2 r j))
    (fun h : Fin 16 => term2 (V c main_v18) (V c main_v20) i h r j) ?_ ?_
  · show Hand.accAt2 V c (16 * i.val + 0) (hlt 0) (ix2 r j) = 0 + term2 (V c main_v18) (V c main_v20) i 0 r j
    have e := acc2_first V c (16 * i.val + 0) (hlt 0) (by omega) r j
    rw [blocks_term2 V c ⟨16 * i.val + 0, hlt 0⟩ i 0 rfl r j] at e
    exact e
  · intro h
    have hh := h.isLt
    show Hand.accAt2 V c ((16 * i.val + h.val) + 1) (hlt h.succ) (ix2 r j)
      = Hand.accAt2 V c (16 * i.val + h.val) (hlt h.castSucc) (ix2 r j) + term2 (V c main_v18) (V c main_v20) i h.succ r j
    have e := acc2_next V c (16 * i.val + h.val) (hlt h.succ) (by omega) r j
    rw [blocks_term2 V c ⟨(16 * i.val + h.val) + 1, hlt h.succ⟩ i h.succ rfl r j] at e
    exact e

/-! ## The output block at the last step -/

/-- At the last step of a row block the output block receives the accumulator plus the bias row. -/
theorem out2_at (c : Dev nD) (t : Fin cfg2.N) (h15 : t.val % 16 = 15) (r : Fin 512) (j : Fin 1024) :
    Hand.out2_3 V c t (ix2 r j)
      = Hand.accAt2 V c t.val t.isLt (ix2 r j) + (V c main_v21 : S1x1024.Idx → Ideal .f32) (ix2 (0 : Fin 1) j) := by
  rw [Hand.out2_3_last V c t h15]
  refine (pay2_3_apply (Hand.accAt2 V c t.val t.isLt) (Hand.iblk2 V c 2 t) r j).trans ?_
  exact congrArg (_ + ·) (congrFun (iblk2_b V c t) (ix2 (0 : Fin 1) j))

/-- So at point 16·i + 15 entry (r, j) of the output block is the specification's entry at row 512·i + r. -/
theorem out2_entry (c : Dev nD) (t : Fin cfg2.N) (i : Fin 16) (ht : t.val = 16 * i.val + 15) (r : Fin 512) (j : Fin 1024) :
    Hand.out2_3 V c t (ix2 r j)
      = Cert.Spec.proj (V c main_v18) (V c main_v20) (V c main_v21) (ix2 (row2 i r) j) := by
  have hb : 16 * i.val + 15 < cfg2.N := by rw [← ht]; exact t.isLt
  rw [out2_at V c t (by omega) r j, accAt2_congr V c ht t.isLt hb, acc2_last V c i r j hb]
  rfl

end Cert.KernelIdeal.HandValue

end
-- ==== Proof.I.Value2.lean ====
/-
  The projected output array after the 256 grid points, over the extended reals: entry (512·i + r, j) is the sum over
  the sixteen heads h and the 64 width coordinates e of a[16·(i / 4) + h, 512·(i mod 4) + r, e] · w[64·h + e, j], plus the
  bias entry j: the specification's value.

  Only the last step of a row block writes its output block back, and what it writes is rows 512·i … 512·i + 511 of
  the specification's array. Row ρ of the result lies in row block ρ / 512, which is written back at point
  16·(ρ / 512) + 15; so the sixteen written blocks cover the 8192 rows and the array ends as the specification's.
-/
import proofs.«116995_j6871947673702_2_alg».proof.Proof.I.Value2Acc

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What a point writes back -/

/-- What a point that writes back (the last step of row block i) writes is rows 512·i … 512·i + 511 of the
    specification's array. -/
theorem flushed2_eq (c : Dev nD) (t : Fin cfg2.N) (hf : (cfg2.win 3).flush t = true) :
    (Hand.dat2 V c).flushed 3 t
      = ((cfg2.win 3).blk t).view.read (Elt Ideal) (Cert.Spec.proj (V c main_v18) (V c main_v20) (V c main_v21)) := by
  have h15 : t.val % 16 = 15 := (flush2_3 t).mp hf
  have hN : cfg2.N = 256 := N_2
  have ht : t.val < cfg2.N := t.isLt
  obtain ⟨-, -, -, -, -, -, -, e30, e31⟩ := idx_facts2 t
  show (cfg2.win 3).cut (grid2.coords t) ((Hand.dat2 V c).after 3 t) = _
  rw [Hand.after2_3 V c t h15]
  funext jj
  obtain ⟨p, q, rfl⟩ : ∃ (p : Fin 512) (q : Fin 1024), jj = ix2 p q := ⟨jj 0, jj 1, eq_ix2 jj⟩
  obtain ⟨i, hi⟩ : ∃ i : Fin 16, t.val = 16 * i.val + 15 :=
    ⟨⟨t.val / 16, by omega⟩, by show t.val = 16 * (t.val / 16) + 15; omega⟩
  have hemb : ((cfg2.win 3).blk t).view.emb (ix2 p q) = ix2 (row2 i p) q := by
    funext a; apply Fin.ext
    match a with
    | ⟨0, _⟩ => show win2_3.index t (0 : Fin 2) * 512 + 1 * p.val = 512 * i.val + p.val; omega
    | ⟨1, _⟩ => show win2_3.index t (1 : Fin 2) * 1024 + 1 * q.val = q.val; omega
  show Hand.out2_3 V c t (ix2 p q)
    = Cert.Spec.proj (V c main_v18) (V c main_v20) (V c main_v21) (((cfg2.win 3).blk t).view.emb (ix2 p q))
  rw [hemb]
  exact out2_entry V c t i hi p q

/-! ## The sixteen written blocks cover the array -/

/-- An index of the result array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v22).slice (win2_3.rect t)).set ↔ _
  rw [View.set_slice_whole, Rect.mem_set_unit]
  exact Iff.rfl

/-- Row ρ of the result is in the block of point 16·(ρ / 512) + 15, which is written back. -/
theorem cover2 (i : S8192x1024.Idx) :
    ∃ t : Fin cfg2.N, (cfg2.win 3).flush t = true ∧ i ∈ ((cfg2.win 3).blk t).view.set := by
  have hN : cfg2.N = 256 := N_2
  have hi0 : (i 0).val < 8192 := (i 0).isLt
  have hi1 : (i 1).val < 1024 := (i 1).isLt
  obtain ⟨t, ht⟩ : ∃ t : Fin cfg2.N, t.val = 16 * ((i 0).val / 512) + 15 :=
    ⟨⟨16 * ((i 0).val / 512) + 15, by rw [hN]; omega⟩, rfl⟩
  obtain ⟨-, -, -, -, -, -, -, e30, e31⟩ := idx_facts2 t
  refine ⟨t, (flush2_3 t).mpr (by omega), ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-! ## The result array -/

/-- After the 256 points the result array holds the projection of the arrays the stage was entered with. -/
theorem final2 (c : Dev nD) :
    (Hand.dat2 V c).arrAt 3 cfg2.N = Cert.Spec.proj (V c main_v18) (V c main_v20) (V c main_v21) :=
  (Hand.dat2 V c).arrAt_eq_of_cover 3 (Cert.Spec.proj (V c main_v18) (V c main_v20) (V c main_v21))
    (fun t hf => flushed2_eq V c t hf) cover2

end Cert.KernelIdeal.HandValue

end
-- ==== Proof.lean ====
/-
  The certificate of a three-stage attention block against its plain reference.

  The program computes, for an input of 4 batches of 2048 tokens of width 1024: a dense layer to 3072 columns with a masked
  bias (queries, keys and values of 16 heads of width 64); inside every head the softmax attention of the 2048 queries
  against the 2048 keys (scores scaled by 1/8, the row maximum subtracted, exponentials, the row sum, each weight the
  exponential times the reciprocal of the row sum) applied to the values; and the projection of the 16 heads laid side by
  side by a second weight plus its bias, accumulated one head at a time. The reference computes the same with one product
  per stage, the softmax weights as quotients, and the heads merged before the projection.

  The frames: the whole program is run as seven segments (four stretches of host operations around three kernel regions),
  each region from its own body's run at every grid point (the third one's accumulator tracked from point to point), and
  the run ends with every buffer read against the last boundary's contents, which leaves the six arguments as launched.
  The reference's frame is its run with the result dropped. No rewrite was applied when the program was idealized.
  Equal results: the run's last boundary names the result array; the stages' outputs are the specification functions of
  the arrays they are entered with; the host operations between them are re-layouts read at an index; and for real inputs,
  which is what the precondition says, the composite is the reference's arithmetic entry by entry: the one law used beyond
  commutativity and associativity of the sums is E / L = E · (1 / L) for a nonzero real L.
-/
import proofs.«116995_j6871947673702_2_alg».proof.Defs
import proofs.«116995_j6871947673702_2_alg».proof.Proof.Gen.Kernel
import proofs.«116995_j6871947673702_2_alg».proof.Proof.Gen.KernelIdeal
import proofs.«116995_j6871947673702_2_alg».proof.Proof.Gen.ReferenceIdeal
import proofs.«116995_j6871947673702_2_alg».proof.Proof.Gen.Pre_finite_inputs
import proofs.«116995_j6871947673702_2_alg».proof.Proof.FrameClaims
import proofs.«116995_j6871947673702_2_alg».proof.Proof.RefFrame
import proofs.«116995_j6871947673702_2_alg».proof.Proof.Algebraic
import proofs.«116995_j6871947673702_2_alg».proof.Proof.I.Value2
import Idealize.ShloMosaic.Adequacy
import Idealize.ShloMosaic.Init

noncomputable section

namespace Cert.Proof

open Idealize.ShloMosaic Idealize.SL.Sem

/-- The idealization rewrote nothing. -/
theorem preserves : Cert.preserves_Kernel_KernelIdeal := trivial

/-- Equal results at the extended reals, from the projection region's value. -/
theorem algebraic : Cert.algebraic_KernelIdeal_ReferenceIdeal :=
  Alg.algebraic_of Cert.KernelIdeal.HandValue.final2

theorem claim : Cert.Claim :=
  ⟨Cert.Kernel.Gen.facts, Cert.KernelIdeal.Gen.facts, Cert.ReferenceIdeal.Gen.facts, Cert.Pre_finite_inputs.Gen.facts,
    Frames.frame_p, Frames.frame_pi, Cert.ReferenceIdeal.RefValue.frame_ri, preserves, algebraic⟩

end Cert.Proof

end
